-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x32x32 : Shape := ⟨4, ![8, 64, 32, 32]⟩
abbrev S8x64x1024 : Shape := ⟨3, ![8, 64, 1024]⟩
abbrev S_ : Shape := ⟨0, ![]⟩

class Facts : Prop where
  bcast_S_S8x64x32x32 : S_.BroadcastsInDim S8x64x32x32 (![] : Fin 0 → Fin S8x64x32x32.rank)
  reducesTo_S8x64x32x32_S_d0_1_2_3 : S8x64x32x32.ReducesTo [0, 1, 2, 3] S_
  h_S_ : 0 < S_.numel
  bcast_S_S8x64x1024 : S_.BroadcastsInDim S8x64x1024 (![] : Fin 0 → Fin S8x64x1024.rank)
  reducesTo_S8x64x1024_S_d0_1_2 : S8x64x1024.ReducesTo [0, 1, 2] S_

variable [Facts]

def fn {F : FTy → Type} [FloatOps F] (main_arg0 : FVec F S8x64x32x32 .f32) (main_arg1 : FVec F S8x64x1024 .f32) : IVec S_ 1 :=
  let main_v0 : FVec F S8x64x32x32 .f32 := Host.absf main_arg0
  let main_cst : FVec F S_ .f32 := constant S_ .f32 0x7F800000#32
  let main_v1 : FVec F S8x64x32x32 .f32 := broadcastInDim S8x64x32x32 ![] bcast_S_S8x64x32x32 main_cst
  let main_v2 : IVec S8x64x32x32 1 := cmpf .olt main_v0 main_v1
  let main_c : IVec S_ 1 := constantI S_ 1 1#1
  let main_v3 : IVec S_ 1 := (fun x v => Host.reduce IntOp.andi x v reducesTo_S8x64x32x32_S_d0_1_2_3 h_S_) main_v2 main_c
  let main_v4 : FVec F S8x64x1024 .f32 := Host.absf main_arg1
  let main_cst_0 : FVec F S_ .f32 := constant S_ .f32 0x7F800000#32
  let main_v5 : FVec F S8x64x1024 .f32 := broadcastInDim S8x64x1024 ![] bcast_S_S8x64x1024 main_cst_0
  let main_v6 : IVec S8x64x1024 1 := cmpf .olt main_v4 main_v5
  let main_c_1 : IVec S_ 1 := constantI S_ 1 1#1
  let main_v7 : IVec S_ 1 := (fun x v => Host.reduce IntOp.andi x v reducesTo_S8x64x1024_S_d0_1_2 h_S_) main_v6 main_c_1
  let main_v8 : IVec S_ 1 := andi main_v3 main_v7
  main_v8
-- ==== Kernel.lean ====
abbrev S8x64x32x32 : Shape := ⟨4, ![8, 64, 32, 32]⟩
abbrev S8x64x1024 : Shape := ⟨3, ![8, 64, 1024]⟩
abbrev S_ : Shape := ⟨0, ![]⟩
abbrev S8x64x32 : Shape := ⟨3, ![8, 64, 32]⟩
abbrev S8x64x32x1 : Shape := ⟨4, ![8, 64, 32, 1]⟩
abbrev S8x1x4 : Shape := ⟨3, ![8, 1, 4]⟩
abbrev S1x16x32x32 : Shape := ⟨4, ![1, 16, 32, 32]⟩
abbrev S1x16x1024 : Shape := ⟨3, ![1, 16, 1024]⟩
abbrev S1x1x4 : Shape := ⟨3, ![1, 1, 4]⟩
abbrev S1x1 : Shape := ⟨2, ![1, 1]⟩
abbrev S16x32x32 : Shape := ⟨3, ![16, 32, 32]⟩
abbrev S16x1024 : Shape := ⟨2, ![16, 1024]⟩
abbrev S16x1x1024 : Shape := ⟨3, ![16, 1, 1024]⟩
abbrev S16x16x1024 : Shape := ⟨3, ![16, 16, 1024]⟩
abbrev S16x16 : Shape := ⟨2, ![16, 16]⟩
abbrev S1x16x16 : Shape := ⟨3, ![1, 16, 16]⟩
abbrev S1 : Shape := ⟨1, ![1]⟩
abbrev S1x1x1 : Shape := ⟨3, ![1, 1, 1]⟩
abbrev S8x4 : Shape := ⟨2, ![8, 4]⟩
abbrev S8x1 : Shape := ⟨2, ![8, 1]⟩
abbrev S8 : Shape := ⟨1, ![8]⟩

abbrev nBuf : Space → Nat
  | .hbm => 51
  | .vmem => 14
  | .smem => 0
  | _ => 0

abbrev bufTy : (tb : Table) → Fin (tcTables nBuf tb) → BufTy
  | .hbm, ⟨0, _⟩ => ⟨S8x64x32x32, .f32⟩
  | .hbm, ⟨1, _⟩ => ⟨S8x64x1024, .f32⟩
  | .hbm, ⟨2, _⟩ => ⟨S_, .f32⟩
  | .hbm, ⟨3, _⟩ => ⟨S8x64x32, .f32⟩
  | .hbm, ⟨4, _⟩ => ⟨S_, .f32⟩
  | .hbm, ⟨5, _⟩ => ⟨S8x64x32, .f32⟩
  | .hbm, ⟨6, _⟩ => ⟨S8x64x32, .f32⟩
  | .hbm, ⟨7, _⟩ => ⟨S8x64x32x1, .f32⟩
  | .hbm, ⟨8, _⟩ => ⟨S8x64x32x32, .f32⟩
  | .hbm, ⟨9, _⟩ => ⟨S8x64x32x32, .f32⟩
  | .hbm, ⟨10, _⟩ => ⟨S8x64x32x32, .f32⟩
  | .hbm, ⟨11, _⟩ => ⟨S_, .f32⟩
  | .hbm, ⟨12, _⟩ => ⟨S8x64x32, .f32⟩
  | .hbm, ⟨13, _⟩ => ⟨S8x64x32x1, .f32⟩
  | .hbm, ⟨14, _⟩ => ⟨S8x64x32x1, .f32⟩
  | .hbm, ⟨15, _⟩ => ⟨S8x64x32x32, .f32⟩
  | .hbm, ⟨16, _⟩ => ⟨S8x64x32x32, .f32⟩
  | .hbm, ⟨17, _⟩ => ⟨S8x1x4, .f32⟩
  | .hbm, ⟨18, _⟩ => ⟨S8x4, .f32⟩
  | .hbm, ⟨19, _⟩ => ⟨S8x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S8x1, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S8x1, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1x16x32x32, .f32⟩
  | .local _ .vmem, ⟨1, _⟩ => ⟨S1x16x32x32, .f32⟩
  | .local _ .vmem, ⟨2, _⟩ => ⟨S1x16x32x32, .f32⟩
  | .local _ .vmem, ⟨3, _⟩ => ⟨S1x16x32x32, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x1x4, .f32⟩
  | .local _ .vmem, ⟨9, _⟩ => ⟨S1x1x4, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_cst_5 : Ref sig .tc := ⟨.hbm, 40, rfl⟩
abbrev main_call1_v0 : Ref sig .tc := ⟨.hbm, 41, rfl⟩
abbrev main_v18 : Ref sig .tc := ⟨.hbm, 42, rfl⟩
abbrev main_cst_6 : Ref sig .tc := ⟨.hbm, 43, rfl⟩
abbrev main_v19 : Ref sig .tc := ⟨.hbm, 44, rfl⟩
abbrev main_v20 : Ref sig .tc := ⟨.hbm, 45, rfl⟩
abbrev main_cst_7 : Ref sig .tc := ⟨.hbm, 46, rfl⟩
abbrev main_v21 : Ref sig .tc := ⟨.hbm, 47, rfl⟩
abbrev main_cst_8 : Ref sig .tc := ⟨.hbm, 48, rfl⟩
abbrev main_call2_v0 : Ref sig .tc := ⟨.hbm, 49, rfl⟩
abbrev main_v22 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg1 : BitVec 32 := BitVec.ofNat 32 (i 1).val
  let c3_i32 : BitVec 32 := 3#32
  let v8 : BitVec 1 := Scalar.cmpi .eq arg1 c3_i32
  let arg2 : BitVec 32 := BitVec.ofNat 32 (i 2).val
  let c3_i32_3 : BitVec 32 := 3#32
  let v9 : BitVec 1 := Scalar.cmpi .eq arg2 c3_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  reducesTo_S8x64x32x32_S8x64x32_d3 : S8x64x32x32.ReducesTo [3] S8x64x32
  h_S_ : 0 < S_.numel
  bcast_S_S8x64x32 : S_.BroadcastsInDim S8x64x32 (![] : Fin 0 → Fin S8x64x32.rank)
  bcast_S8x64x32_S8x64x32x1_0_1_2 : S8x64x32.BroadcastsInDim S8x64x32x1 (![0, 1, 2] : Fin 3 → Fin S8x64x32x1.rank)
  bcast_S8x64x32x1_S8x64x32x32_0_1_2_3 : S8x64x32x1.BroadcastsInDim S8x64x32x32 (![0, 1, 2, 3] : Fin 4 → Fin S8x64x32x32.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x16x32x32_S1x16x32x32_0_0_0_0 : ∀ a, (![0, 0, 0, 0] : Fin 4 → Nat) a + S1x16x32x32.size a ≤ S1x16x32x32.size a
  h_S1x16x32x32 : 0 < S1x16x32x32.numel
  shapeCasts_S1x16x32x32_S16x32x32 : S1x16x32x32.ShapeCasts S16x32x32
  shapeCasts_S16x32x32_S16x1024 : S16x32x32.ShapeCasts S16x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S16x1x1024 : S16x1024.ShapeCasts S16x1x1024
  shapeCasts_S16x1024_S1x16x1024 : S16x1024.ShapeCasts S1x16x1024
  broadcasts_S16x1x1024_S16x16x1024 : S16x1x1024.Broadcasts S16x16x1024
  broadcasts_S1x16x1024_S16x16x1024 : S1x16x1024.Broadcasts S16x16x1024
  reduces_S16x16x1024_S16x16 : S16x16x1024.Reduces [2] S16x16
  iota_S16x16_d0_w32 : S16x16.Iotas .tc 32 [0]
  iota_S16x16_d1_w32 : S16x16.Iotas .tc 32 [1]
  natLt_1_32 : 1 < 32
  shapeCasts_S16x16_S1x16x16 : S16x16.ShapeCasts S1x16x16
  reduces_S1x16x16_S1 : S1x16x16.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  concatenates_S1x1x1_S1x1x1_S1x1x1_S1x1x1_S1x1x4_d2 : Shape.Concatenates [S1x1x1, S1x1x1, S1x1x1, S1x1x1] S1x1x4 2
  inb_S1x1x4_S1x1x4_0_0_0 : ∀ a, (![0, 0, 0] : Fin 3 → Nat) a + S1x1x4.size a ≤ S1x1x4.size a
  h_S1x1x4 : 0 < S1x1x4.numel
  shapeCasts_S8x1x4_S8x4 : S8x1x4.ShapeCasts S8x4
  slices_S8x4_S8x1_0_0 : S8x4.Slices ![0, 0] S8x1
  shapeCasts_S8x1_S8 : S8x1.ShapeCasts S8
  reducesTo_S8_S_d0 : S8.ReducesTo [0] S_
  slices_S8x4_S8x1_0_1 : S8x4.Slices ![0, 1] S8x1
  slices_S8x4_S8x1_0_2 : S8x4.Slices ![0, 2] S8x1
  slices_S8x4_S8x1_0_3 : S8x4.Slices ![0, 3] S8x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32x32.size a ≤ S8x64x32x32.size a
  hwx0_0 : ∀ i : grid0.Coords, EltTy.bits .f32 = 32 ∨ (Rect.block (s := S8x64x32x32) S1x16x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32x32.size a ≤ S8x64x32x32.size a
  hwx0_1 : ∀ i : grid0.Coords, EltTy.bits .f32 = 32 ∨ (Rect.block (s := S8x64x32x32) S1x16x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024.size a ≤ S8x64x1024.size a
  hwx0_2 : ∀ i : grid0.Coords, EltTy.bits .f32 = 32 ∨ (Rect.block (s := S8x64x1024) S1x16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1024.size a ≤ S8x64x1024.size a
  hwx0_3 : ∀ i : grid0.Coords, EltTy.bits .f32 = 32 ∨ (Rect.block (s := S8x64x1024) S1x16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4.size a ≤ S8x1x4.size a
  hwx0_4 : ∀ i : grid0.Coords, EltTy.bits .f32 = 32 ∨ (Rect.block (s := S8x1x4) S1x1x4.size (cc0_transform_4 i) (hinb0_4 i)).WholeWords (EltTy.packing .f32)

variable [Facts₀]

abbrev win0_0 : Pipeline.Window sig grid0 :=
  Pipeline.Window.ofSpec (Memref.whole main_v0) S1x16x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8x64x32x32 : Shape := ⟨4, ![8, 64, 32, 32]⟩
abbrev S8x64x1024 : Shape := ⟨3, ![8, 64, 1024]⟩
abbrev S_ : Shape := ⟨0, ![]⟩
abbrev S8x64x32 : Shape := ⟨3, ![8, 64, 32]⟩
abbrev S8x64x32x1 : Shape := ⟨4, ![8, 64, 32, 1]⟩
abbrev S8x64x1x32x32 : Shape := ⟨5, ![8, 64, 1, 32, 32]⟩
abbrev S8x1x64x32x32 : Shape := ⟨5, ![8, 1, 64, 32, 32]⟩
abbrev S8x64x64x32x32 : Shape := ⟨5, ![8, 64, 64, 32, 32]⟩
abbrev S8x64x64x32 : Shape := ⟨4, ![8, 64, 64, 32]⟩
abbrev S8x64x64 : Shape := ⟨3, ![8, 64, 64]⟩
abbrev S64x64 : Shape := ⟨2, ![64, 64]⟩
abbrev S1x64x64 : Shape := ⟨3, ![1, 64, 64]⟩
abbrev S8x64x1x1024 : Shape := ⟨4, ![8, 64, 1, 1024]⟩
abbrev S8x1x64x1024 : Shape := ⟨4, ![8, 1, 64, 1024]⟩
abbrev S8x64x64x1024 : Shape := ⟨4, ![8, 64, 64, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8x64x32x32, .f32⟩
  | .hbm, ⟨1, _⟩ => ⟨S8x64x1024, .f32⟩
  | .hbm, ⟨2, _⟩ => ⟨S_, .f32⟩
  | .hbm, ⟨3, _⟩ => ⟨S8x64x32, .f32⟩
  | .hbm, ⟨4, _⟩ => ⟨S_, .f32⟩
  | .hbm, ⟨5, _⟩ => ⟨S8x64x32, .f32⟩
  | .hbm, ⟨6, _⟩ => ⟨S8x64x32, .f32⟩
  | .hbm, ⟨7, _⟩ => ⟨S8x64x32x1, .f32⟩
  | .hbm, ⟨8, _⟩ => ⟨S8x64x32x32, .f32⟩
  | .hbm, ⟨9, _⟩ => ⟨S8x64x32x32, .f32⟩
  | .hbm, ⟨10, _⟩ => ⟨S8x64x32x32, .f32⟩
  | .hbm, ⟨11, _⟩ => ⟨S_, .f32⟩
  | .hbm, ⟨12, _⟩ => ⟨S8x64x32, .f32⟩
  | .hbm, ⟨13, _⟩ => ⟨S8x64x32x1, .f32⟩
  | .hbm, ⟨14, _⟩ => ⟨S8x64x32x1, .f32⟩
  | .hbm, ⟨15, _⟩ => ⟨S8x64x32x32, .f32⟩
  | .hbm, ⟨16, _⟩ => ⟨S8x64x32x32, .f32⟩
  | .hbm, ⟨17, _⟩ => ⟨S8x64x32x32, .f32⟩
  | .hbm, ⟨18, _⟩ => ⟨S8x64x1x32x32, .f32⟩
  | .hbm, ⟨19, _⟩ => ⟨S8x1x64x32x32, .f32⟩
  | .hbm, ⟨20, _⟩ => ⟨S8x64x1x32x32, .f32⟩
  | .hbm, ⟨21, _⟩ => ⟨S8x1x64x32x32, .f32⟩
  | .hbm, ⟨22, _⟩ => ⟨S8x64x64x32x32, .f32⟩
  | .hbm, ⟨23, _⟩ => ⟨S8x64x64x32x32, .f32⟩
  | .hbm, ⟨24, _⟩ => ⟨S8x64x64x32x32, .f32⟩
  | .hbm, ⟨25, _⟩ => ⟨S_, .f32⟩
  | .hbm, ⟨26, _⟩ => ⟨S8x64x64x32x32, .f32⟩
  | .hbm, ⟨27, _⟩ => ⟨S8x64x64x32x32, .f32⟩
  | .hbm, ⟨28, _⟩ => ⟨S8x64x64x32x32, .f32⟩
  | .hbm, ⟨29, _⟩ => ⟨S8x64x64x32x32, .f32⟩
  | .hbm, ⟨30, _⟩ => ⟨S8x64x64x32x32, .f32⟩
  | .hbm, ⟨31, _⟩ => ⟨S8x64x64x32x32, .f32⟩
  | .hbm, ⟨32, _⟩ => ⟨S8x64x64x32x32, .f32⟩
  | .hbm, ⟨33, _⟩ => ⟨S_, .f32⟩
  | .hbm, ⟨34, _⟩ => ⟨S8x64x64x32, .f32⟩
  | .hbm, ⟨35, _⟩ => ⟨S8x64x64x32x32, .f32⟩
  | .hbm, ⟨36, _⟩ => ⟨S8x64x64x32x32, .f32⟩
  | .hbm, ⟨37, _⟩ => ⟨S8x64x64x32x32, .f32⟩
  | .hbm, ⟨38, _⟩ => ⟨S8x64x64x32x32, .f32⟩
  | .hbm, ⟨39, _⟩ => ⟨S_, .f32⟩
  | .hbm, ⟨40, _⟩ => ⟨S8x64x64x32, .f32⟩
  | .hbm, ⟨41, _⟩ => ⟨S8x64x64x32, .f32⟩
  | .hbm, ⟨42, _⟩ => ⟨S_, .f32⟩
  | .hbm, ⟨43, _⟩ => ⟨S8x64x64x32, .f32⟩
  | .hbm, ⟨44, _⟩ => ⟨S8x64x64x32, .f32⟩
  | .hbm, ⟨45, _⟩ => ⟨S_, .f32⟩
  | .hbm, ⟨46, _⟩ => ⟨S8x64x64, .f32⟩
  | .hbm, ⟨47, _⟩ => ⟨S_, .f32⟩
  | .hbm, ⟨48, _⟩ => ⟨S8x64x64, .f32⟩
  | .hbm, ⟨49, _⟩ => ⟨S8x64x64, .f32⟩
  | .hbm, ⟨50, _⟩ => ⟨S_, .f32⟩
  | .hbm, ⟨51, _⟩ => ⟨S8x64x64, .f32⟩
  | .hbm, ⟨52, _⟩ => ⟨S8x64x64, .f32⟩
  | .hbm, ⟨53, _⟩ => ⟨S_, .f32⟩
  | .hbm, ⟨54, _⟩ => ⟨S64x64, .f32⟩
  | .hbm, ⟨55, _⟩ => ⟨S64x64, .i32⟩
  | .hbm, ⟨56, _⟩ => ⟨S_, .i32⟩
  | .hbm, ⟨57, _⟩ => ⟨S64x64, .i32⟩
  | .hbm, ⟨58, _⟩ => ⟨S64x64, .i32⟩
  | .hbm, ⟨59, _⟩ => ⟨S64x64, .i32⟩
  | .hbm, ⟨60, _⟩ => ⟨S64x64, .i1⟩
  | .hbm, ⟨61, _⟩ => ⟨S_, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S8x64x64, .f32⟩
  | .hbm, ⟨66, _⟩ => ⟨S8x64x64, .i1⟩
  | .hbm, ⟨67, _⟩ => ⟨S8x64x64, .f32⟩
  | .hbm, ⟨68, _⟩ => ⟨S1x64x64, .f32⟩
  | .hbm, ⟨69, _⟩ => ⟨S8x64x64, .f32⟩
  | .hbm, ⟨70, _⟩ => ⟨S8x64x64, .f32⟩
  | .hbm, ⟨71, _⟩ => ⟨S_, .f32⟩
  | .hbm, ⟨72, _⟩ => ⟨S8x64x64, .f32⟩
  | .hbm, ⟨73, _⟩ => ⟨S8x64x64, .i1⟩
  | .hbm, ⟨74, _⟩ => ⟨S8x64x64, .f32⟩
  | .hbm, ⟨75, _⟩ => ⟨S1x64x64, .f32⟩
  | .hbm, ⟨76, _⟩ => ⟨S8x64x64, .f32⟩
  | .hbm, ⟨77, _⟩ => ⟨S8x64x64, .f32⟩
  | .hbm, ⟨78, _⟩ => ⟨S8x64x1x1024, .f32⟩
  | .hbm, ⟨79, _⟩ => ⟨S8x1x64x1024, .f32⟩
  | .hbm, ⟨80, _⟩ => ⟨S8x64x64x1024, .f32⟩
  | .hbm, ⟨81, _⟩ => ⟨S8x64x64x1024, .f32⟩
  | .hbm, ⟨82, _⟩ => ⟨S8x64x64x1024, .f32⟩
  | .hbm, ⟨83, _⟩ => ⟨S8x64x64x1024, .f32⟩
  | .hbm, ⟨84, _⟩ => ⟨S_, .f32⟩
  | .hbm, ⟨85, _⟩ => ⟨S8x64x64, .f32⟩
  | .hbm, ⟨86, _⟩ => ⟨S_, .f32⟩
  | .hbm, ⟨87, _⟩ => ⟨S8x64x64, .f32⟩
  | .hbm, ⟨88, _⟩ => ⟨S8x64x64, .f32⟩
  | .hbm, ⟨89, _⟩ => ⟨S8x64x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .i1⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S8x64x64, .f32⟩
  | .hbm, ⟨103, _⟩ => ⟨S_, .f32⟩
  | .hbm, ⟨104, _⟩ => ⟨S8x64x64, .f32⟩
  | .hbm, ⟨105, _⟩ => ⟨S8x64x64, .f32⟩
  | .hbm, ⟨106, _⟩ => ⟨S8x64x64, .f32⟩
  | .hbm, ⟨107, _⟩ => ⟨S8x64x64, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .i1⟩
  | .hbm, ⟨117, _⟩ => ⟨S_, .f32⟩
  | .hbm, ⟨118, _⟩ => ⟨S_, .f32⟩
  | .hbm, ⟨119, _⟩ => ⟨S_, .f32⟩
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_cst : Ref sig .tc := ⟨.hbm, 61, rfl⟩
abbrev main_call1_v5 : Ref sig .tc := ⟨.hbm, 62, rfl⟩
abbrev main_v31 : Ref sig .tc := ⟨.hbm, 63, rfl⟩
abbrev main_cst_7 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_8 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_9 : Ref sig .tc := ⟨.hbm, 84, rfl⟩
abbrev main_v50 : Ref sig .tc := ⟨.hbm, 85, rfl⟩
abbrev main_cst_10 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_11 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_cst_14 : Ref sig .tc := ⟨.hbm, 97, rfl⟩
abbrev main_v58 : Ref sig .tc := ⟨.hbm, 98, rfl⟩
abbrev main_cst_15 : Ref sig .tc := ⟨.hbm, 99, rfl⟩
abbrev main_call2_v0 : Ref sig .tc := ⟨.hbm, 100, rfl⟩
abbrev main_v59 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_17 : Ref sig .tc := ⟨.hbm, 108, rfl⟩
abbrev main_v65 : Ref sig .tc := ⟨.hbm, 109, rfl⟩
abbrev main_cst_18 : Ref sig .tc := ⟨.hbm, 110, rfl⟩
abbrev main_v66 : Ref sig .tc := ⟨.hbm, 111, rfl⟩
abbrev main_cst_19 : Ref sig .tc := ⟨.hbm, 112, rfl⟩
abbrev main_v67 : Ref sig .tc := ⟨.hbm, 113, rfl⟩
abbrev main_v68 : Ref sig .tc := ⟨.hbm, 114, rfl⟩
abbrev main_cst_20 : Ref sig .tc := ⟨.hbm, 115, rfl⟩
abbrev main_v69 : Ref sig .tc := ⟨.hbm, 116, rfl⟩
abbrev main_cst_21 : Ref sig .tc := ⟨.hbm, 117, rfl⟩
abbrev main_call3_v0 : Ref sig .tc := ⟨.hbm, 118, rfl⟩
abbrev main_v70 : Ref sig .tc := ⟨.hbm, 119, rfl⟩

abbrev nD : Nat := 1
abbrev τ : Topo := Topo.v7x

variable {F : FTy → Type} [FloatOps F]

class Facts₀ : Prop where
  reducesTo_S8x64x32x32_S8x64x32_d3 : S8x64x32x32.ReducesTo [3] S8x64x32
  h_S_ : 0 < S_.numel
  bcast_S_S8x64x32 : S_.BroadcastsInDim S8x64x32 (![] : Fin 0 → Fin S8x64x32.rank)
  bcast_S8x64x32_S8x64x32x1_0_1_2 : S8x64x32.BroadcastsInDim S8x64x32x1 (![0, 1, 2] : Fin 3 → Fin S8x64x32x1.rank)
  bcast_S8x64x32x1_S8x64x32x32_0_1_2_3 : S8x64x32x1.BroadcastsInDim S8x64x32x32 (![0, 1, 2, 3] : Fin 4 → Fin S8x64x32x32.rank)
  bcast_S8x64x32x32_S8x64x1x32x32_0_1_3_4 : S8x64x32x32.BroadcastsInDim S8x64x1x32x32 (![0, 1, 3, 4] : Fin 4 → Fin S8x64x1x32x32.rank)
  bcast_S8x64x32x32_S8x1x64x32x32_0_2_3_4 : S8x64x32x32.BroadcastsInDim S8x1x64x32x32 (![0, 2, 3, 4] : Fin 4 → Fin S8x1x64x32x32.rank)
  bcast_S8x64x1x32x32_S8x64x64x32x32_0_1_2_3_4 : S8x64x1x32x32.BroadcastsInDim S8x64x64x32x32 (![0, 1, 2, 3, 4] : Fin 5 → Fin S8x64x64x32x32.rank)
  bcast_S8x1x64x32x32_S8x64x64x32x32_0_1_2_3_4 : S8x1x64x32x32.BroadcastsInDim S8x64x64x32x32 (![0, 1, 2, 3, 4] : Fin 5 → Fin S8x64x64x32x32.rank)
  bcast_S_S8x64x64x32x32 : S_.BroadcastsInDim S8x64x64x32x32 (![] : Fin 0 → Fin S8x64x64x32x32.rank)
  reducesTo_S8x64x64x32x32_S8x64x64x32_d4 : S8x64x64x32x32.ReducesTo [4] S8x64x64x32
  bcast_S_S8x64x64x32 : S_.BroadcastsInDim S8x64x64x32 (![] : Fin 0 → Fin S8x64x64x32.rank)
  reducesTo_S8x64x64x32_S8x64x64_d3 : S8x64x64x32.ReducesTo [3] S8x64x64
  bcast_S_S8x64x64 : S_.BroadcastsInDim S8x64x64 (![] : Fin 0 → Fin S8x64x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S8x64x64_0_1_2 : S1x64x64.BroadcastsInDim S8x64x64 (![0, 1, 2] : Fin 3 → Fin S8x64x64.rank)
  bcast_S8x64x1024_S8x64x1x1024_0_1_3 : S8x64x1024.BroadcastsInDim S8x64x1x1024 (![0, 1, 3] : Fin 3 → Fin S8x64x1x1024.rank)
  bcast_S8x64x1024_S8x1x64x1024_0_2_3 : S8x64x1024.BroadcastsInDim S8x1x64x1024 (![0, 2, 3] : Fin 3 → Fin S8x1x64x1024.rank)
  bcast_S8x64x1x1024_S8x64x64x1024_0_1_2_3 : S8x64x1x1024.BroadcastsInDim S8x64x64x1024 (![0, 1, 2, 3] : Fin 4 → Fin S8x64x64x1024.rank)
  bcast_S8x1x64x1024_S8x64x64x1024_0_1_2_3 : S8x1x64x1024.BroadcastsInDim S8x64x64x1024 (![0, 1, 2, 3] : Fin 4 → Fin S8x64x64x1024.rank)
  reducesTo_S8x64x64x1024_S8x64x64_d3 : S8x64x64x1024.ReducesTo [3] S8x64x64
  reducesTo_S8x64x64_S_d0_1_2 : S8x64x64.ReducesTo [0, 1, 2] S_

variable [Facts₀]

class Facts : Prop extends Facts₀ where

variable [Facts]
-- ==== Proof.BodyCases.lean ====
/-
  The kernel body branches three times on the tile coordinates (I, J) of the grid point (b, I, J), 0 ≤ I, J < 4:
  it resets the four running sums at (0, 0), adds the tile pair's partial sums when I ≤ J, and writes the sums
  out at (3, 3).  With the 128 points numbered t = 16 b + 4 I + J these are t ≡ 0 (mod 16), (t / 4) mod 4 ≤ t mod 4
  and t ≡ 15 (mod 16); four combinations occur: the first pair, a pair on or above the diagonal in between, the
  last pair, and a pair below the diagonal.  The output block is stored only at the last pair of a batch, and is
  written back to its array exactly there.
-/
import proofs.«125674_j51513837748796_2_alg».proof.Proof.Gen.KernelIdeal.Launch
import proofs.«125674_j51513837748796_2_alg».proof.Proof.Gen.KernelIdeal.Skeleton
import proofs.«125674_j51513837748796_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The reset is taken exactly at the tile pair (0, 0). -/
abbrev cond1 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The partial sums are added exactly at the tile pairs (I, J) with I ≤ J. -/
abbrev cond2 (i : grid0.Coords) : Prop :=
  (Scalar.cmpi .ne (Scalar.extui (Scalar.cmpi .sle (BitVec.ofNat 32 (i 1).val) (BitVec.ofNat 32 (i 2).val))) 0#32) = 1#1
/-- The sums are written out exactly at the tile pair (3, 3). -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val / 4 % 4 ≤ t.val % 4 :=
  (by decide +kernel : ∀ t : Fin grid0.N, cond2 (grid0.coords t) ↔ t.val / 4 % 4 ≤ t.val % 4)
theorem hcond3 : ∀ t : Fin cfg0.N, cond3 (grid0.coords t) ↔ t.val % 16 = 15 :=
  (by decide +kernel : ∀ t : Fin grid0.N, cond3 (grid0.coords t) ↔ t.val % 16 = 15)

/-- The coordinates of point t: batch t / 16, query tile (t / 4) mod 4, key tile t mod 4. -/
theorem coords_val : ∀ t : Fin cfg0.N, ((grid0.coords t) 0).val = t.val / 16 ∧ ((grid0.coords t) 1).val = t.val / 4 % 4 ∧ ((grid0.coords t) 2).val = t.val % 4 :=
  (by decide +kernel : ∀ t : Fin grid0.N, ((grid0.coords t) 0).val = t.val / 16 ∧ ((grid0.coords t) 1).val = t.val / 4 % 4 ∧ ((grid0.coords t) 2).val = t.val % 4)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last pair of a batch the body stores nothing into the output block, -/
theorem idleAt4 : ∀ t : Fin cfg0.N, ¬cond3 (grid0.coords t) → cfg0.idle 4 (grid0.coords t) = true := by decide +kernel
/-- and the block is not written back there. -/
theorem noFlush4 : ∀ t : Fin cfg0.N, ¬cond3 (grid0.coords t) → (cfg0.win 4).flush t = false := by decide +kernel
/-- At the last pair it is stored. -/
theorem liveAt4 : ∀ t : Fin cfg0.N, cond3 (grid0.coords t) → cfg0.idle 4 (grid0.coords t) = false := by decide +kernel

/-! ## The memrefs the body is called with -/

abbrev ms0 (t : Fin cfg0.N) : Memref sig .tc .vmem S1x16x32x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x32x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x4 .f32 := win0_4.stage (cfg0.slots t 4)
abbrev hs4 (t : Fin cfg0.N) : (ms4 t).IsWhole := hstage0_4 ((cfg0.slots t 4).cast nbuf0_4)
/-- The four running sums' buffers. -/
abbrev sc0 : Memref sig .tc .vmem S1x1 .f32 := Memref.whole cc0_scratch0
abbrev sc1 : Memref sig .tc .vmem S1x1 .f32 := Memref.whole cc0_scratch1
abbrev sc2 : Memref sig .tc .vmem S1x1 .f32 := Memref.whole cc0_scratch2
abbrev sc3 : Memref sig .tc .vmem S1x1 .f32 := Memref.whole cc0_scratch3
/-- One staging buffer of the output window, through which its contents are stated. -/
abbrev VO : View sig .tc .vmem S1x1x4 .f32 := (Memref.whole cc0_stg4_0 : Memref sig .tc .vmem S1x1x4 .f32).view
abbrev VS0 : View sig .tc .vmem S1x1 .f32 := sc0.view
abbrev VS1 : View sig .tc .vmem S1x1 .f32 := sc1.view
abbrev VS2 : View sig .tc .vmem S1x1 .f32 := sc2.view
abbrev VS3 : View sig .tc .vmem S1x1 .f32 := sc3.view

/-- The region's invariant between points, with the four running sums' buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Body

end
-- ==== Proof.TileStep.lean ====
/-
  One tile pair's update of the four running sums, as functions of the two tile coordinates, the four input blocks
  (the query tile's and the key tile's log-probabilities and features) and the sum's value before: each is the value
  before plus the tile pair's partial sum (weighted squared differences, attracting weights, weighted energies,
  repelling weights), spelled with the kernel body's own arithmetic.  Also the reset value and the written-out row.
-/
import proofs.«125674_j51513837748796_2_alg».proof.Proof.Gen.KernelIdeal.Skeleton

noncomputable section

namespace Cert.KernelIdeal.Tile

open Cert.KernelIdeal Cert.KernelIdeal.Gen Idealize.ShloMosaic

variable {F : FTy → Type} [FloatOps F]

/-- The pair's divergences, from the two log-probability blocks. -/
def jsdBlock (x0 x1 : Vec F S1x16x32x32 .f32) : FVec F S16x16 .f32 := k0_pay11 x0 x1
/-- The global row numbers of the query tile `I`. -/
def rowsOf (I : BitVec 32) : IVec S16x16 32 := k0_pay12 I
/-- The pair's mean squared differences, from the two feature blocks. -/
def mseBlock (x2 x3 : Vec F S1x16x1024 .f32) : FVec F S16x16 .f32 := k0_pay16 (k0_pay9 x2) (k0_pay10 x3)
/-- The repelling weights of the pair. -/
def repBlock (I J : BitVec 32) (x0 x1 : Vec F S1x16x32x32 .f32) : FVec F S16x16 .f32 :=
  k0_pay15 J (jsdBlock x0 x1) (rowsOf I) 16#32

/-- Σ MSE · attracting weight, added to the first running sum. -/
def step0 (I J : BitVec 32) (x0 x1 : Vec F S1x16x32x32 .f32) (x2 x3 : Vec F S1x16x1024 .f32) (s : Vec F S1x1 .f32) : Vec F S1x1 .f32 :=
  k0_pay17 J (k0_pay9 x2) (k0_pay10 x3) (jsdBlock x0 x1) (rowsOf I) 16#32 s
/-- Σ attracting weight, added to the second. -/
def step1 (I J : BitVec 32) (x0 x1 : Vec F S1x16x32x32 .f32) (s : Vec F S1x1 .f32) : Vec F S1x1 .f32 :=
  k0_pay5 (k0_pay18 J (jsdBlock x0 x1) (rowsOf I) 16#32 s)
/-- Σ exp(−MSE) · repelling weight, added to the third. -/
def step2 (I J : BitVec 32) (x0 x1 : Vec F S1x16x32x32 .f32) (x2 x3 : Vec F S1x16x1024 .f32) (s : Vec F S1x1 .f32) : Vec F S1x1 .f32 :=
  k0_pay6 (repBlock I J x0 x1) (mseBlock x2 x3) s
/-- Σ repelling weight, added to the fourth. -/
def step3 (I J : BitVec 32) (x0 x1 : Vec F S1x16x32x32 .f32) (s : Vec F S1x1 .f32) : Vec F S1x1 .f32 :=
  k0_pay7 (repBlock I J x0 x1) s

/-- The four sums side by side, as the row written out. -/
def outRow (s0 s1 s2 s3 : Vec F S1x1 .f32) : Vec F S1x1x4 .f32 := k0_pay8 s0 s1 s2 s3

end Cert.KernelIdeal.Tile

end
-- ==== Proof.ProofData.lean ====
/-
  The pipeline's proof data.  The arrays are as the region finds them (after the log-softmax stretch of @main); an
  input window's buffer holds its block at every point; the four running sums after point t are, by recursion on t:
  at the first tile pair of a batch the pair's partial sums added to zero, at a later pair on or above the diagonal
  the pair's partial sums added to what the point before left, below the diagonal what the point before left.  The
  output block after the last pair of a batch is the four sums side by side.  The two log-probability windows read one
  array and the two feature windows another: each holds half of its array's read share.
-/
import proofs.«125674_j51513837748796_2_alg».proof.Proof.BodyCases
import proofs.«125674_j51513837748796_2_alg».proof.Proof.TileStep

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The region-entry contents and the windows' blocks -/

/-- Core `c`'s buffer contents when the region is entered: after the log-softmax stretch. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile coordinates of point `t`, as the body's words. -/
abbrev wI (t : Fin cfg0.N) : BitVec 32 := BitVec.ofNat 32 ((grid0.coords t) 1).val
abbrev wJ (t : Fin cfg0.N) : BitVec 32 := BitVec.ofNat 32 ((grid0.coords t) 2).val

/-! ## The four running sums, point by point -/

abbrev Acc (F : FTy → Type) [FloatOps F] : Type := Vec F S1x1 .f32 × Vec F S1x1 .f32 × Vec F S1x1 .f32 × Vec F S1x1 .f32

/-- The reset values. -/
def zeros : Acc F := (k0_pay1, k0_pay2, k0_pay3, k0_pay4)

/-- Point `t`'s tile pair added to the sums `s`. -/
def stepAll (c : Dev nD) (t : Fin cfg0.N) (s : Acc F) : Acc F :=
  (Tile.step0 (wI t) (wJ t) (iblk m c 0 t) (iblk m c 1 t) (iblk m c 2 t) (iblk m c 3 t) s.1,
   Tile.step1 (wI t) (wJ t) (iblk m c 0 t) (iblk m c 1 t) s.2.1,
   Tile.step2 (wI t) (wJ t) (iblk m c 0 t) (iblk m c 1 t) (iblk m c 2 t) (iblk m c 3 t) s.2.2.1,
   Tile.step3 (wI t) (wJ t) (iblk m c 0 t) (iblk m c 1 t) s.2.2.2)

/-- The sums after point `n`. -/
def accAt (c : Dev nD) : (n : ℕ) → n < cfg0.N → Acc F
  | 0, hn => stepAll m c ⟨0, hn⟩ zeros
  | n + 1, hn =>
    if (n + 1) % 16 = 0 then stepAll m c ⟨n + 1, hn⟩ zeros
    else if (n + 1) / 4 % 4 ≤ (n + 1) % 4 then stepAll m c ⟨n + 1, hn⟩ (accAt c n (Nat.lt_of_succ_lt hn))
    else accAt c n (Nat.lt_of_succ_lt hn)

theorem accAt_first (c : Dev nD) (t : Fin cfg0.N) (h : t.val % 16 = 0) : accAt m c t.val t.isLt = stepAll m c t zeros := by
  obtain ⟨n, hn⟩ := t
  cases n with
  | zero => rfl
  | succ n => exact (if_pos h)

theorem accAt_diag (c : Dev nD) (t : Fin cfg0.N) (h0 : ¬t.val % 16 = 0) (h2 : t.val / 4 % 4 ≤ t.val % 4) :
    accAt m c t.val t.isLt = stepAll m c t (accAt m c (t.val - 1) (Nat.lt_of_le_of_lt (Nat.sub_le _ _) t.isLt)) := by
  obtain ⟨n, hn⟩ := t
  cases n with
  | zero => exact absurd (Nat.zero_mod _) h0
  | succ n => exact (if_neg h0).trans (if_pos h2)

theorem accAt_below (c : Dev nD) (t : Fin cfg0.N) (h0 : ¬t.val % 16 = 0) (h2 : ¬t.val / 4 % 4 ≤ t.val % 4) :
    accAt m c t.val t.isLt = accAt m c (t.val - 1) (Nat.lt_of_le_of_lt (Nat.sub_le _ _) t.isLt) := by
  obtain ⟨n, hn⟩ := t
  cases n with
  | zero => exact absurd (Nat.zero_mod _) h0
  | succ n => exact (if_neg h0).trans (if_neg h2)

/-! ## The invariant between points -/

/-- Before the first point the four sums' buffers hold anything; before a later point, what the point before left. -/
def PhiS (c : Dev nD) : (n : ℕ) → n ≤ cfg0.N → sProp 𝕄
  | 0, _ => iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d))
  | n + 1, hn => iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) := by
  subst hz; rfl

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2) := rfl

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2.1
      ∗ owns (c : Thread nD τ) sc2 fullShare (accAt m c (n - 1) (by omega)).2.2.1 ∗ owns (c : Thread nD τ) sc3 fullShare (accAt m c (n - 1) (by omega)).2.2.2) := by
  cases n with
  | zero => exact absurd rfl hz
  | succ n => rfl

/-! ## The proof data -/

/-- The share of its array each input window holds: the two windows on one array split it. -/
def qOf : Fin cfg0.W → PosShare TreeShare
  | ⟨0, _⟩ => fullShare.left
  | ⟨1, _⟩ => fullShare.right
  | ⟨2, _⟩ => fullShare.left
  | ⟨3, _⟩ => fullShare.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Tile.outRow (accAt m c t.val t.isLt).1 (accAt m c t.val t.isLt).2.1 (accAt m c t.val t.isLt).2.2.1 (accAt m c t.val t.isLt).2.2.2
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = Tile.outRow (accAt m c t.val t.isLt).1 (accAt m c t.val t.isLt).2.1 (accAt m c t.val t.isLt).2.2.1 (accAt m c t.val t.isLt).2.2.2 := by
  dsimp only [dats]

/-- An input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Body

end
-- ==== Proof.RunFirst.lean ====
/-
  The body at the first tile pair (0, 0) of a batch: the four running sums are reset to zero, whatever they held, and
  the pair's partial sums are added; the output block is not touched.
-/
import proofs.«125674_j51513837748796_2_alg».proof.Proof.BodyCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each running sum's buffer ends with (the reset, then the update), with the body's run to them. -/
noncomputable def runFirst (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i)
    (x0 x1 : Vec F S1x16x32x32 .f32) (x2 x3 : Vec F S1x16x1024 .f32) :
    Σ' (L0 L1 L2 : List (View.Piece (Elt F) S1x1 .f32)), { L3 : List (View.Piece (Elt F) S1x1 .f32) //
      ∀ (xo : Vec F S1x1x4 .f32) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ owns (c : Thread nD τ) arg7 fullShare xo
                ∗ (∃ f, arg8.view.loc (c : Thread nD τ) ↦[arg8.view.set]{fullShare} arg8.view.writes (Elt F) f L0)
                ∗ (∃ f, arg9.view.loc (c : Thread nD τ) ↦[arg9.view.set]{fullShare} arg9.view.writes (Elt F) f L1)
                ∗ (∃ f, arg10.view.loc (c : Thread nD τ) ↦[arg10.view.set]{fullShare} arg10.view.writes (Elt F) f L2)
                ∗ (∃ f, arg11.view.loc (c : Thread nD τ) ↦[arg11.view.set]{fullShare} arg11.view.writes (Elt F) f L3)) -∗ K ⟨⟩))
          ⊢ wp frame (wpE (defs₀ (F := F)) Variants.none c none) E
              (cc0__sep_loss_kernel i arg3 harg3 arg4 harg4 arg5 harg5 arg6 harg6 arg7 harg7 arg8 harg8 arg9 harg9 arg10 harg10 arg11 harg11) K } := by
  refine ⟨?_, ?_, ?_, ?_, fun xo E K => ?run⟩
  case run =>
    simp only [cc0__sep_loss_kernel_eq_skeleton]; unfold cc0__sep_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%d0, %g0, -, S0⟩, ⟨%d1, %g1, -, S1⟩, ⟨%d2, %g2, -, S2⟩, ⟨%d3, %g3, -, S3⟩, Hk⟩
    obtain rfl := harg3.eq_unread hf0; obtain rfl := harg4.eq_unread hf1
    obtain rfl := harg5.eq_unread hf2; obtain rfl := harg6.eq_unread hf3
    obtain rfl := harg7.eq_unread hf4
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [S0]; · iexists _; iexact S0
    isplitl [S1]; · iexists _; iexact S1
    isplitl [S2]; · iexists _; iexact S2
    iexists _; iexact S3

end Cert.KernelIdeal.Body

end
-- ==== Proof.RunMid.lean ====
/-
  The body at a tile pair on or above the diagonal that is neither the first nor the last of its batch: each of the
  four running sums is read and stored back with the pair's partial sum added; the output block is not touched.
-/
import proofs.«125674_j51513837748796_2_alg».proof.Proof.BodyCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece each running sum's buffer ends with, with the body's run to it. -/
noncomputable def runMid (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i)
    (x0 x1 : Vec F S1x16x32x32 .f32) (x2 x3 : Vec F S1x16x1024 .f32) (s0 s1 s2 s3 : Vec F S1x1 .f32) :
    Σ' (L0 L1 L2 : List (View.Piece (Elt F) S1x1 .f32)), { L3 : List (View.Piece (Elt F) S1x1 .f32) //
      ∀ (xo : Vec F S1x1x4 .f32) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ owns (c : Thread nD τ) arg8 fullShare s0 ∗ owns (c : Thread nD τ) arg9 fullShare s1
            ∗ owns (c : Thread nD τ) arg10 fullShare s2 ∗ owns (c : Thread nD τ) arg11 fullShare s3
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ owns (c : Thread nD τ) arg7 fullShare xo
                ∗ (∃ f, arg8.view.loc (c : Thread nD τ) ↦[arg8.view.set]{fullShare} arg8.view.writes (Elt F) f L0)
                ∗ (∃ f, arg9.view.loc (c : Thread nD τ) ↦[arg9.view.set]{fullShare} arg9.view.writes (Elt F) f L1)
                ∗ (∃ f, arg10.view.loc (c : Thread nD τ) ↦[arg10.view.set]{fullShare} arg10.view.writes (Elt F) f L2)
                ∗ (∃ f, arg11.view.loc (c : Thread nD τ) ↦[arg11.view.set]{fullShare} arg11.view.writes (Elt F) f L3)) -∗ K ⟨⟩))
          ⊢ wp frame (wpE (defs₀ (F := F)) Variants.none c none) E
              (cc0__sep_loss_kernel i arg3 harg3 arg4 harg4 arg5 harg5 arg6 harg6 arg7 harg7 arg8 harg8 arg9 harg9 arg10 harg10 arg11 harg11) K } := by
  refine ⟨?_, ?_, ?_, ?_, fun xo E K => ?run⟩
  case run =>
    simp only [cc0__sep_loss_kernel_eq_skeleton]; unfold cc0__sep_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, Hk⟩
    obtain rfl := harg3.eq_unread hf0; obtain rfl := harg4.eq_unread hf1
    obtain rfl := harg5.eq_unread hf2; obtain rfl := harg6.eq_unread hf3
    obtain rfl := harg7.eq_unread hf4
    obtain rfl := harg8.eq_unread hg0; obtain rfl := harg9.eq_unread hg1
    obtain rfl := harg10.eq_unread hg2; obtain rfl := harg11.eq_unread hg3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [S0]; · iexists _; iexact S0
    isplitl [S1]; · iexists _; iexact S1
    isplitl [S2]; · iexists _; iexact S2
    iexists _; iexact S3

end Cert.KernelIdeal.Body

end
-- ==== Proof.RunLast.lean ====
/-
  The body at the last tile pair (3, 3) of a batch: each running sum is stored back with the pair's partial sum
  added, then the four sums are read and stored side by side into the output block, whatever it held.
-/
import proofs.«125674_j51513837748796_2_alg».proof.Proof.BodyCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece the output block and each running sum's buffer end with, with the body's run to them. -/
noncomputable def runLast (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i)
    (x0 x1 : Vec F S1x16x32x32 .f32) (x2 x3 : Vec F S1x16x1024 .f32) (s0 s1 s2 s3 : Vec F S1x1 .f32) :
    Σ' (LO : List (View.Piece (Elt F) S1x1x4 .f32)) (L0 L1 L2 : List (View.Piece (Elt F) S1x1 .f32)), { L3 : List (View.Piece (Elt F) S1x1 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ (∃ d, owns (c : Thread nD τ) arg7 fullShare d)
            ∗ owns (c : Thread nD τ) arg8 fullShare s0 ∗ owns (c : Thread nD τ) arg9 fullShare s1
            ∗ owns (c : Thread nD τ) arg10 fullShare s2 ∗ owns (c : Thread nD τ) arg11 fullShare s3
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f L0)
                ∗ (∃ f, arg9.view.loc (c : Thread nD τ) ↦[arg9.view.set]{fullShare} arg9.view.writes (Elt F) f L1)
                ∗ (∃ f, arg10.view.loc (c : Thread nD τ) ↦[arg10.view.set]{fullShare} arg10.view.writes (Elt F) f L2)
                ∗ (∃ f, arg11.view.loc (c : Thread nD τ) ↦[arg11.view.set]{fullShare} arg11.view.writes (Elt F) f L3)) -∗ K ⟨⟩))
          ⊢ wp frame (wpE (defs₀ (F := F)) Variants.none c none) E
              (cc0__sep_loss_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__sep_loss_kernel_eq_skeleton]; unfold cc0__sep_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, ⟨%g2, %hg2, S2⟩, ⟨%g3, %hg3, S3⟩, Hk⟩
    obtain rfl := harg3.eq_unread hf0; obtain rfl := harg4.eq_unread hf1
    obtain rfl := harg5.eq_unread hf2; obtain rfl := harg6.eq_unread hf3
    obtain rfl := harg8.eq_unread hg0; obtain rfl := harg9.eq_unread hg1
    obtain rfl := harg10.eq_unread hg2; obtain rfl := harg11.eq_unread hg3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [S0]; · iexists _; iexact S0
    isplitl [S1]; · iexists _; iexact S1
    isplitl [S2]; · iexists _; iexact S2
    iexists _; iexact S3

end Cert.KernelIdeal.Body

end
-- ==== Proof.PieceValue.lean ====
/-
  What each store of the body leaves, case by case: the pieces the three storing runs end with cover their buffers,
  and read back they are the tile pair's update of the running sums (over the reset value at the first pair of a
  batch) and, at the last pair, the four updated sums side by side.
-/
import proofs.«125674_j51513837748796_2_alg».proof.Proof.RunFirst
import proofs.«125674_j51513837748796_2_alg».proof.Proof.RunMid
import proofs.«125674_j51513837748796_2_alg».proof.Proof.RunLast
import proofs.«125674_j51513837748796_2_alg».proof.Proof.TileStep
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

theorem first_cover0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).1 S1x1.size (by sl_kernel_rfl) y

theorem first_piece0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS0.read (Elt F) (VS0.writes (Elt F) VS0.junk (runFirst c i arg3 harg3 arg4 harg4 arg5 harg5 arg6 harg6 arg7 harg7 arg8 harg8 arg9 harg9 arg10 harg10 arg11 harg11 h1 h2 h3 x0 x1 x2 x3).1)
      = Tile.step0 (BitVec.ofNat 32 (i 1).val) (BitVec.ofNat 32 (i 2).val) x0 x1 x2 x3 k0_pay1 := by
  rw [View.read_writes_eq_canon _ _ _ (first_cover0 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem first_cover1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).2.1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).2.1 S1x1.size (by sl_kernel_rfl) y

theorem first_piece1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS1.read (Elt F) (VS1.writes (Elt F) VS1.junk (runFirst c i arg3 harg3 arg4 harg4 arg5 harg5 arg6 harg6 arg7 harg7 arg8 harg8 arg9 harg9 arg10 harg10 arg11 harg11 h1 h2 h3 x0 x1 x2 x3).2.1)
      = Tile.step1 (BitVec.ofNat 32 (i 1).val) (BitVec.ofNat 32 (i 2).val) x0 x1 k0_pay2 := by
  rw [View.read_writes_eq_canon _ _ _ (first_cover1 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem first_cover2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).2.2.1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).2.2.1 S1x1.size (by sl_kernel_rfl) y

theorem first_piece2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS2.read (Elt F) (VS2.writes (Elt F) VS2.junk (runFirst c i arg3 harg3 arg4 harg4 arg5 harg5 arg6 harg6 arg7 harg7 arg8 harg8 arg9 harg9 arg10 harg10 arg11 harg11 h1 h2 h3 x0 x1 x2 x3).2.2.1)
      = Tile.step2 (BitVec.ofNat 32 (i 1).val) (BitVec.ofNat 32 (i 2).val) x0 x1 x2 x3 k0_pay3 := by
  rw [View.read_writes_eq_canon _ _ _ (first_cover2 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem first_cover3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).2.2.2.1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).2.2.2.1 S1x1.size (by sl_kernel_rfl) y

theorem first_piece3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS3.read (Elt F) (VS3.writes (Elt F) VS3.junk (runFirst c i arg3 harg3 arg4 harg4 arg5 harg5 arg6 harg6 arg7 harg7 arg8 harg8 arg9 harg9 arg10 harg10 arg11 harg11 h1 h2 h3 x0 x1 x2 x3).2.2.2.1)
      = Tile.step3 (BitVec.ofNat 32 (i 1).val) (BitVec.ofNat 32 (i 2).val) x0 x1 k0_pay4 := by
  rw [View.read_writes_eq_canon _ _ _ (first_cover3 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).1 S1x1.size (by sl_kernel_rfl) y

theorem mid_piece0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS0.read (Elt F) (VS0.writes (Elt F) VS0.junk (runMid c i arg3 harg3 arg4 harg4 arg5 harg5 arg6 harg6 arg7 harg7 arg8 harg8 arg9 harg9 arg10 harg10 arg11 harg11 h1 h2 h3 x0 x1 x2 x3 s0 s1 s2 s3).1)
      = Tile.step0 (BitVec.ofNat 32 (i 1).val) (BitVec.ofNat 32 (i 2).val) x0 x1 x2 x3 s0 := by
  rw [View.read_writes_eq_canon _ _ _ (mid_cover0 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).2.1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).2.1 S1x1.size (by sl_kernel_rfl) y

theorem mid_piece1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS1.read (Elt F) (VS1.writes (Elt F) VS1.junk (runMid c i arg3 harg3 arg4 harg4 arg5 harg5 arg6 harg6 arg7 harg7 arg8 harg8 arg9 harg9 arg10 harg10 arg11 harg11 h1 h2 h3 x0 x1 x2 x3 s0 s1 s2 s3).2.1)
      = Tile.step1 (BitVec.ofNat 32 (i 1).val) (BitVec.ofNat 32 (i 2).val) x0 x1 s1 := by
  rw [View.read_writes_eq_canon _ _ _ (mid_cover1 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).2.2.1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).2.2.1 S1x1.size (by sl_kernel_rfl) y

theorem mid_piece2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS2.read (Elt F) (VS2.writes (Elt F) VS2.junk (runMid c i arg3 harg3 arg4 harg4 arg5 harg5 arg6 harg6 arg7 harg7 arg8 harg8 arg9 harg9 arg10 harg10 arg11 harg11 h1 h2 h3 x0 x1 x2 x3 s0 s1 s2 s3).2.2.1)
      = Tile.step2 (BitVec.ofNat 32 (i 1).val) (BitVec.ofNat 32 (i 2).val) x0 x1 x2 x3 s2 := by
  rw [View.read_writes_eq_canon _ _ _ (mid_cover2 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).2.2.2.1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).2.2.2.1 S1x1.size (by sl_kernel_rfl) y

theorem mid_piece3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS3.read (Elt F) (VS3.writes (Elt F) VS3.junk (runMid c i arg3 harg3 arg4 harg4 arg5 harg5 arg6 harg6 arg7 harg7 arg8 harg8 arg9 harg9 arg10 harg10 arg11 harg11 h1 h2 h3 x0 x1 x2 x3 s0 s1 s2 s3).2.2.2.1)
      = Tile.step3 (BitVec.ofNat 32 (i 1).val) (BitVec.ofNat 32 (i 2).val) x0 x1 s3 := by
  rw [View.read_writes_eq_canon _ _ _ (mid_cover3 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.1 S1x1.size (by sl_kernel_rfl) y

theorem last_piece0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS0.read (Elt F) (VS0.writes (Elt F) VS0.junk (runLast c i arg3 harg3 arg4 harg4 arg5 harg5 arg6 harg6 arg7 harg7 arg8 harg8 arg9 harg9 arg10 harg10 arg11 harg11 h1 h2 h3 x0 x1 x2 x3 s0 s1 s2 s3).2.1)
      = Tile.step0 (BitVec.ofNat 32 (i 1).val) (BitVec.ofNat 32 (i 2).val) x0 x1 x2 x3 s0 := by
  rw [View.read_writes_eq_canon _ _ _ (last_cover0 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.2.1 S1x1.size (by sl_kernel_rfl) y

theorem last_piece1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS1.read (Elt F) (VS1.writes (Elt F) VS1.junk (runLast c i arg3 harg3 arg4 harg4 arg5 harg5 arg6 harg6 arg7 harg7 arg8 harg8 arg9 harg9 arg10 harg10 arg11 harg11 h1 h2 h3 x0 x1 x2 x3 s0 s1 s2 s3).2.2.1)
      = Tile.step1 (BitVec.ofNat 32 (i 1).val) (BitVec.ofNat 32 (i 2).val) x0 x1 s1 := by
  rw [View.read_writes_eq_canon _ _ _ (last_cover1 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.2.2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.2.2.1 S1x1.size (by sl_kernel_rfl) y

theorem last_piece2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS2.read (Elt F) (VS2.writes (Elt F) VS2.junk (runLast c i arg3 harg3 arg4 harg4 arg5 harg5 arg6 harg6 arg7 harg7 arg8 harg8 arg9 harg9 arg10 harg10 arg11 harg11 h1 h2 h3 x0 x1 x2 x3 s0 s1 s2 s3).2.2.2.1)
      = Tile.step2 (BitVec.ofNat 32 (i 1).val) (BitVec.ofNat 32 (i 2).val) x0 x1 x2 x3 s2 := by
  rw [View.read_writes_eq_canon _ _ _ (last_cover2 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.2.2.2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.2.2.2.1 S1x1.size (by sl_kernel_rfl) y

theorem last_piece3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS3.read (Elt F) (VS3.writes (Elt F) VS3.junk (runLast c i arg3 harg3 arg4 harg4 arg5 harg5 arg6 harg6 arg7 harg7 arg8 harg8 arg9 harg9 arg10 harg10 arg11 harg11 h1 h2 h3 x0 x1 x2 x3 s0 s1 s2 s3).2.2.2.2.1)
      = Tile.step3 (BitVec.ofNat 32 (i 1).val) (BitVec.ofNat 32 (i 2).val) x0 x1 s3 := by
  rw [View.read_writes_eq_canon _ _ _ (last_cover3 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_coverO (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1x4.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).1 S1x1x4.size (by sl_kernel_rfl) y

theorem last_pieceO (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VO.read (Elt F) (VO.writes (Elt F) VO.junk (runLast c i arg3 harg3 arg4 harg4 arg5 harg5 arg6 harg6 arg7 harg7 arg8 harg8 arg9 harg9 arg10 harg10 arg11 harg11 h1 h2 h3 x0 x1 x2 x3 s0 s1 s2 s3).1)
      = Tile.outRow (Tile.step0 (BitVec.ofNat 32 (i 1).val) (BitVec.ofNat 32 (i 2).val) x0 x1 x2 x3 s0) (Tile.step1 (BitVec.ofNat 32 (i 1).val) (BitVec.ofNat 32 (i 2).val) x0 x1 s1) (Tile.step2 (BitVec.ofNat 32 (i 1).val) (BitVec.ofNat 32 (i 2).val) x0 x1 x2 x3 s2) (Tile.step3 (BitVec.ofNat 32 (i 1).val) (BitVec.ofNat 32 (i 2).val) x0 x1 s3) := by
  rw [View.read_writes_eq_canon _ _ _ (last_coverO c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz3]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

end Cert.KernelIdeal.Body

end
-- ==== Proof.RunBelow.lean ====
/-
  The body at a tile pair below the diagonal: none of the three branches is taken and nothing is touched.
-/
import proofs.«125674_j51513837748796_2_alg».proof.Proof.BodyCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runBelow (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : ¬cond2 i) (h3 : ¬cond3 i) (E : Set ℕ) (K : PUnit → sProp 𝕄) :
    iprop(K ⟨⟩) ⊢ wp frame (wpE (defs₀ (F := F)) Variants.none c none) E
      (cc0__sep_loss_kernel i arg3 harg3 arg4 harg4 arg5 harg5 arg6 harg6 arg7 harg7 arg8 harg8 arg9 harg9 arg10 harg10 arg11 harg11) K := by
  simp only [cc0__sep_loss_kernel_eq_skeleton]; unfold cc0__sep_loss_kernel_skel
  iintro Hk
  sl_exec (disch := first | exact h1 | exact h2 | exact h3)
  sl_step
  iexact Hk

end Cert.KernelIdeal.Body

end
-- ==== Proof.BodyObligation.lean ====
/-
  The body obligation: at every grid point the body, called on the windows' current staging buffers (the inputs at
  their blocks, the output block at whatever the point before left) and the four running sums' buffers (at anything
  before the first point, else at what the point before left), runs to the same buffers with the sums at this
  point's values and, at the last tile pair of a batch, the output block at the four sums side by side.
-/
import proofs.«125674_j51513837748796_2_alg».proof.Proof.ProofData
import proofs.«125674_j51513837748796_2_alg».proof.Proof.PieceValue
import proofs.«125674_j51513837748796_2_alg».proof.Proof.RunBelow

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  have hN : t.val < 128 := lt_of_lt_of_eq t.isLt (show cfg0.N = 128 from N_0)
  by_cases h0 : t.val % 16 = 0
  · -- the first tile pair of a batch
    have hc1 : cond1 (grid0.coords t) := (hcond1 t).mpr h0
    have hc2 : cond2 (grid0.coords t) := (hcond2 t).mpr (by omega)
    have hc3 : ¬cond3 (grid0.coords t) := fun h => by have := (hcond3 t).mp h; omega
    rw [Dat.leavesExact_idle (dats m 0 c) 4 t (idleAt4 t hc3) (noFlush4 t hc3)]
    rw [accAt_first m c t h0]; unfold stepAll zeros; dsimp only
    by_cases hz : t.val = 0
    · rw [PhiS_castSucc m c t, PhiS_zero m c _ _ hz]
      iintro ⟨⟨S0, S1, S2, S3⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, ⟨%e0, S0⟩, ⟨%e1, S1⟩, ⟨%e2, S2⟩, ⟨%e3, S3⟩⟩
      isplitl [S0 S1 S2 S3]
      isplitl [S0]
      · unfold owns; iexists _; isplitr
        swap; · iexact S0
        ipureintro
        exact (View.read_writes_of_cover _ _ _ _ _ (first_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S1]
      · unfold owns; iexists _; isplitr
        swap; · iexact S1
        ipureintro
        exact (View.read_writes_of_cover _ _ _ _ _ (first_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S2]
      · unfold owns; iexists _; isplitr
        swap; · iexact S2
        ipureintro
        exact (View.read_writes_of_cover _ _ _ _ _ (first_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      · unfold owns; iexists _; isplitr
        swap; · iexact S3
        ipureintro
        exact (View.read_writes_of_cover _ _ _ _ _ (first_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      isplitl [S3]; · iexists _; iexact S3
      iintro ⟨H0, H1, H2, H3, H4, ⟨%e0, S0⟩, ⟨%e1, S1⟩, ⟨%e2, S2⟩, ⟨%e3, S3⟩⟩
      isplitl [S0 S1 S2 S3]
      isplitl [S0]
      · unfold owns; iexists _; isplitr
        swap; · iexact S0
        ipureintro
        exact (View.read_writes_of_cover _ _ _ _ _ (first_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S1]
      · unfold owns; iexists _; isplitr
        swap; · iexact S1
        ipureintro
        exact (View.read_writes_of_cover _ _ _ _ _ (first_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S2]
      · unfold owns; iexists _; isplitr
        swap; · iexact S2
        ipureintro
        exact (View.read_writes_of_cover _ _ _ _ _ (first_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      · unfold owns; iexists _; isplitr
        swap; · iexact S3
        ipureintro
        exact (View.read_writes_of_cover _ _ _ _ _ (first_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc1 : ¬cond1 (grid0.coords t) := fun h => h0 ((hcond1 t).mp h)
    by_cases h2 : t.val / 4 % 4 ≤ t.val % 4
    · have hc2 : cond2 (grid0.coords t) := (hcond2 t).mpr h2
      by_cases h15 : t.val % 16 = 15
      · -- the last tile pair of a batch
        have hc3 : cond3 (grid0.coords t) := (hcond3 t).mpr h15
        rw [show (dats m 0 c).leavesExact 4 t = owns (c : Thread nD τ) (ms4 t) fullShare ((dats m 0 c).after 4 t) from by
          unfold Dat.leavesExact; rw [liveAt4 t hc3], after4]
        rw [accAt_diag m c t h0 h2]; unfold stepAll; dsimp only
        rw [PhiS_castSucc m c t, PhiS_pos m c _ _ hz]
        iintro ⟨⟨S0, S1, S2, S3⟩, Ho, ⟨%d0, H0⟩, ⟨%d1, H1⟩, ⟨%d2, H2⟩, ⟨%d3, H3⟩, ⟨%d4, H4⟩⟩
        iapply ((runLast c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2).2.2.2.2.2 Set.univ _)
        isplitl [H0]; · iexact H0
        isplitl [H1]; · iexact H1
        isplitl [H2]; · iexact H2
        isplitl [H3]; · iexact H3
        isplitl [H4]; · iexists _; iexact H4
        isplitl [S0]; · iexact S0
        isplitl [S1]; · iexact S1
        isplitl [S2]; · iexact S2
        isplitl [S3]; · iexact S3
        iintro ⟨H0, H1, H2, H3, ⟨%e4, H4⟩, ⟨%e0, S0⟩, ⟨%e1, S1⟩, ⟨%e2, S2⟩, ⟨%e3, S3⟩⟩
        isplitl [S0 S1 S2 S3]
        isplitl [S0]
        · unfold owns; iexists _; isplitr
          swap; · iexact S0
          ipureintro
          exact (View.read_writes_of_cover _ _ _ _ _ (last_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S1]
        · unfold owns; iexists _; isplitr
          swap; · iexact S1
          ipureintro
          exact (View.read_writes_of_cover _ _ _ _ _ (last_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S2]
        · unfold owns; iexists _; isplitr
          swap; · iexact S2
          ipureintro
          exact (View.read_writes_of_cover _ _ _ _ _ (last_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        · unfold owns; iexists _; isplitr
          swap; · iexact S3
          ipureintro
          exact (View.read_writes_of_cover _ _ _ _ _ (last_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [Ho]; · iexact Ho
        isplitl [H0]; · iexact H0
        isplitl [H1]; · iexact H1
        isplitl [H2]; · iexact H2
        isplitl [H3]; · iexact H3
        unfold owns; iexists _; isplitr
        swap; · iexact H4
        ipureintro
        exact (View.read_writes_of_cover _ _ _ _ _ (last_coverO c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
          (last_pieceO c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
      · -- a tile pair on or above the diagonal in between
        have hc3 : ¬cond3 (grid0.coords t) := fun h => h15 ((hcond3 t).mp h)
        rw [Dat.leavesExact_idle (dats m 0 c) 4 t (idleAt4 t hc3) (noFlush4 t hc3)]
        rw [accAt_diag m c t h0 h2]; unfold stepAll; dsimp only
        rw [PhiS_castSucc m c t, PhiS_pos m c _ _ hz]
        iintro ⟨⟨S0, S1, S2, S3⟩, Ho, ⟨%d0, H0⟩, ⟨%d1, H1⟩, ⟨%d2, H2⟩, ⟨%d3, H3⟩, ⟨%d4, H4⟩⟩
        iapply ((runMid c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2).2.2.2.2 _ Set.univ _)
        isplitl [H0]; · iexact H0
        isplitl [H1]; · iexact H1
        isplitl [H2]; · iexact H2
        isplitl [H3]; · iexact H3
        isplitl [H4]; · iexact H4
        isplitl [S0]; · iexact S0
        isplitl [S1]; · iexact S1
        isplitl [S2]; · iexact S2
        isplitl [S3]; · iexact S3
        iintro ⟨H0, H1, H2, H3, H4, ⟨%e0, S0⟩, ⟨%e1, S1⟩, ⟨%e2, S2⟩, ⟨%e3, S3⟩⟩
        isplitl [S0 S1 S2 S3]
        isplitl [S0]
        · unfold owns; iexists _; isplitr
          swap; · iexact S0
          ipureintro
          exact (View.read_writes_of_cover _ _ _ _ _ (mid_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S1]
        · unfold owns; iexists _; isplitr
          swap; · iexact S1
          ipureintro
          exact (View.read_writes_of_cover _ _ _ _ _ (mid_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S2]
        · unfold owns; iexists _; isplitr
          swap; · iexact S2
          ipureintro
          exact (View.read_writes_of_cover _ _ _ _ _ (mid_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        · unfold owns; iexists _; isplitr
          swap; · iexact S3
          ipureintro
          exact (View.read_writes_of_cover _ _ _ _ _ (mid_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [Ho]; · iexact Ho
        isplitl [H0]; · iexact H0
        isplitl [H1]; · iexact H1
        isplitl [H2]; · iexact H2
        isplitl [H3]; · iexact H3
        iexists _; iexact H4
    · -- a tile pair below the diagonal
      have hc2 : ¬cond2 (grid0.coords t) := fun h => h2 ((hcond2 t).mp h)
      have hc3 : ¬cond3 (grid0.coords t) := fun h => by have := (hcond3 t).mp h; omega
      rw [Dat.leavesExact_idle (dats m 0 c) 4 t (idleAt4 t hc3) (noFlush4 t hc3)]
      rw [accAt_below m c t h0 h2]
      rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩⟩
      iapply (runBelow c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 Set.univ _)
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.LaunchA.lean ====
/-
  The launch.  @main is the log-softmax stretch, the region, and four stretches of host lines.  The region's five
  windows stand on three arrays — the two log-probability windows on the log-softmax's result, the two feature
  windows on the second argument, the output window on the result array — so each of the first two arrays is held
  in halves, one per window, while the region runs.  The lines after the region touch neither of those two
  arrays: they run over the output array and the buffers that bypass the region.  The run ends with every window's
  array at what the proof data computes and every bypassing buffer at what the lines leave.
-/
import proofs.«125674_j51513837748796_2_alg».proof.Proof.BodyObligation

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The lines of @main after the region. -/
abbrev tailOps : List (List (HloOp τ sig (Elt F))) := [hostOps1, hostOps1_1, hostOps1_2, hostOps1_3]

/-- The buffers those lines may touch: the output array and the buffers that bypass the region. -/
def tailS : Finset (DevRef τ sig) :=
  (insert main_v1 (Pipeline.restRefs sig spec0)).map ⟨Proc.devRef (sig := sig) .tc, Proc.devRef_injective _⟩

theorem mem_tailS (b : Ref sig .tc) (hs : b.isScoped = false) (h0 : b ≠ main_v0) (h1 : b ≠ main_arg1) : Proc.devRef .tc b ∈ tailS := by
  unfold tailS
  refine Finset.mem_map.mpr ⟨b, ?_, rfl⟩
  by_cases hb : b = main_v1
  · subst hb; exact Finset.mem_insert_self _ _
  · refine Finset.mem_insert_of_mem (Pipeline.mem_restRefs_of b hs ?_)
    intro w; fin_cases w <;> first | exact fun e => h0 e.symm | exact fun e => h1 e.symm | exact fun e => hb e.symm

theorem tail1_sub : ∀ op ∈ (hostOps1 : List (HloOp τ sig (Elt F))), op.bufs ⊆ tailS := by
  intro op hop
  simp only [hostOps1, List.mem_cons, List.mem_nil_iff, _root_.or_false] at hop
  rcases hop with rfl | rfl | rfl | rfl | rfl | rfl | rfl | rfl | rfl | rfl | rfl | rfl | rfl | rfl | rfl | rfl | rfl | rfl | rfl | rfl | rfl | rfl | rfl
  all_goals
    simp only [StableHlo.nullary_bufs, StableHlo.unary_bufs, StableHlo.binary_bufs, StableHlo.ternary_bufs, StableHlo.reshape_bufs]
    intro b hb
    simp only [Finset.mem_insert, Finset.mem_singleton] at hb
    rcases hb with rfl | rfl | rfl | rfl <;> exact mem_tailS _ rfl (by decide) (by decide)

theorem tail2_sub : ∀ op ∈ (hostOps1_1 : List (HloOp τ sig (Elt F))), op.bufs ⊆ tailS := by
  intro op hop
  simp only [hostOps1_1, List.mem_cons, List.mem_nil_iff, _root_.or_false] at hop
  rcases hop with rfl | rfl
  all_goals
    intro b hb
    simp only [StableHlo.TRef.unary, StableHlo.TRef.ternary, StableHlo.TRef.of, StableHlo.nullary_bufs, StableHlo.unary_bufs, StableHlo.binary_bufs, StableHlo.ternary_bufs, Finset.mem_insert, Finset.mem_singleton] at hb
    rcases hb with rfl | rfl | rfl | rfl <;> exact mem_tailS _ rfl (by decide) (by decide)

theorem tail3_sub : ∀ op ∈ (hostOps1_2 : List (HloOp τ sig (Elt F))), op.bufs ⊆ tailS := by
  intro op hop
  simp only [hostOps1_2, List.mem_cons, List.mem_nil_iff, _root_.or_false] at hop
  rcases hop with rfl | rfl | rfl | rfl | rfl | rfl
  all_goals
    simp only [StableHlo.nullary_bufs, StableHlo.unary_bufs, StableHlo.binary_bufs, StableHlo.ternary_bufs, StableHlo.reshape_bufs]
    intro b hb
    simp only [Finset.mem_insert, Finset.mem_singleton] at hb
    rcases hb with rfl | rfl | rfl | rfl <;> exact mem_tailS _ rfl (by decide) (by decide)

theorem tail4_sub : ∀ op ∈ (hostOps1_3 : List (HloOp τ sig (Elt F))), op.bufs ⊆ tailS := by
  intro op hop
  simp only [hostOps1_3, List.mem_cons, List.mem_nil_iff, _root_.or_false] at hop
  rcases hop with rfl | rfl
  all_goals
    intro b hb
    simp only [StableHlo.TRef.unary, StableHlo.TRef.ternary, StableHlo.TRef.of, StableHlo.nullary_bufs, StableHlo.unary_bufs, StableHlo.binary_bufs, StableHlo.ternary_bufs, Finset.mem_insert, Finset.mem_singleton] at hb
    rcases hb with rfl | rfl | rfl | rfl <;> exact mem_tailS _ rfl (by decide) (by decide)

theorem tail_sub : ∀ ops ∈ (tailOps : List (List (HloOp τ sig (Elt F)))), ∀ op ∈ ops, op.bufs ⊆ tailS := by
  intro ops hops
  simp only [List.mem_cons, List.mem_nil_iff, _root_.or_false] at hops
  rcases hops with rfl | rfl | rfl | rfl
  · exact tail1_sub
  · exact tail2_sub
  · exact tail3_sub
  · exact tail4_sub

theorem tail_fresh : ∀ ops ∈ (tailOps : List (List (HloOp τ sig (Elt F)))), ∀ op ∈ ops, op.fresh = ∅ := by
  intro ops hops
  simp only [List.mem_cons, List.mem_nil_iff, _root_.or_false] at hops
  rcases hops with rfl | rfl | rfl | rfl
  all_goals
    refine List.forall_iff_forall_mem.mp ?_
    simp only [List.Forall]; repeat' constructor

theorem main_v1_not_rest : main_v1 ∉ Pipeline.restRefs sig spec0 := by
  unfold Pipeline.restRefs
  intro h
  exact (Finset.mem_sdiff.mp h).2 (Finset.mem_image.mpr ⟨4, Finset.mem_univ _, rfl⟩)

/-- Held over those buffers: the output array, and each bypassing buffer. -/
theorem held_tailS (c : Dev nD) (W : Valuation τ sig (Elt F)) :
    (StableHlo.held (c : Thread nD τ) tailS W : sProp 𝕄)
      = iprop((((c : Thread nD τ).loc main_v1) ↦{fullShare} W (Proc.devRef .tc main_v1))
          ∗ bigSep (Pipeline.restRefs sig spec0) fun b => (((c : Thread nD τ).loc b) ↦{fullShare} W (Proc.devRef .tc b))) := by
  classical
  unfold StableHlo.held tailS
  rw [bigSep_map, BI.bigSep_insert main_v1_not_rest]
  rfl

set_option backward.isDefEq.respectTransparency.types false in
/-- The lines after the region run from those buffers at `W` to the same at the lines' result. -/
theorem tail_lines (𝒱₀ : Variants) (c : Dev nD) (W : Valuation τ sig (Elt F)) (Q' : PUnit → sProp 𝕄) :
    iprop(((StableHlo.held (c : Thread nD τ) tailS (StableHlo.after (tailOps (F := F)).flatten W) : sProp 𝕄) -∗ Q' ⟨⟩)
        ∗ boundary (c : Thread nD τ) ∗ (StableHlo.held (c : Thread nD τ) tailS W : sProp 𝕄))
      ⊢ wp frame (wpE (defs (F := F)) (Variants.lift 𝒱₀) (c : Thread nD τ) none) Set.univ
          (Pipeline.chain ((tailOps (F := F)).map StableHlo.seq)) Q' := by
  rw [← List.append_nil ((tailOps (F := F)).map StableHlo.seq)]
  iintro ⟨Hk, Hb⟩
  iapply (Pipeline.wp_seqs_then (pcfgs (F := F)) defs₀ 𝒱₀ c tailS [] tailOps tail_sub tail_fresh W) $$ Hb
  iintro Hb
  rw [Pipeline.chain_nil, wp_pure]
  imodintro
  iapply Hk
  icases Hb with ⟨-, H⟩
  iexact H

/-! ## @main around the region -/

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The arrays at the region's entry: one array, two windows -/

theorem arr_image : (Finset.univ.image (Pipeline.arrRef spec0) : Finset (Ref sig .tc)) = [main_v0, main_arg1, main_v1].toFinset := by decide

/-- The three distinct arrays behind the five windows, one by one. -/
theorem bigSep_arr {M : Type} [URA M] (Φ : Ref sig .tc → sProp M) :
    bigSep (Finset.univ.image (Pipeline.arrRef spec0)) Φ = iprop(Φ main_v0 ∗ Φ main_arg1 ∗ Φ main_v1) :=
  bigSep_eq_bigSepL_of_eq [main_v0, main_arg1, main_v1] arr_image (by decide) Φ

/-- The pipeline's `arrays`, window by window: two halves of the log-softmax's result, two halves of the second
    argument, and the output array whole. -/
theorem arrays_form (c : Dev nD) (G : (w : Fin cfg0.W) → Buf (Elt F) ((cfg0.win w).arr.view.loc (c.tc : Thread nD τ))) :
    (dats m 0 c).arrays G = iprop(
      (((c : Thread nD τ).loc main_v0) ↦{fullShare.left} G 0) ∗ (((c : Thread nD τ).loc main_v0) ↦{fullShare.right} G 1)
      ∗ (((c : Thread nD τ).loc main_arg1) ↦{fullShare.left} G 2) ∗ (((c : Thread nD τ).loc main_arg1) ↦{fullShare.right} G 3)
      ∗ (((c : Thread nD τ).loc main_v1) ↦{fullShare} G 4)) := by
  unfold Dat.arrays
  rw [bigSep_W0, (arr_whole0 0).set_eq_univ, (arr_whole0 2).set_eq_univ, (arr_whole0 4).set_eq_univ]
  rfl

theorem arrAt_zero (c : Dev nD) (w : Fin cfg0.W) : (dats m 0 c).arrAt w 0 = V m c (Pipeline.arrRef spec0 w) := A_eq m c w

theorem hsplit (c : Dev nD) :
    (Pipeline.arrBufs spec0 c (V m c) : sProp 𝕄) ⊢ (dats m 0 c).arrays ((dats m 0 c).arrAt · 0) := by
  rw [arrays_form, arrAt_zero, arrAt_zero, arrAt_zero, arrAt_zero, arrAt_zero]
  unfold Pipeline.arrBufs
  rw [bigSep_arr]
  iintro ⟨Ha, Hb, Hc⟩
  ihave Ha := (pointsTo_share (PosShare.mem_left_op_right fullShare)).1 $$ Ha
  icases Ha with ⟨Ha1, Ha2⟩
  ihave Hb := (pointsTo_share (PosShare.mem_left_op_right fullShare)).1 $$ Hb
  icases Hb with ⟨Hb1, Hb2⟩
  isplitl [Ha1]; · iexact Ha1
  isplitl [Ha2]; · iexact Ha2
  isplitl [Hb1]; · iexact Hb1
  isplitl [Hb2]; · iexact Hb2
  iexact Hc

end Cert.KernelIdeal.Body

end
-- ==== Proof.LaunchB.lean ====
/-
  The run of @main: every weakly fair execution terminates, nothing faulting, with the two results at what the four
  stretches of host lines after the region compute from the region's exit contents — the output array at what the
  write-backs left, every other buffer as the region was entered — and both arguments as launched.
-/
import proofs.«125674_j51513837748796_2_alg».proof.Proof.LaunchA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's exit and at the end -/

/-- At the region's exit: the output array at what the write-backs left, every other buffer as entered. -/
def Wexit (c : Dev nD) : Valuation τ sig (Elt F) :=
  Function.update (V0 m c) (Proc.devRef .tc main_v1) ((dats m 0 c).arrAt 4 cfg0.N)

/-- At the end: after the lines that follow the region. -/
def Wfin (c : Dev nD) : Valuation τ sig (Elt F) := StableHlo.after (tailOps (F := F)).flatten (Wexit m c)

theorem Wexit_out (c : Dev nD) : Wexit m c (Proc.devRef .tc main_v1) = (dats m 0 c).arrAt 4 cfg0.N := by
  unfold Wexit; exact Function.update_self _ _ _

theorem Wexit_rest (c : Dev nD) (b : Ref sig .tc) (hb : b ≠ main_v1) : Wexit m c (Proc.devRef .tc b) = V m c b := by
  unfold Wexit; exact Function.update_of_ne (StableHlo.devRef_ne_of_ne hb) _ _

/-- No line after the region writes the output array, -/
theorem Wfin_out (c : Dev nD) : Wfin m c (Proc.devRef .tc main_v1) = (dats m 0 c).arrAt 4 cfg0.N := by
  unfold Wfin
  rw [StableHlo.after_of_forall_not_mem (b := Proc.devRef .tc main_v1) _ _ (List.forall_iff_forall_mem.mp (by
      simp only [tailOps, hostOps1, hostOps1_1, hostOps1_2, hostOps1_3, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact Wexit_out m c

/-- nor the first argument; nor does the log-softmax stretch. -/
theorem Wfin_arg0 (c : Dev nD) : Wfin m c (Proc.devRef .tc main_arg0) = m ((c : Thread nD τ).loc main_arg0) := by
  unfold Wfin
  rw [StableHlo.after_of_forall_not_mem (b := Proc.devRef .tc main_arg0) _ _ (List.forall_iff_forall_mem.mp (by
      simp only [tailOps, hostOps1, hostOps1_1, hostOps1_2, hostOps1_3, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wexit_rest m c main_arg0 (by decide)]
  exact StableHlo.after_of_forall_not_mem (b := Proc.devRef .tc main_arg0) _ _ (List.forall_iff_forall_mem.mp (by
      simp only [hostOps0, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The log-softmax stretch does not write the second argument. -/
theorem V_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The invariant at the region's ends -/

theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) := by
  rw [scopedRest0_eq]; simp only [sc0, sc1, sc2, sc3, owns_whole]; try rfl

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_owns]

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_owns]
  iintro ⟨S0, S1, S2, S3⟩
  isplitl [S0]; · iexists _; iexact S0
  isplitl [S1]; · iexists _; iexact S1
  isplitl [S2]; · iexists _; iexact S2
  iexists _; iexact S3

/-! ## The lines after the region, from the region's exit -/

theorem rest_exit (c : Dev nD) :
    (bigSep (Pipeline.restRefs sig spec0) fun b => (((c : Thread nD τ).loc b) ↦{fullShare} Wexit m c (Proc.devRef .tc b)) : sProp 𝕄)
      = Pipeline.unscopedRest spec0 c (V m c) := by
  unfold Pipeline.unscopedRest
  exact bigSep_congr fun b hb => by
    rw [Wexit_rest m c b fun e => main_v1_not_rest (e ▸ hb)]

theorem held_exit (c : Dev nD) :
    (StableHlo.held (c : Thread nD τ) tailS (Wexit m c) : sProp 𝕄)
      = iprop((((c : Thread nD τ).loc main_v1) ↦{fullShare} (dats m 0 c).arrAt 4 cfg0.N)
          ∗ Pipeline.unscopedRest spec0 c (V m c)) := by
  rw [held_tailS, Wexit_out, rest_exit]

theorem held_fin (c : Dev nD) :
    (StableHlo.held (c : Thread nD τ) tailS (Wfin m c) : sProp 𝕄)
      = iprop((((c : Thread nD τ).loc main_v1) ↦{fullShare} (dats m 0 c).arrAt 4 cfg0.N)
          ∗ bigSep (Pipeline.restRefs sig spec0) fun b => (((c : Thread nD τ).loc b) ↦{fullShare} Wfin m c (Proc.devRef .tc b))) := by
  rw [held_tailS, Wfin_out]

end Cert.KernelIdeal.Body

end
-- ==== Proof.LaunchC.lean ====
/-
  The run of @main at any float instance: the launch theorem for a region whose windows may share arrays and whose
  @main continues after it, with the layout facts by name, the body obligation, the split of the arrays at entry, the
  four running sums' buffers through the invariant, and the lines after the region over the output array and the
  bypassing buffers.
-/
import proofs.«125674_j51513837748796_2_alg».proof.Proof.LaunchB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run ends with: the two results at what the lines after the region leave, the arguments as launched. -/
def RunPost (r : PUnit × MemSt nD τ sig (Elt F)) : Prop := ∀ c : Dev nD,
  r.2.mem ((c.tc : Thread nD τ).loc main_v18) = Wfin m c (Proc.devRef .tc main_v18)
  ∧ r.2.mem ((c.tc : Thread nD τ).loc main_v22) = Wfin m c (Proc.devRef .tc main_v22)
  ∧ r.2.mem ((c.tc : Thread nD τ).loc main_arg0) = m ((c.tc : Thread nD τ).loc main_arg0)
  ∧ r.2.mem ((c.tc : Thread nD τ).loc main_arg1) = m ((c.tc : Thread nD τ).loc main_arg1)

theorem rest_v18 : main_v18 ∈ Pipeline.restRefs sig spec0 := Pipeline.mem_restRefs_of main_v18 rfl (by intro w; fin_cases w <;> decide)
theorem rest_v22 : main_v22 ∈ Pipeline.restRefs sig spec0 := Pipeline.mem_restRefs_of main_v22 rfl (by intro w; fin_cases w <;> decide)
theorem rest_arg0 : main_arg0 ∈ Pipeline.restRefs sig spec0 := Pipeline.mem_restRefs_of main_arg0 rfl (by intro w; fin_cases w <;> decide)

set_option backward.isDefEq.respectTransparency.types false in
set_option maxHeartbeats 4000000 in
theorem run_main : θ_run defs (onTc (τ := τ) (main (F := F))) ⟨m, fun _ => 0, ρ⟩ (RunPost m) :=
  Pipeline.θ_run_region_noSem_pf_tail (fun q => (cfgs q).toPCfg) (fun q => (cfgs q).toPCfg_adm) (dats m) () cellOf_inj (0 : Fin 1)
    winFacts₀0 (Pipeline.PreFacts.none _) emb₁ defs₀ Variants.none m ρ main
    (fun _ => Pipeline.chain ((tailOps (F := F)).map StableHlo.seq))
    (hbody := fun c => (body_obligation m c).loose)
    (hne := block_pos0) (harr := arr_whole0) (hstage := stage_whole0) (howed := fun _ _ => rfl)
    (u₀ := Rounds.initOf (Pipeline.cells cfgs cellOf_inj) (Pipeline.launchToks cfgs cellOf_inj))
    (hu₀ := Idealize.SL.BI.Entails.refl _)
    (V := V m) (hmain := hmain m Variants.none)
    (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => bigSep (Pipeline.restRefs sig spec0) fun b => (((c : Thread nD τ).loc b) ↦{fullShare} Wfin m c (Proc.devRef .tc b)))
    (hX := fun c => by
      rw [Pipeline.unscopedRestP_none]
      iintro H
      isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, Hr⟩; iexact Hr).trans (hin m c))
    (hout := fun c => (hout m c).trans (by
      iintro Hr
      isplitr; · iempintro
      iexact Hr))
    (htail := fun c Q' => by
      rw [arrays_form]
      iintro ⟨Hk, Hb, ⟨A0, A1, A2, A3, A4⟩, HZ⟩
      iapply (tail_lines Variants.none c (Wexit m c) Q')
      isplitl [Hk A0 A1 A2 A3]
      · rw [show StableHlo.after (tailOps (F := F)).flatten (Wexit m c) = Wfin m c from rfl, held_fin]
        iintro ⟨A4, HZ⟩
        iapply Hk
        isplitl [A0 A1 A2 A3 A4]
        · isplitl [A0]; · iexact A0
          isplitl [A1]; · iexact A1
          isplitl [A2]; · iexact A2
          isplitl [A3]; · iexact A3
          iexact A4
        iexact HZ
      isplitl [Hb]; · iexact Hb
      rw [held_exit]
      isplitl [A4]; · iexact A4
      iexact HZ)
    (QY := fun c s => ∀ b ∈ Pipeline.restRefs sig spec0, s.mem ((c.tc : Thread nD τ).loc b) = Wfin m c (Proc.devRef .tc b))
    (hY := fun c s' => by
      iintro ⟨-, HU, HSI⟩
      imodintro
      iapply (pointsTo_read_all (Pipeline.restRefs sig spec0) (fun b => (c.tc : Thread nD τ).loc b) (fun b => Wfin m c (Proc.devRef .tc b)) s')
      isplitl [HU] <;> iassumption)
    (hQ := fun s h c => ⟨(h c).2.2 main_v18 rest_v18, (h c).2.2 main_v22 rest_v22,
      ((h c).2.2 main_arg0 rest_arg0).trans (Wfin_arg0 m c),
      ((h c).1 2).trans (((dats m 0 c).arrAt_in 2 rfl _).trans ((A_eq m c 2).trans (V_arg1 m c)))⟩)

end Cert.KernelIdeal.Body

end
-- ==== Proof.KBodyCases.lean ====
/-
  The kernel body branches three times on the tile coordinates (I, J) of the grid point (b, I, J), 0 ≤ I, J < 4:
  it resets the four running sums at (0, 0), adds the tile pair's partial sums when I ≤ J, and writes the sums
  out at (3, 3).  With the 128 points numbered t = 16 b + 4 I + J these are t ≡ 0 (mod 16), (t / 4) mod 4 ≤ t mod 4
  and t ≡ 15 (mod 16); four combinations occur: the first pair, a pair on or above the diagonal in between, the
  last pair, and a pair below the diagonal.  The output block is stored only at the last pair of a batch, and is
  written back to its array exactly there.
-/
import proofs.«125674_j51513837748796_2_alg».proof.Proof.Gen.Kernel.Launch
import proofs.«125674_j51513837748796_2_alg».proof.Proof.Gen.Kernel.Skeleton
import proofs.«125674_j51513837748796_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The reset is taken exactly at the tile pair (0, 0). -/
abbrev cond1 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The partial sums are added exactly at the tile pairs (I, J) with I ≤ J. -/
abbrev cond2 (i : grid0.Coords) : Prop :=
  (Scalar.cmpi .ne (Scalar.extui (Scalar.cmpi .sle (BitVec.ofNat 32 (i 1).val) (BitVec.ofNat 32 (i 2).val))) 0#32) = 1#1
/-- The sums are written out exactly at the tile pair (3, 3). -/
abbrev cond3 (i : grid0.Coords) : Prop := k0_cond3 i = 1#1

theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val / 4 % 4 ≤ t.val % 4 :=
  (by decide +kernel : ∀ t : Fin grid0.N, cond2 (grid0.coords t) ↔ t.val / 4 % 4 ≤ t.val % 4)
theorem hcond3 : ∀ t : Fin cfg0.N, cond3 (grid0.coords t) ↔ t.val % 16 = 15 :=
  (by decide +kernel : ∀ t : Fin grid0.N, cond3 (grid0.coords t) ↔ t.val % 16 = 15)

/-- The coordinates of point t: batch t / 16, query tile (t / 4) mod 4, key tile t mod 4. -/
theorem coords_val : ∀ t : Fin cfg0.N, ((grid0.coords t) 0).val = t.val / 16 ∧ ((grid0.coords t) 1).val = t.val / 4 % 4 ∧ ((grid0.coords t) 2).val = t.val % 4 :=
  (by decide +kernel : ∀ t : Fin grid0.N, ((grid0.coords t) 0).val = t.val / 16 ∧ ((grid0.coords t) 1).val = t.val / 4 % 4 ∧ ((grid0.coords t) 2).val = t.val % 4)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last pair of a batch the body stores nothing into the output block, -/
theorem idleAt4 : ∀ t : Fin cfg0.N, ¬cond3 (grid0.coords t) → cfg0.idle 4 (grid0.coords t) = true := by decide +kernel
/-- and the block is not written back there. -/
theorem noFlush4 : ∀ t : Fin cfg0.N, ¬cond3 (grid0.coords t) → (cfg0.win 4).flush t = false := by decide +kernel
/-- At the last pair it is stored. -/
theorem liveAt4 : ∀ t : Fin cfg0.N, cond3 (grid0.coords t) → cfg0.idle 4 (grid0.coords t) = false := by decide +kernel

/-! ## The memrefs the body is called with -/

abbrev ms0 (t : Fin cfg0.N) : Memref sig .tc .vmem S1x16x32x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x32x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x4 .f32 := win0_4.stage (cfg0.slots t 4)
abbrev hs4 (t : Fin cfg0.N) : (ms4 t).IsWhole := hstage0_4 ((cfg0.slots t 4).cast nbuf0_4)
/-- The four running sums' buffers. -/
abbrev sc0 : Memref sig .tc .vmem S1x1 .f32 := Memref.whole cc0_scratch0
abbrev sc1 : Memref sig .tc .vmem S1x1 .f32 := Memref.whole cc0_scratch1
abbrev sc2 : Memref sig .tc .vmem S1x1 .f32 := Memref.whole cc0_scratch2
abbrev sc3 : Memref sig .tc .vmem S1x1 .f32 := Memref.whole cc0_scratch3
/-- One staging buffer of the output window, through which its contents are stated. -/
abbrev VO : View sig .tc .vmem S1x1x4 .f32 := (Memref.whole cc0_stg4_0 : Memref sig .tc .vmem S1x1x4 .f32).view
abbrev VS0 : View sig .tc .vmem S1x1 .f32 := sc0.view
abbrev VS1 : View sig .tc .vmem S1x1 .f32 := sc1.view
abbrev VS2 : View sig .tc .vmem S1x1 .f32 := sc2.view
abbrev VS3 : View sig .tc .vmem S1x1 .f32 := sc3.view

/-- The region's invariant between points, with the four running sums' buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.Kernel.Body

end
-- ==== Proof.KTileStep.lean ====
/-
  One tile pair's update of the four running sums, as functions of the two tile coordinates, the four input blocks
  (the query tile's and the key tile's log-probabilities and features) and the sum's value before: each is the value
  before plus the tile pair's partial sum (weighted squared differences, attracting weights, weighted energies,
  repelling weights), spelled with the kernel body's own arithmetic.  Also the reset value and the written-out row.
-/
import proofs.«125674_j51513837748796_2_alg».proof.Proof.Gen.Kernel.Skeleton

noncomputable section

namespace Cert.Kernel.Tile

open Cert.Kernel Cert.Kernel.Gen Idealize.ShloMosaic

variable {F : FTy → Type} [FloatOps F]

/-- The pair's divergences, from the two log-probability blocks. -/
def jsdBlock (x0 x1 : Vec F S1x16x32x32 .f32) : FVec F S16x16 .f32 := k0_pay11 x0 x1
/-- The global row numbers of the query tile `I`. -/
def rowsOf (I : BitVec 32) : IVec S16x16 32 := k0_pay12 I
/-- The pair's mean squared differences, from the two feature blocks. -/
def mseBlock (x2 x3 : Vec F S1x16x1024 .f32) : FVec F S16x16 .f32 := k0_pay16 (k0_pay9 x2) (k0_pay10 x3)
/-- The repelling weights of the pair. -/
def repBlock (I J : BitVec 32) (x0 x1 : Vec F S1x16x32x32 .f32) : FVec F S16x16 .f32 :=
  k0_pay15 J (jsdBlock x0 x1) (rowsOf I) 16#32

/-- Σ MSE · attracting weight, added to the first running sum. -/
def step0 (I J : BitVec 32) (x0 x1 : Vec F S1x16x32x32 .f32) (x2 x3 : Vec F S1x16x1024 .f32) (s : Vec F S1x1 .f32) : Vec F S1x1 .f32 :=
  k0_pay17 J (k0_pay9 x2) (k0_pay10 x3) (jsdBlock x0 x1) (rowsOf I) 16#32 s
/-- Σ attracting weight, added to the second. -/
def step1 (I J : BitVec 32) (x0 x1 : Vec F S1x16x32x32 .f32) (s : Vec F S1x1 .f32) : Vec F S1x1 .f32 :=
  k0_pay5 (k0_pay18 J (jsdBlock x0 x1) (rowsOf I) 16#32 s)
/-- Σ exp(−MSE) · repelling weight, added to the third. -/
def step2 (I J : BitVec 32) (x0 x1 : Vec F S1x16x32x32 .f32) (x2 x3 : Vec F S1x16x1024 .f32) (s : Vec F S1x1 .f32) : Vec F S1x1 .f32 :=
  k0_pay6 (repBlock I J x0 x1) (mseBlock x2 x3) s
/-- Σ repelling weight, added to the fourth. -/
def step3 (I J : BitVec 32) (x0 x1 : Vec F S1x16x32x32 .f32) (s : Vec F S1x1 .f32) : Vec F S1x1 .f32 :=
  k0_pay7 (repBlock I J x0 x1) s

/-- The four sums side by side, as the row written out. -/
def outRow (s0 s1 s2 s3 : Vec F S1x1 .f32) : Vec F S1x1x4 .f32 := k0_pay8 s0 s1 s2 s3

end Cert.Kernel.Tile

end
-- ==== Proof.KProofData.lean ====
/-
  The pipeline's proof data.  The arrays are as the region finds them (after the log-softmax stretch of @main); an
  input window's buffer holds its block at every point; the four running sums after point t are, by recursion on t:
  at the first tile pair of a batch the pair's partial sums added to zero, at a later pair on or above the diagonal
  the pair's partial sums added to what the point before left, below the diagonal what the point before left.  The
  output block after the last pair of a batch is the four sums side by side.  The two log-probability windows read one
  array and the two feature windows another: each holds half of its array's read share.
-/
import proofs.«125674_j51513837748796_2_alg».proof.Proof.KBodyCases
import proofs.«125674_j51513837748796_2_alg».proof.Proof.KTileStep

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The region-entry contents and the windows' blocks -/

/-- Core `c`'s buffer contents when the region is entered: after the log-softmax stretch. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile coordinates of point `t`, as the body's words. -/
abbrev wI (t : Fin cfg0.N) : BitVec 32 := BitVec.ofNat 32 ((grid0.coords t) 1).val
abbrev wJ (t : Fin cfg0.N) : BitVec 32 := BitVec.ofNat 32 ((grid0.coords t) 2).val

/-! ## The four running sums, point by point -/

abbrev Acc (F : FTy → Type) [FloatOps F] : Type := Vec F S1x1 .f32 × Vec F S1x1 .f32 × Vec F S1x1 .f32 × Vec F S1x1 .f32

/-- The reset values. -/
def zeros : Acc F := (k0_pay1, k0_pay2, k0_pay3, k0_pay4)

/-- Point `t`'s tile pair added to the sums `s`. -/
def stepAll (c : Dev nD) (t : Fin cfg0.N) (s : Acc F) : Acc F :=
  (Tile.step0 (wI t) (wJ t) (iblk m c 0 t) (iblk m c 1 t) (iblk m c 2 t) (iblk m c 3 t) s.1,
   Tile.step1 (wI t) (wJ t) (iblk m c 0 t) (iblk m c 1 t) s.2.1,
   Tile.step2 (wI t) (wJ t) (iblk m c 0 t) (iblk m c 1 t) (iblk m c 2 t) (iblk m c 3 t) s.2.2.1,
   Tile.step3 (wI t) (wJ t) (iblk m c 0 t) (iblk m c 1 t) s.2.2.2)

/-- The sums after point `n`. -/
def accAt (c : Dev nD) : (n : ℕ) → n < cfg0.N → Acc F
  | 0, hn => stepAll m c ⟨0, hn⟩ zeros
  | n + 1, hn =>
    if (n + 1) % 16 = 0 then stepAll m c ⟨n + 1, hn⟩ zeros
    else if (n + 1) / 4 % 4 ≤ (n + 1) % 4 then stepAll m c ⟨n + 1, hn⟩ (accAt c n (Nat.lt_of_succ_lt hn))
    else accAt c n (Nat.lt_of_succ_lt hn)

theorem accAt_first (c : Dev nD) (t : Fin cfg0.N) (h : t.val % 16 = 0) : accAt m c t.val t.isLt = stepAll m c t zeros := by
  obtain ⟨n, hn⟩ := t
  cases n with
  | zero => rfl
  | succ n => exact (if_pos h)

theorem accAt_diag (c : Dev nD) (t : Fin cfg0.N) (h0 : ¬t.val % 16 = 0) (h2 : t.val / 4 % 4 ≤ t.val % 4) :
    accAt m c t.val t.isLt = stepAll m c t (accAt m c (t.val - 1) (Nat.lt_of_le_of_lt (Nat.sub_le _ _) t.isLt)) := by
  obtain ⟨n, hn⟩ := t
  cases n with
  | zero => exact absurd (Nat.zero_mod _) h0
  | succ n => exact (if_neg h0).trans (if_pos h2)

theorem accAt_below (c : Dev nD) (t : Fin cfg0.N) (h0 : ¬t.val % 16 = 0) (h2 : ¬t.val / 4 % 4 ≤ t.val % 4) :
    accAt m c t.val t.isLt = accAt m c (t.val - 1) (Nat.lt_of_le_of_lt (Nat.sub_le _ _) t.isLt) := by
  obtain ⟨n, hn⟩ := t
  cases n with
  | zero => exact absurd (Nat.zero_mod _) h0
  | succ n => exact (if_neg h0).trans (if_neg h2)

/-! ## The invariant between points -/

/-- Before the first point the four sums' buffers hold anything; before a later point, what the point before left. -/
def PhiS (c : Dev nD) : (n : ℕ) → n ≤ cfg0.N → sProp 𝕄
  | 0, _ => iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d))
  | n + 1, hn => iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) := by
  subst hz; rfl

theorem PhiS_succ (c : Dev nD) (n : ℕ) (hn : n < cfg0.N) :
    PhiS m c (n + 1) hn = iprop(owns (c : Thread nD τ) sc0 fullShare (accAt m c n hn).1 ∗ owns (c : Thread nD τ) sc1 fullShare (accAt m c n hn).2.1
      ∗ owns (c : Thread nD τ) sc2 fullShare (accAt m c n hn).2.2.1 ∗ owns (c : Thread nD τ) sc3 fullShare (accAt m c n hn).2.2.2) := rfl

theorem PhiS_pos (c : Dev nD) (n : ℕ) (h : n ≤ cfg0.N) (hz : n ≠ 0) :
    PhiS m c n h = iprop(owns (c : Thread nD τ) sc0 fullShare (accAt m c (n - 1) (by omega)).1 ∗ owns (c : Thread nD τ) sc1 fullShare (accAt m c (n - 1) (by omega)).2.1
      ∗ owns (c : Thread nD τ) sc2 fullShare (accAt m c (n - 1) (by omega)).2.2.1 ∗ owns (c : Thread nD τ) sc3 fullShare (accAt m c (n - 1) (by omega)).2.2.2) := by
  cases n with
  | zero => exact absurd rfl hz
  | succ n => rfl

/-! ## The proof data -/

/-- The share of its array each input window holds: the two windows on one array split it. -/
def qOf : Fin cfg0.W → PosShare TreeShare
  | ⟨0, _⟩ => fullShare.left
  | ⟨1, _⟩ => fullShare.right
  | ⟨2, _⟩ => fullShare.left
  | ⟨3, _⟩ => fullShare.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Tile.outRow (accAt m c t.val t.isLt).1 (accAt m c t.val t.isLt).2.1 (accAt m c t.val t.isLt).2.2.1 (accAt m c t.val t.isLt).2.2.2
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = Tile.outRow (accAt m c t.val t.isLt).1 (accAt m c t.val t.isLt).2.1 (accAt m c t.val t.isLt).2.2.1 (accAt m c t.val t.isLt).2.2.2 := by
  dsimp only [dats]

/-- An input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Body

end
-- ==== Proof.KRunFirst.lean ====
/-
  The body at the first tile pair (0, 0) of a batch: the four running sums are reset to zero, whatever they held, and
  the pair's partial sums are added; the output block is not touched.
-/
import proofs.«125674_j51513837748796_2_alg».proof.Proof.KBodyCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each running sum's buffer ends with (the reset, then the update), with the body's run to them. -/
noncomputable def runFirst (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i)
    (x0 x1 : Vec F S1x16x32x32 .f32) (x2 x3 : Vec F S1x16x1024 .f32) :
    Σ' (L0 L1 L2 : List (View.Piece (Elt F) S1x1 .f32)), { L3 : List (View.Piece (Elt F) S1x1 .f32) //
      ∀ (xo : Vec F S1x1x4 .f32) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ owns (c : Thread nD τ) arg7 fullShare xo
                ∗ (∃ f, arg8.view.loc (c : Thread nD τ) ↦[arg8.view.set]{fullShare} arg8.view.writes (Elt F) f L0)
                ∗ (∃ f, arg9.view.loc (c : Thread nD τ) ↦[arg9.view.set]{fullShare} arg9.view.writes (Elt F) f L1)
                ∗ (∃ f, arg10.view.loc (c : Thread nD τ) ↦[arg10.view.set]{fullShare} arg10.view.writes (Elt F) f L2)
                ∗ (∃ f, arg11.view.loc (c : Thread nD τ) ↦[arg11.view.set]{fullShare} arg11.view.writes (Elt F) f L3)) -∗ K ⟨⟩))
          ⊢ wp frame (wpE (defs₀ (F := F)) Variants.none c none) E
              (cc0__sep_loss_kernel i arg3 harg3 arg4 harg4 arg5 harg5 arg6 harg6 arg7 harg7 arg8 harg8 arg9 harg9 arg10 harg10 arg11 harg11) K } := by
  refine ⟨?_, ?_, ?_, ?_, fun xo E K => ?run⟩
  case run =>
    simp only [cc0__sep_loss_kernel_eq_skeleton]; unfold cc0__sep_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%d0, %g0, -, S0⟩, ⟨%d1, %g1, -, S1⟩, ⟨%d2, %g2, -, S2⟩, ⟨%d3, %g3, -, S3⟩, Hk⟩
    obtain rfl := harg3.eq_unread hf0; obtain rfl := harg4.eq_unread hf1
    obtain rfl := harg5.eq_unread hf2; obtain rfl := harg6.eq_unread hf3
    obtain rfl := harg7.eq_unread hf4
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [S0]; · iexists _; iexact S0
    isplitl [S1]; · iexists _; iexact S1
    isplitl [S2]; · iexists _; iexact S2
    iexists _; iexact S3

end Cert.Kernel.Body

end
-- ==== Proof.KRunMid.lean ====
/-
  The body at a tile pair on or above the diagonal that is neither the first nor the last of its batch: each of the
  four running sums is read and stored back with the pair's partial sum added; the output block is not touched.
-/
import proofs.«125674_j51513837748796_2_alg».proof.Proof.KBodyCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece each running sum's buffer ends with, with the body's run to it. -/
noncomputable def runMid (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i)
    (x0 x1 : Vec F S1x16x32x32 .f32) (x2 x3 : Vec F S1x16x1024 .f32) (s0 s1 s2 s3 : Vec F S1x1 .f32) :
    Σ' (L0 L1 L2 : List (View.Piece (Elt F) S1x1 .f32)), { L3 : List (View.Piece (Elt F) S1x1 .f32) //
      ∀ (xo : Vec F S1x1x4 .f32) (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ owns (c : Thread nD τ) arg8 fullShare s0 ∗ owns (c : Thread nD τ) arg9 fullShare s1
            ∗ owns (c : Thread nD τ) arg10 fullShare s2 ∗ owns (c : Thread nD τ) arg11 fullShare s3
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ owns (c : Thread nD τ) arg7 fullShare xo
                ∗ (∃ f, arg8.view.loc (c : Thread nD τ) ↦[arg8.view.set]{fullShare} arg8.view.writes (Elt F) f L0)
                ∗ (∃ f, arg9.view.loc (c : Thread nD τ) ↦[arg9.view.set]{fullShare} arg9.view.writes (Elt F) f L1)
                ∗ (∃ f, arg10.view.loc (c : Thread nD τ) ↦[arg10.view.set]{fullShare} arg10.view.writes (Elt F) f L2)
                ∗ (∃ f, arg11.view.loc (c : Thread nD τ) ↦[arg11.view.set]{fullShare} arg11.view.writes (Elt F) f L3)) -∗ K ⟨⟩))
          ⊢ wp frame (wpE (defs₀ (F := F)) Variants.none c none) E
              (cc0__sep_loss_kernel i arg3 harg3 arg4 harg4 arg5 harg5 arg6 harg6 arg7 harg7 arg8 harg8 arg9 harg9 arg10 harg10 arg11 harg11) K } := by
  refine ⟨?_, ?_, ?_, ?_, fun xo E K => ?run⟩
  case run =>
    simp only [cc0__sep_loss_kernel_eq_skeleton]; unfold cc0__sep_loss_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, Hk⟩
    obtain rfl := harg3.eq_unread hf0; obtain rfl := harg4.eq_unread hf1
    obtain rfl := harg5.eq_unread hf2; obtain rfl := harg6.eq_unread hf3
    obtain rfl := harg7.eq_unread hf4
    obtain rfl := harg8.eq_unread hg0; obtain rfl := harg9.eq_unread hg1
    obtain rfl := harg10.eq_unread hg2; obtain rfl := harg11.eq_unread hg3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [S0]; · iexists _; iexact S0
    isplitl [S1]; · iexists _; iexact S1
    isplitl [S2]; · iexists _; iexact S2
    iexists _; iexact S3

end Cert.Kernel.Body

end
-- ==== Proof.KRunLast.lean ====
/-
  The body at the last tile pair (3, 3) of a batch: each running sum is stored back with the pair's partial sum
  added, then the four sums are read and stored side by side into the output block, whatever it held.
-/
import proofs.«125674_j51513837748796_2_alg».proof.Proof.KBodyCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece the output block and each running sum's buffer end with, with the body's run to them. -/
noncomputable def runLast (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i)
    (x0 x1 : Vec F S1x16x32x32 .f32) (x2 x3 : Vec F S1x16x1024 .f32) (s0 s1 s2 s3 : Vec F S1x1 .f32) :
    Σ' (LO : List (View.Piece (Elt F) S1x1x4 .f32)) (L0 L1 L2 : List (View.Piece (Elt F) S1x1 .f32)), { L3 : List (View.Piece (Elt F) S1x1 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3
            ∗ (∃ d, owns (c : Thread nD τ) arg7 fullShare d)
            ∗ owns (c : Thread nD τ) arg8 fullShare s0 ∗ owns (c : Thread nD τ) arg9 fullShare s1
            ∗ owns (c : Thread nD τ) arg10 fullShare s2 ∗ owns (c : Thread nD τ) arg11 fullShare s3
            ∗ (iprop(owns (c : Thread nD τ) arg3 fullShare x0 ∗ owns (c : Thread nD τ) arg4 fullShare x1
            ∗ owns (c : Thread nD τ) arg5 fullShare x2 ∗ owns (c : Thread nD τ) arg6 fullShare x3
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f L0)
                ∗ (∃ f, arg9.view.loc (c : Thread nD τ) ↦[arg9.view.set]{fullShare} arg9.view.writes (Elt F) f L1)
                ∗ (∃ f, arg10.view.loc (c : Thread nD τ) ↦[arg10.view.set]{fullShare} arg10.view.writes (Elt F) f L2)
                ∗ (∃ f, arg11.view.loc (c : Thread nD τ) ↦[arg11.view.set]{fullShare} arg11.view.writes (Elt F) f L3)) -∗ K ⟨⟩))
          ⊢ wp frame (wpE (defs₀ (F := F)) Variants.none c none) E
              (cc0__sep_loss_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__sep_loss_kernel_eq_skeleton]; unfold cc0__sep_loss_kernel_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, ⟨%g2, %hg2, S2⟩, ⟨%g3, %hg3, S3⟩, Hk⟩
    obtain rfl := harg3.eq_unread hf0; obtain rfl := harg4.eq_unread hf1
    obtain rfl := harg5.eq_unread hf2; obtain rfl := harg6.eq_unread hf3
    obtain rfl := harg8.eq_unread hg0; obtain rfl := harg9.eq_unread hg1
    obtain rfl := harg10.eq_unread hg2; obtain rfl := harg11.eq_unread hg3
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [S0]; · iexists _; iexact S0
    isplitl [S1]; · iexists _; iexact S1
    isplitl [S2]; · iexists _; iexact S2
    iexists _; iexact S3

end Cert.Kernel.Body

end
-- ==== Proof.KPieceValue.lean ====
/-
  What each store of the body leaves, case by case: the pieces the three storing runs end with cover their buffers,
  and read back they are the tile pair's update of the running sums (over the reset value at the first pair of a
  batch) and, at the last pair, the four updated sums side by side.
-/
import proofs.«125674_j51513837748796_2_alg».proof.Proof.KRunFirst
import proofs.«125674_j51513837748796_2_alg».proof.Proof.KRunMid
import proofs.«125674_j51513837748796_2_alg».proof.Proof.KRunLast
import proofs.«125674_j51513837748796_2_alg».proof.Proof.KTileStep
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

theorem first_cover0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).1 S1x1.size (by sl_kernel_rfl) y

theorem first_piece0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS0.read (Elt F) (VS0.writes (Elt F) VS0.junk (runFirst c i arg3 harg3 arg4 harg4 arg5 harg5 arg6 harg6 arg7 harg7 arg8 harg8 arg9 harg9 arg10 harg10 arg11 harg11 h1 h2 h3 x0 x1 x2 x3).1)
      = Tile.step0 (BitVec.ofNat 32 (i 1).val) (BitVec.ofNat 32 (i 2).val) x0 x1 x2 x3 k0_pay1 := by
  rw [View.read_writes_eq_canon _ _ _ (first_cover0 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem first_cover1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).2.1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).2.1 S1x1.size (by sl_kernel_rfl) y

theorem first_piece1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS1.read (Elt F) (VS1.writes (Elt F) VS1.junk (runFirst c i arg3 harg3 arg4 harg4 arg5 harg5 arg6 harg6 arg7 harg7 arg8 harg8 arg9 harg9 arg10 harg10 arg11 harg11 h1 h2 h3 x0 x1 x2 x3).2.1)
      = Tile.step1 (BitVec.ofNat 32 (i 1).val) (BitVec.ofNat 32 (i 2).val) x0 x1 k0_pay2 := by
  rw [View.read_writes_eq_canon _ _ _ (first_cover1 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem first_cover2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).2.2.1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).2.2.1 S1x1.size (by sl_kernel_rfl) y

theorem first_piece2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS2.read (Elt F) (VS2.writes (Elt F) VS2.junk (runFirst c i arg3 harg3 arg4 harg4 arg5 harg5 arg6 harg6 arg7 harg7 arg8 harg8 arg9 harg9 arg10 harg10 arg11 harg11 h1 h2 h3 x0 x1 x2 x3).2.2.1)
      = Tile.step2 (BitVec.ofNat 32 (i 1).val) (BitVec.ofNat 32 (i 2).val) x0 x1 x2 x3 k0_pay3 := by
  rw [View.read_writes_eq_canon _ _ _ (first_cover2 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem first_cover3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) (y : S1x1.Idx) :
    ∃ pc ∈ (runFirst c i arg3 harg3 arg4 harg4 arg5 harg5 arg6 harg6 arg7 harg7 arg8 harg8 arg9 harg9 arg10 harg10 arg11 harg11 h1 h2 h3 x0 x1 x2 x3).2.2.2.1, y ∈ pc.1.set :=
  View.cover_of_tiledL (runFirst c i arg3 harg3 arg4 harg4 arg5 harg5 arg6 harg6 arg7 harg7 arg8 harg8 arg9 harg9 arg10 harg10 arg11 harg11 h1 h2 h3 x0 x1 x2 x3).2.2.2.1 S1x1.size (by sl_kernel_rfl) y

theorem first_piece3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : cond1 i) (h2 : cond2 i) (h3 : ¬cond3 i) (x0 x1 : Vec F S1x16x32x32 .f32) (x2 x3 : Vec F S1x16x1024 .f32) :
    VS3.read (Elt F) (VS3.writes (Elt F) VS3.junk (runFirst c i arg3 harg3 arg4 harg4 arg5 harg5 arg6 harg6 arg7 harg7 arg8 harg8 arg9 harg9 arg10 harg10 arg11 harg11 h1 h2 h3 x0 x1 x2 x3).2.2.2.1)
      = Tile.step3 (BitVec.ofNat 32 (i 1).val) (BitVec.ofNat 32 (i 2).val) x0 x1 k0_pay4 := by
  rw [View.read_writes_eq_canon _ _ _ (first_cover3 c i arg3 harg3 arg4 harg4 arg5 harg5 arg6 harg6 arg7 harg7 arg8 harg8 arg9 harg9 arg10 harg10 arg11 harg11 h1 h2 h3 x0 x1 x2 x3)]
  unfold runFirst
  dsimp only
  sl_unfold_words
  rw [View.canon_cons_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).1 S1x1.size (by sl_kernel_rfl) y

theorem mid_piece0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS0.read (Elt F) (VS0.writes (Elt F) VS0.junk (runMid c i arg3 harg3 arg4 harg4 arg5 harg5 arg6 harg6 arg7 harg7 arg8 harg8 arg9 harg9 arg10 harg10 arg11 harg11 h1 h2 h3 x0 x1 x2 x3 s0 s1 s2 s3).1)
      = Tile.step0 (BitVec.ofNat 32 (i 1).val) (BitVec.ofNat 32 (i 2).val) x0 x1 x2 x3 s0 := by
  rw [View.read_writes_eq_canon _ _ _ (mid_cover0 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).2.1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).2.1 S1x1.size (by sl_kernel_rfl) y

theorem mid_piece1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS1.read (Elt F) (VS1.writes (Elt F) VS1.junk (runMid c i arg3 harg3 arg4 harg4 arg5 harg5 arg6 harg6 arg7 harg7 arg8 harg8 arg9 harg9 arg10 harg10 arg11 harg11 h1 h2 h3 x0 x1 x2 x3 s0 s1 s2 s3).2.1)
      = Tile.step1 (BitVec.ofNat 32 (i 1).val) (BitVec.ofNat 32 (i 2).val) x0 x1 s1 := by
  rw [View.read_writes_eq_canon _ _ _ (mid_cover1 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).2.2.1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).2.2.1 S1x1.size (by sl_kernel_rfl) y

theorem mid_piece2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS2.read (Elt F) (VS2.writes (Elt F) VS2.junk (runMid c i arg3 harg3 arg4 harg4 arg5 harg5 arg6 harg6 arg7 harg7 arg8 harg8 arg9 harg9 arg10 harg10 arg11 harg11 h1 h2 h3 x0 x1 x2 x3 s0 s1 s2 s3).2.2.1)
      = Tile.step2 (BitVec.ofNat 32 (i 1).val) (BitVec.ofNat 32 (i 2).val) x0 x1 x2 x3 s2 := by
  rw [View.read_writes_eq_canon _ _ _ (mid_cover2 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem mid_cover3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) (y : S1x1.Idx) :
    ∃ pc ∈ (runMid c i arg3 harg3 arg4 harg4 arg5 harg5 arg6 harg6 arg7 harg7 arg8 harg8 arg9 harg9 arg10 harg10 arg11 harg11 h1 h2 h3 x0 x1 x2 x3 s0 s1 s2 s3).2.2.2.1, y ∈ pc.1.set :=
  View.cover_of_tiledL (runMid c i arg3 harg3 arg4 harg4 arg5 harg5 arg6 harg6 arg7 harg7 arg8 harg8 arg9 harg9 arg10 harg10 arg11 harg11 h1 h2 h3 x0 x1 x2 x3 s0 s1 s2 s3).2.2.2.1 S1x1.size (by sl_kernel_rfl) y

theorem mid_piece3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : ¬cond3 i) (x0 x1 : Vec F S1x16x32x32 .f32) (x2 x3 : Vec F S1x16x1024 .f32) (s0 s1 s2 s3 : Vec F S1x1 .f32) :
    VS3.read (Elt F) (VS3.writes (Elt F) VS3.junk (runMid c i arg3 harg3 arg4 harg4 arg5 harg5 arg6 harg6 arg7 harg7 arg8 harg8 arg9 harg9 arg10 harg10 arg11 harg11 h1 h2 h3 x0 x1 x2 x3 s0 s1 s2 s3).2.2.2.1)
      = Tile.step3 (BitVec.ofNat 32 (i 1).val) (BitVec.ofNat 32 (i 2).val) x0 x1 s3 := by
  rw [View.read_writes_eq_canon _ _ _ (mid_cover3 c i arg3 harg3 arg4 harg4 arg5 harg5 arg6 harg6 arg7 harg7 arg8 harg8 arg9 harg9 arg10 harg10 arg11 harg11 h1 h2 h3 x0 x1 x2 x3 s0 s1 s2 s3)]
  unfold runMid
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.1 S1x1.size (by sl_kernel_rfl) y

theorem last_piece0 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS0.read (Elt F) (VS0.writes (Elt F) VS0.junk (runLast c i arg3 harg3 arg4 harg4 arg5 harg5 arg6 harg6 arg7 harg7 arg8 harg8 arg9 harg9 arg10 harg10 arg11 harg11 h1 h2 h3 x0 x1 x2 x3 s0 s1 s2 s3).2.1)
      = Tile.step0 (BitVec.ofNat 32 (i 1).val) (BitVec.ofNat 32 (i 2).val) x0 x1 x2 x3 s0 := by
  rw [View.read_writes_eq_canon _ _ _ (last_cover0 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.2.1 S1x1.size (by sl_kernel_rfl) y

theorem last_piece1 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS1.read (Elt F) (VS1.writes (Elt F) VS1.junk (runLast c i arg3 harg3 arg4 harg4 arg5 harg5 arg6 harg6 arg7 harg7 arg8 harg8 arg9 harg9 arg10 harg10 arg11 harg11 h1 h2 h3 x0 x1 x2 x3 s0 s1 s2 s3).2.2.1)
      = Tile.step1 (BitVec.ofNat 32 (i 1).val) (BitVec.ofNat 32 (i 2).val) x0 x1 s1 := by
  rw [View.read_writes_eq_canon _ _ _ (last_cover1 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.2.2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.2.2.1 S1x1.size (by sl_kernel_rfl) y

theorem last_piece2 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS2.read (Elt F) (VS2.writes (Elt F) VS2.junk (runLast c i arg3 harg3 arg4 harg4 arg5 harg5 arg6 harg6 arg7 harg7 arg8 harg8 arg9 harg9 arg10 harg10 arg11 harg11 h1 h2 h3 x0 x1 x2 x3 s0 s1 s2 s3).2.2.2.1)
      = Tile.step2 (BitVec.ofNat 32 (i 1).val) (BitVec.ofNat 32 (i 2).val) x0 x1 x2 x3 s2 := by
  rw [View.read_writes_eq_canon _ _ _ (last_cover2 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_cover3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).2.2.2.2.1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).2.2.2.2.1 S1x1.size (by sl_kernel_rfl) y

theorem last_piece3 (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VS3.read (Elt F) (VS3.writes (Elt F) VS3.junk (runLast c i arg3 harg3 arg4 harg4 arg5 harg5 arg6 harg6 arg7 harg7 arg8 harg8 arg9 harg9 arg10 harg10 arg11 harg11 h1 h2 h3 x0 x1 x2 x3 s0 s1 s2 s3).2.2.2.2.1)
      = Tile.step3 (BitVec.ofNat 32 (i 1).val) (BitVec.ofNat 32 (i 2).val) x0 x1 s3 := by
  rw [View.read_writes_eq_canon _ _ _ (last_cover3 c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz2]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

theorem last_coverO (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) (y : S1x1x4.Idx) :
    ∃ pc ∈ (runLast c i arg3 harg3 arg4 harg4 arg5 harg5 arg6 harg6 arg7 harg7 arg8 harg8 arg9 harg9 arg10 harg10 arg11 harg11 h1 h2 h3 x0 x1 x2 x3 s0 s1 s2 s3).1, y ∈ pc.1.set :=
  View.cover_of_tiledL (runLast c i arg3 harg3 arg4 harg4 arg5 harg5 arg6 harg6 arg7 harg7 arg8 harg8 arg9 harg9 arg10 harg10 arg11 harg11 h1 h2 h3 x0 x1 x2 x3 s0 s1 s2 s3).1 S1x1x4.size (by sl_kernel_rfl) y

theorem last_pieceO (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : cond2 i) (h3 : cond3 i) (x0 x1 : Vec F S1x16x32x32 .f32) (x2 x3 : Vec F S1x16x1024 .f32) (s0 s1 s2 s3 : Vec F S1x1 .f32) :
    VO.read (Elt F) (VO.writes (Elt F) VO.junk (runLast c i arg3 harg3 arg4 harg4 arg5 harg5 arg6 harg6 arg7 harg7 arg8 harg8 arg9 harg9 arg10 harg10 arg11 harg11 h1 h2 h3 x0 x1 x2 x3 s0 s1 s2 s3).1)
      = Tile.outRow (Tile.step0 (BitVec.ofNat 32 (i 1).val) (BitVec.ofNat 32 (i 2).val) x0 x1 x2 x3 s0) (Tile.step1 (BitVec.ofNat 32 (i 1).val) (BitVec.ofNat 32 (i 2).val) x0 x1 s1) (Tile.step2 (BitVec.ofNat 32 (i 1).val) (BitVec.ofNat 32 (i 2).val) x0 x1 x2 x3 s2) (Tile.step3 (BitVec.ofNat 32 (i 1).val) (BitVec.ofNat 32 (i 2).val) x0 x1 s3) := by
  rw [View.read_writes_eq_canon _ _ _ (last_coverO c i arg3 harg3 arg4 harg4 arg5 harg5 arg6 harg6 arg7 harg7 arg8 harg8 arg9 harg9 arg10 harg10 arg11 harg11 h1 h2 h3 x0 x1 x2 x3 s0 s1 s2 s3)]
  unfold runLast
  dsimp only
  sl_unfold_words
  rw [View.canon_unit_zero hz3]
  simp only [Tile.step0, Tile.step1, Tile.step2, Tile.step3, Tile.jsdBlock, Tile.rowsOf, Tile.mseBlock, Tile.repBlock, Tile.outRow,
    View.readAt_eq_ld, harg3.read_unread, harg4.read_unread, harg5.read_unread, harg6.read_unread,
    harg8.read_unread, harg9.read_unread, harg10.read_unread, harg11.read_unread,
    View.ld_unit_zero (S := S1x1) hz2, View.ld_unit_zero (S := S1x16x32x32) hz4, View.ld_unit_zero (S := S1x16x1024) hz3,
    View.readCov_unit_zero (S := S1x1) _ hz2]

end Cert.Kernel.Body

end
-- ==== Proof.KRunBelow.lean ====
/-
  The body at a tile pair below the diagonal: none of the three branches is taken and nothing is touched.
-/
import proofs.«125674_j51513837748796_2_alg».proof.Proof.KBodyCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem runBelow (c : Dev nD) (i : grid0.Coords)
    (arg3 : Memref sig .tc .vmem S1x16x32x32 .f32) (harg3 : arg3.IsWhole) (arg4 : Memref sig .tc .vmem S1x16x32x32 .f32) (harg4 : arg4.IsWhole)
    (arg5 : Memref sig .tc .vmem S1x16x1024 .f32) (harg5 : arg5.IsWhole) (arg6 : Memref sig .tc .vmem S1x16x1024 .f32) (harg6 : arg6.IsWhole)
    (arg7 : Memref sig .tc .vmem S1x1x4 .f32) (harg7 : arg7.IsWhole)
    (arg8 : Memref sig .tc .vmem S1x1 .f32) (harg8 : arg8.IsWhole) (arg9 : Memref sig .tc .vmem S1x1 .f32) (harg9 : arg9.IsWhole)
    (arg10 : Memref sig .tc .vmem S1x1 .f32) (harg10 : arg10.IsWhole) (arg11 : Memref sig .tc .vmem S1x1 .f32) (harg11 : arg11.IsWhole)
    (h1 : ¬cond1 i) (h2 : ¬cond2 i) (h3 : ¬cond3 i) (E : Set ℕ) (K : PUnit → sProp 𝕄) :
    iprop(K ⟨⟩) ⊢ wp frame (wpE (defs₀ (F := F)) Variants.none c none) E
      (cc0__sep_loss_kernel i arg3 harg3 arg4 harg4 arg5 harg5 arg6 harg6 arg7 harg7 arg8 harg8 arg9 harg9 arg10 harg10 arg11 harg11) K := by
  simp only [cc0__sep_loss_kernel_eq_skeleton]; unfold cc0__sep_loss_kernel_skel
  iintro Hk
  sl_exec (disch := first | exact h1 | exact h2 | exact h3)
  sl_step
  iexact Hk

end Cert.Kernel.Body

end
-- ==== Proof.KBodyObligation.lean ====
/-
  The body obligation: at every grid point the body, called on the windows' current staging buffers (the inputs at
  their blocks, the output block at whatever the point before left) and the four running sums' buffers (at anything
  before the first point, else at what the point before left), runs to the same buffers with the sums at this
  point's values and, at the last tile pair of a batch, the output block at the four sums side by side.
-/
import proofs.«125674_j51513837748796_2_alg».proof.Proof.KProofData
import proofs.«125674_j51513837748796_2_alg».proof.Proof.KPieceValue
import proofs.«125674_j51513837748796_2_alg».proof.Proof.KRunBelow

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  have hN : t.val < 128 := lt_of_lt_of_eq t.isLt (show cfg0.N = 128 from N_0)
  by_cases h0 : t.val % 16 = 0
  · -- the first tile pair of a batch
    have hc1 : cond1 (grid0.coords t) := (hcond1 t).mpr h0
    have hc2 : cond2 (grid0.coords t) := (hcond2 t).mpr (by omega)
    have hc3 : ¬cond3 (grid0.coords t) := fun h => by have := (hcond3 t).mp h; omega
    rw [Dat.leavesExact_idle (dats m 0 c) 4 t (idleAt4 t hc3) (noFlush4 t hc3)]
    rw [accAt_first m c t h0]; unfold stepAll zeros; dsimp only
    by_cases hz : t.val = 0
    · rw [PhiS_castSucc m c t, PhiS_zero m c _ _ hz]
      iintro ⟨⟨S0, S1, S2, S3⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, ⟨%e0, S0⟩, ⟨%e1, S1⟩, ⟨%e2, S2⟩, ⟨%e3, S3⟩⟩
      isplitl [S0 S1 S2 S3]
      isplitl [S0]
      · unfold owns; iexists _; isplitr
        swap; · iexact S0
        ipureintro
        exact (View.read_writes_of_cover _ _ _ _ _ (first_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S1]
      · unfold owns; iexists _; isplitr
        swap; · iexact S1
        ipureintro
        exact (View.read_writes_of_cover _ _ _ _ _ (first_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S2]
      · unfold owns; iexists _; isplitr
        swap; · iexact S2
        ipureintro
        exact (View.read_writes_of_cover _ _ _ _ _ (first_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      · unfold owns; iexists _; isplitr
        swap; · iexact S3
        ipureintro
        exact (View.read_writes_of_cover _ _ _ _ _ (first_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      isplitl [S3]; · iexists _; iexact S3
      iintro ⟨H0, H1, H2, H3, H4, ⟨%e0, S0⟩, ⟨%e1, S1⟩, ⟨%e2, S2⟩, ⟨%e3, S3⟩⟩
      isplitl [S0 S1 S2 S3]
      isplitl [S0]
      · unfold owns; iexists _; isplitr
        swap; · iexact S0
        ipureintro
        exact (View.read_writes_of_cover _ _ _ _ _ (first_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S1]
      · unfold owns; iexists _; isplitr
        swap; · iexact S1
        ipureintro
        exact (View.read_writes_of_cover _ _ _ _ _ (first_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [S2]
      · unfold owns; iexists _; isplitr
        swap; · iexact S2
        ipureintro
        exact (View.read_writes_of_cover _ _ _ _ _ (first_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      · unfold owns; iexists _; isplitr
        swap; · iexact S3
        ipureintro
        exact (View.read_writes_of_cover _ _ _ _ _ (first_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))).trans
          (first_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t))
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc1 : ¬cond1 (grid0.coords t) := fun h => h0 ((hcond1 t).mp h)
    by_cases h2 : t.val / 4 % 4 ≤ t.val % 4
    · have hc2 : cond2 (grid0.coords t) := (hcond2 t).mpr h2
      by_cases h15 : t.val % 16 = 15
      · -- the last tile pair of a batch
        have hc3 : cond3 (grid0.coords t) := (hcond3 t).mpr h15
        rw [show (dats m 0 c).leavesExact 4 t = owns (c : Thread nD τ) (ms4 t) fullShare ((dats m 0 c).after 4 t) from by
          unfold Dat.leavesExact; rw [liveAt4 t hc3], after4]
        rw [accAt_diag m c t h0 h2]; unfold stepAll; dsimp only
        rw [PhiS_castSucc m c t, PhiS_pos m c _ _ hz]
        iintro ⟨⟨S0, S1, S2, S3⟩, Ho, ⟨%d0, H0⟩, ⟨%d1, H1⟩, ⟨%d2, H2⟩, ⟨%d3, H3⟩, ⟨%d4, H4⟩⟩
        iapply ((runLast c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2).2.2.2.2.2 Set.univ _)
        isplitl [H0]; · iexact H0
        isplitl [H1]; · iexact H1
        isplitl [H2]; · iexact H2
        isplitl [H3]; · iexact H3
        isplitl [H4]; · iexists _; iexact H4
        isplitl [S0]; · iexact S0
        isplitl [S1]; · iexact S1
        isplitl [S2]; · iexact S2
        isplitl [S3]; · iexact S3
        iintro ⟨H0, H1, H2, H3, ⟨%e4, H4⟩, ⟨%e0, S0⟩, ⟨%e1, S1⟩, ⟨%e2, S2⟩, ⟨%e3, S3⟩⟩
        isplitl [S0 S1 S2 S3]
        isplitl [S0]
        · unfold owns; iexists _; isplitr
          swap; · iexact S0
          ipureintro
          exact (View.read_writes_of_cover _ _ _ _ _ (last_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S1]
        · unfold owns; iexists _; isplitr
          swap; · iexact S1
          ipureintro
          exact (View.read_writes_of_cover _ _ _ _ _ (last_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S2]
        · unfold owns; iexists _; isplitr
          swap; · iexact S2
          ipureintro
          exact (View.read_writes_of_cover _ _ _ _ _ (last_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        · unfold owns; iexists _; isplitr
          swap; · iexact S3
          ipureintro
          exact (View.read_writes_of_cover _ _ _ _ _ (last_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (last_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [Ho]; · iexact Ho
        isplitl [H0]; · iexact H0
        isplitl [H1]; · iexact H1
        isplitl [H2]; · iexact H2
        isplitl [H3]; · iexact H3
        unfold owns; iexists _; isplitr
        swap; · iexact H4
        ipureintro
        exact (View.read_writes_of_cover _ _ _ _ _ (last_coverO c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
          (last_pieceO c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
      · -- a tile pair on or above the diagonal in between
        have hc3 : ¬cond3 (grid0.coords t) := fun h => h15 ((hcond3 t).mp h)
        rw [Dat.leavesExact_idle (dats m 0 c) 4 t (idleAt4 t hc3) (noFlush4 t hc3)]
        rw [accAt_diag m c t h0 h2]; unfold stepAll; dsimp only
        rw [PhiS_castSucc m c t, PhiS_pos m c _ _ hz]
        iintro ⟨⟨S0, S1, S2, S3⟩, Ho, ⟨%d0, H0⟩, ⟨%d1, H1⟩, ⟨%d2, H2⟩, ⟨%d3, H3⟩, ⟨%d4, H4⟩⟩
        iapply ((runMid c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2).2.2.2.2 _ Set.univ _)
        isplitl [H0]; · iexact H0
        isplitl [H1]; · iexact H1
        isplitl [H2]; · iexact H2
        isplitl [H3]; · iexact H3
        isplitl [H4]; · iexact H4
        isplitl [S0]; · iexact S0
        isplitl [S1]; · iexact S1
        isplitl [S2]; · iexact S2
        isplitl [S3]; · iexact S3
        iintro ⟨H0, H1, H2, H3, H4, ⟨%e0, S0⟩, ⟨%e1, S1⟩, ⟨%e2, S2⟩, ⟨%e3, S3⟩⟩
        isplitl [S0 S1 S2 S3]
        isplitl [S0]
        · unfold owns; iexists _; isplitr
          swap; · iexact S0
          ipureintro
          exact (View.read_writes_of_cover _ _ _ _ _ (mid_cover0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece0 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S1]
        · unfold owns; iexists _; isplitr
          swap; · iexact S1
          ipureintro
          exact (View.read_writes_of_cover _ _ _ _ _ (mid_cover1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece1 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [S2]
        · unfold owns; iexists _; isplitr
          swap; · iexact S2
          ipureintro
          exact (View.read_writes_of_cover _ _ _ _ _ (mid_cover2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece2 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        · unfold owns; iexists _; isplitr
          swap; · iexact S3
          ipureintro
          exact (View.read_writes_of_cover _ _ _ _ _ (mid_cover3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)).trans
            (mid_piece3 c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2)
        isplitl [Ho]; · iexact Ho
        isplitl [H0]; · iexact H0
        isplitl [H1]; · iexact H1
        isplitl [H2]; · iexact H2
        isplitl [H3]; · iexact H3
        iexists _; iexact H4
    · -- a tile pair below the diagonal
      have hc2 : ¬cond2 (grid0.coords t) := fun h => h2 ((hcond2 t).mp h)
      have hc3 : ¬cond3 (grid0.coords t) := fun h => by have := (hcond3 t).mp h; omega
      rw [Dat.leavesExact_idle (dats m 0 c) 4 t (idleAt4 t hc3) (noFlush4 t hc3)]
      rw [accAt_below m c t h0 h2]
      rw [PhiS_castSucc m c t, PhiS_pos m c _ _ hz]
      iintro ⟨⟨S0, S1, S2, S3⟩, Ho, ⟨%d0, H0⟩, ⟨%d1, H1⟩, ⟨%d2, H2⟩, ⟨%d3, H3⟩, ⟨%d4, H4⟩⟩
      iapply (runBelow c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) hc1 hc2 hc3 Set.univ _)
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.KLaunchA.lean ====
/-
  The launch.  @main is the log-softmax stretch, the region, and four stretches of host lines.  The region's five
  windows stand on three arrays — the two log-probability windows on the log-softmax's result, the two feature
  windows on the second argument, the output window on the result array — so each of the first two arrays is held
  in halves, one per window, while the region runs.  The lines after the region touch neither of those two
  arrays: they run over the output array and the buffers that bypass the region.  The run ends with every window's
  array at what the proof data computes and every bypassing buffer at what the lines leave.
-/
import proofs.«125674_j51513837748796_2_alg».proof.Proof.KBodyObligation

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The lines of @main after the region. -/
abbrev tailOps : List (List (HloOp τ sig (Elt F))) := [hostOps1, hostOps1_1, hostOps1_2, hostOps1_3]

/-- The buffers those lines may touch: the output array and the buffers that bypass the region. -/
def tailS : Finset (DevRef τ sig) :=
  (insert main_v1 (Pipeline.restRefs sig spec0)).map ⟨Proc.devRef (sig := sig) .tc, Proc.devRef_injective _⟩

theorem mem_tailS (b : Ref sig .tc) (hs : b.isScoped = false) (h0 : b ≠ main_v0) (h1 : b ≠ main_arg1) : Proc.devRef .tc b ∈ tailS := by
  unfold tailS
  refine Finset.mem_map.mpr ⟨b, ?_, rfl⟩
  by_cases hb : b = main_v1
  · subst hb; exact Finset.mem_insert_self _ _
  · refine Finset.mem_insert_of_mem (Pipeline.mem_restRefs_of b hs ?_)
    intro w; fin_cases w <;> first | exact fun e => h0 e.symm | exact fun e => h1 e.symm | exact fun e => hb e.symm

theorem tail1_sub : ∀ op ∈ (hostOps1 : List (HloOp τ sig (Elt F))), op.bufs ⊆ tailS := by
  intro op hop
  simp only [hostOps1, List.mem_cons, List.mem_nil_iff, _root_.or_false] at hop
  rcases hop with rfl | rfl | rfl | rfl | rfl | rfl | rfl | rfl | rfl | rfl | rfl | rfl | rfl | rfl | rfl | rfl | rfl | rfl | rfl | rfl | rfl | rfl | rfl
  all_goals
    simp only [StableHlo.nullary_bufs, StableHlo.unary_bufs, StableHlo.binary_bufs, StableHlo.ternary_bufs, StableHlo.reshape_bufs]
    intro b hb
    simp only [Finset.mem_insert, Finset.mem_singleton] at hb
    rcases hb with rfl | rfl | rfl | rfl <;> exact mem_tailS _ rfl (by decide) (by decide)

theorem tail2_sub : ∀ op ∈ (hostOps1_1 : List (HloOp τ sig (Elt F))), op.bufs ⊆ tailS := by
  intro op hop
  simp only [hostOps1_1, List.mem_cons, List.mem_nil_iff, _root_.or_false] at hop
  rcases hop with rfl | rfl
  all_goals
    intro b hb
    simp only [StableHlo.TRef.unary, StableHlo.TRef.ternary, StableHlo.TRef.of, StableHlo.nullary_bufs, StableHlo.unary_bufs, StableHlo.binary_bufs, StableHlo.ternary_bufs, Finset.mem_insert, Finset.mem_singleton] at hb
    rcases hb with rfl | rfl | rfl | rfl <;> exact mem_tailS _ rfl (by decide) (by decide)

theorem tail3_sub : ∀ op ∈ (hostOps1_2 : List (HloOp τ sig (Elt F))), op.bufs ⊆ tailS := by
  intro op hop
  simp only [hostOps1_2, List.mem_cons, List.mem_nil_iff, _root_.or_false] at hop
  rcases hop with rfl | rfl | rfl | rfl | rfl | rfl
  all_goals
    simp only [StableHlo.nullary_bufs, StableHlo.unary_bufs, StableHlo.binary_bufs, StableHlo.ternary_bufs, StableHlo.reshape_bufs]
    intro b hb
    simp only [Finset.mem_insert, Finset.mem_singleton] at hb
    rcases hb with rfl | rfl | rfl | rfl <;> exact mem_tailS _ rfl (by decide) (by decide)

theorem tail4_sub : ∀ op ∈ (hostOps1_3 : List (HloOp τ sig (Elt F))), op.bufs ⊆ tailS := by
  intro op hop
  simp only [hostOps1_3, List.mem_cons, List.mem_nil_iff, _root_.or_false] at hop
  rcases hop with rfl | rfl
  all_goals
    intro b hb
    simp only [StableHlo.TRef.unary, StableHlo.TRef.ternary, StableHlo.TRef.of, StableHlo.nullary_bufs, StableHlo.unary_bufs, StableHlo.binary_bufs, StableHlo.ternary_bufs, Finset.mem_insert, Finset.mem_singleton] at hb
    rcases hb with rfl | rfl | rfl | rfl <;> exact mem_tailS _ rfl (by decide) (by decide)

theorem tail_sub : ∀ ops ∈ (tailOps : List (List (HloOp τ sig (Elt F)))), ∀ op ∈ ops, op.bufs ⊆ tailS := by
  intro ops hops
  simp only [List.mem_cons, List.mem_nil_iff, _root_.or_false] at hops
  rcases hops with rfl | rfl | rfl | rfl
  · exact tail1_sub
  · exact tail2_sub
  · exact tail3_sub
  · exact tail4_sub

theorem tail_fresh : ∀ ops ∈ (tailOps : List (List (HloOp τ sig (Elt F)))), ∀ op ∈ ops, op.fresh = ∅ := by
  intro ops hops
  simp only [List.mem_cons, List.mem_nil_iff, _root_.or_false] at hops
  rcases hops with rfl | rfl | rfl | rfl
  all_goals
    refine List.forall_iff_forall_mem.mp ?_
    simp only [List.Forall]; repeat' constructor

theorem main_v1_not_rest : main_v1 ∉ Pipeline.restRefs sig spec0 := by
  unfold Pipeline.restRefs
  intro h
  exact (Finset.mem_sdiff.mp h).2 (Finset.mem_image.mpr ⟨4, Finset.mem_univ _, rfl⟩)

/-- Held over those buffers: the output array, and each bypassing buffer. -/
theorem held_tailS (c : Dev nD) (W : Valuation τ sig (Elt F)) :
    (StableHlo.held (c : Thread nD τ) tailS W : sProp 𝕄)
      = iprop((((c : Thread nD τ).loc main_v1) ↦{fullShare} W (Proc.devRef .tc main_v1))
          ∗ bigSep (Pipeline.restRefs sig spec0) fun b => (((c : Thread nD τ).loc b) ↦{fullShare} W (Proc.devRef .tc b))) := by
  classical
  unfold StableHlo.held tailS
  rw [bigSep_map, BI.bigSep_insert main_v1_not_rest]
  rfl

set_option backward.isDefEq.respectTransparency.types false in
/-- The lines after the region run from those buffers at `W` to the same at the lines' result. -/
theorem tail_lines (𝒱₀ : Variants) (c : Dev nD) (W : Valuation τ sig (Elt F)) (Q' : PUnit → sProp 𝕄) :
    iprop(((StableHlo.held (c : Thread nD τ) tailS (StableHlo.after (tailOps (F := F)).flatten W) : sProp 𝕄) -∗ Q' ⟨⟩)
        ∗ boundary (c : Thread nD τ) ∗ (StableHlo.held (c : Thread nD τ) tailS W : sProp 𝕄))
      ⊢ wp frame (wpE (defs (F := F)) (Variants.lift 𝒱₀) (c : Thread nD τ) none) Set.univ
          (Pipeline.chain ((tailOps (F := F)).map StableHlo.seq)) Q' := by
  rw [← List.append_nil ((tailOps (F := F)).map StableHlo.seq)]
  iintro ⟨Hk, Hb⟩
  iapply (Pipeline.wp_seqs_then (pcfgs (F := F)) defs₀ 𝒱₀ c tailS [] tailOps tail_sub tail_fresh W) $$ Hb
  iintro Hb
  rw [Pipeline.chain_nil, wp_pure]
  imodintro
  iapply Hk
  icases Hb with ⟨-, H⟩
  iexact H

/-! ## @main around the region -/

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The arrays at the region's entry: one array, two windows -/

theorem arr_image : (Finset.univ.image (Pipeline.arrRef spec0) : Finset (Ref sig .tc)) = [main_v0, main_arg1, main_v1].toFinset := by decide

/-- The three distinct arrays behind the five windows, one by one. -/
theorem bigSep_arr {M : Type} [URA M] (Φ : Ref sig .tc → sProp M) :
    bigSep (Finset.univ.image (Pipeline.arrRef spec0)) Φ = iprop(Φ main_v0 ∗ Φ main_arg1 ∗ Φ main_v1) :=
  bigSep_eq_bigSepL_of_eq [main_v0, main_arg1, main_v1] arr_image (by decide) Φ

/-- The pipeline's `arrays`, window by window: two halves of the log-softmax's result, two halves of the second
    argument, and the output array whole. -/
theorem arrays_form (c : Dev nD) (G : (w : Fin cfg0.W) → Buf (Elt F) ((cfg0.win w).arr.view.loc (c.tc : Thread nD τ))) :
    (dats m 0 c).arrays G = iprop(
      (((c : Thread nD τ).loc main_v0) ↦{fullShare.left} G 0) ∗ (((c : Thread nD τ).loc main_v0) ↦{fullShare.right} G 1)
      ∗ (((c : Thread nD τ).loc main_arg1) ↦{fullShare.left} G 2) ∗ (((c : Thread nD τ).loc main_arg1) ↦{fullShare.right} G 3)
      ∗ (((c : Thread nD τ).loc main_v1) ↦{fullShare} G 4)) := by
  unfold Dat.arrays
  rw [bigSep_W0, (arr_whole0 0).set_eq_univ, (arr_whole0 2).set_eq_univ, (arr_whole0 4).set_eq_univ]
  rfl

theorem arrAt_zero (c : Dev nD) (w : Fin cfg0.W) : (dats m 0 c).arrAt w 0 = V m c (Pipeline.arrRef spec0 w) := A_eq m c w

theorem hsplit (c : Dev nD) :
    (Pipeline.arrBufs spec0 c (V m c) : sProp 𝕄) ⊢ (dats m 0 c).arrays ((dats m 0 c).arrAt · 0) := by
  rw [arrays_form, arrAt_zero, arrAt_zero, arrAt_zero, arrAt_zero, arrAt_zero]
  unfold Pipeline.arrBufs
  rw [bigSep_arr]
  iintro ⟨Ha, Hb, Hc⟩
  ihave Ha := (pointsTo_share (PosShare.mem_left_op_right fullShare)).1 $$ Ha
  icases Ha with ⟨Ha1, Ha2⟩
  ihave Hb := (pointsTo_share (PosShare.mem_left_op_right fullShare)).1 $$ Hb
  icases Hb with ⟨Hb1, Hb2⟩
  isplitl [Ha1]; · iexact Ha1
  isplitl [Ha2]; · iexact Ha2
  isplitl [Hb1]; · iexact Hb1
  isplitl [Hb2]; · iexact Hb2
  iexact Hc

end Cert.Kernel.Body

end
-- ==== Proof.KLaunchB.lean ====
/-
  The run of @main: every weakly fair execution terminates, nothing faulting, with the two results at what the four
  stretches of host lines after the region compute from the region's exit contents — the output array at what the
  write-backs left, every other buffer as the region was entered — and both arguments as launched.
-/
import proofs.«125674_j51513837748796_2_alg».proof.Proof.KLaunchA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's exit and at the end -/

/-- At the region's exit: the output array at what the write-backs left, every other buffer as entered. -/
def Wexit (c : Dev nD) : Valuation τ sig (Elt F) :=
  Function.update (V0 m c) (Proc.devRef .tc main_v1) ((dats m 0 c).arrAt 4 cfg0.N)

/-- At the end: after the lines that follow the region. -/
def Wfin (c : Dev nD) : Valuation τ sig (Elt F) := StableHlo.after (tailOps (F := F)).flatten (Wexit m c)

theorem Wexit_out (c : Dev nD) : Wexit m c (Proc.devRef .tc main_v1) = (dats m 0 c).arrAt 4 cfg0.N := by
  unfold Wexit; exact Function.update_self _ _ _

theorem Wexit_rest (c : Dev nD) (b : Ref sig .tc) (hb : b ≠ main_v1) : Wexit m c (Proc.devRef .tc b) = V m c b := by
  unfold Wexit; exact Function.update_of_ne (StableHlo.devRef_ne_of_ne hb) _ _

/-- No line after the region writes the output array, -/
theorem Wfin_out (c : Dev nD) : Wfin m c (Proc.devRef .tc main_v1) = (dats m 0 c).arrAt 4 cfg0.N := by
  unfold Wfin
  rw [StableHlo.after_of_forall_not_mem (b := Proc.devRef .tc main_v1) _ _ (List.forall_iff_forall_mem.mp (by
      simp only [tailOps, hostOps1, hostOps1_1, hostOps1_2, hostOps1_3, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact Wexit_out m c

/-- nor the first argument; nor does the log-softmax stretch. -/
theorem Wfin_arg0 (c : Dev nD) : Wfin m c (Proc.devRef .tc main_arg0) = m ((c : Thread nD τ).loc main_arg0) := by
  unfold Wfin
  rw [StableHlo.after_of_forall_not_mem (b := Proc.devRef .tc main_arg0) _ _ (List.forall_iff_forall_mem.mp (by
      simp only [tailOps, hostOps1, hostOps1_1, hostOps1_2, hostOps1_3, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [Wexit_rest m c main_arg0 (by decide)]
  exact StableHlo.after_of_forall_not_mem (b := Proc.devRef .tc main_arg0) _ _ (List.forall_iff_forall_mem.mp (by
      simp only [hostOps0, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The log-softmax stretch does not write the second argument. -/
theorem V_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append, List.nil_append, List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The invariant at the region's ends -/

theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) := by
  rw [scopedRest0_eq]; simp only [sc0, sc1, sc2, sc3, owns_whole]; try rfl

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_owns]

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_owns]
  iintro ⟨S0, S1, S2, S3⟩
  isplitl [S0]; · iexists _; iexact S0
  isplitl [S1]; · iexists _; iexact S1
  isplitl [S2]; · iexists _; iexact S2
  iexists _; iexact S3

/-! ## The lines after the region, from the region's exit -/

theorem rest_exit (c : Dev nD) :
    (bigSep (Pipeline.restRefs sig spec0) fun b => (((c : Thread nD τ).loc b) ↦{fullShare} Wexit m c (Proc.devRef .tc b)) : sProp 𝕄)
      = Pipeline.unscopedRest spec0 c (V m c) := by
  unfold Pipeline.unscopedRest
  exact bigSep_congr fun b hb => by
    rw [Wexit_rest m c b fun e => main_v1_not_rest (e ▸ hb)]

theorem held_exit (c : Dev nD) :
    (StableHlo.held (c : Thread nD τ) tailS (Wexit m c) : sProp 𝕄)
      = iprop((((c : Thread nD τ).loc main_v1) ↦{fullShare} (dats m 0 c).arrAt 4 cfg0.N)
          ∗ Pipeline.unscopedRest spec0 c (V m c)) := by
  rw [held_tailS, Wexit_out, rest_exit]

theorem held_fin (c : Dev nD) :
    (StableHlo.held (c : Thread nD τ) tailS (Wfin m c) : sProp 𝕄)
      = iprop((((c : Thread nD τ).loc main_v1) ↦{fullShare} (dats m 0 c).arrAt 4 cfg0.N)
          ∗ bigSep (Pipeline.restRefs sig spec0) fun b => (((c : Thread nD τ).loc b) ↦{fullShare} Wfin m c (Proc.devRef .tc b))) := by
  rw [held_tailS, Wfin_out]

end Cert.Kernel.Body

end
-- ==== Proof.KLaunchC.lean ====
/-
  The run of @main at any float instance: the launch theorem for a region whose windows may share arrays and whose
  @main continues after it, with the layout facts by name, the body obligation, the split of the arrays at entry, the
  four running sums' buffers through the invariant, and the lines after the region over the output array and the
  bypassing buffers.
-/
import proofs.«125674_j51513837748796_2_alg».proof.Proof.KLaunchB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run ends with: the two results at what the lines after the region leave, the arguments as launched. -/
def RunPost (r : PUnit × MemSt nD τ sig (Elt F)) : Prop := ∀ c : Dev nD,
  r.2.mem ((c.tc : Thread nD τ).loc main_v18) = Wfin m c (Proc.devRef .tc main_v18)
  ∧ r.2.mem ((c.tc : Thread nD τ).loc main_v22) = Wfin m c (Proc.devRef .tc main_v22)
  ∧ r.2.mem ((c.tc : Thread nD τ).loc main_arg0) = m ((c.tc : Thread nD τ).loc main_arg0)
  ∧ r.2.mem ((c.tc : Thread nD τ).loc main_arg1) = m ((c.tc : Thread nD τ).loc main_arg1)

theorem rest_v18 : main_v18 ∈ Pipeline.restRefs sig spec0 := Pipeline.mem_restRefs_of main_v18 rfl (by intro w; fin_cases w <;> decide)
theorem rest_v22 : main_v22 ∈ Pipeline.restRefs sig spec0 := Pipeline.mem_restRefs_of main_v22 rfl (by intro w; fin_cases w <;> decide)
theorem rest_arg0 : main_arg0 ∈ Pipeline.restRefs sig spec0 := Pipeline.mem_restRefs_of main_arg0 rfl (by intro w; fin_cases w <;> decide)

set_option backward.isDefEq.respectTransparency.types false in
set_option maxHeartbeats 4000000 in
theorem run_main : θ_run defs (onTc (τ := τ) (main (F := F))) ⟨m, fun _ => 0, ρ⟩ (RunPost m) :=
  Pipeline.θ_run_region_noSem_pf_tail (fun q => (cfgs q).toPCfg) (fun q => (cfgs q).toPCfg_adm) (dats m) () cellOf_inj (0 : Fin 1)
    winFacts₀0 (Pipeline.PreFacts.none _) emb₁ defs₀ Variants.none m ρ main
    (fun _ => Pipeline.chain ((tailOps (F := F)).map StableHlo.seq))
    (hbody := fun c => (body_obligation m c).loose)
    (hne := block_pos0) (harr := arr_whole0) (hstage := stage_whole0) (howed := fun _ _ => rfl)
    (u₀ := Rounds.initOf (Pipeline.cells cfgs cellOf_inj) (Pipeline.launchToks cfgs cellOf_inj))
    (hu₀ := Idealize.SL.BI.Entails.refl _)
    (V := V m) (hmain := hmain m Variants.none)
    (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => bigSep (Pipeline.restRefs sig spec0) fun b => (((c : Thread nD τ).loc b) ↦{fullShare} Wfin m c (Proc.devRef .tc b)))
    (hX := fun c => by
      rw [Pipeline.unscopedRestP_none]
      iintro H
      isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, Hr⟩; iexact Hr).trans (hin m c))
    (hout := fun c => (hout m c).trans (by
      iintro Hr
      isplitr; · iempintro
      iexact Hr))
    (htail := fun c Q' => by
      rw [arrays_form]
      iintro ⟨Hk, Hb, ⟨A0, A1, A2, A3, A4⟩, HZ⟩
      iapply (tail_lines Variants.none c (Wexit m c) Q')
      isplitl [Hk A0 A1 A2 A3]
      · rw [show StableHlo.after (tailOps (F := F)).flatten (Wexit m c) = Wfin m c from rfl, held_fin]
        iintro ⟨A4, HZ⟩
        iapply Hk
        isplitl [A0 A1 A2 A3 A4]
        · isplitl [A0]; · iexact A0
          isplitl [A1]; · iexact A1
          isplitl [A2]; · iexact A2
          isplitl [A3]; · iexact A3
          iexact A4
        iexact HZ
      isplitl [Hb]; · iexact Hb
      rw [held_exit]
      isplitl [A4]; · iexact A4
      iexact HZ)
    (QY := fun c s => ∀ b ∈ Pipeline.restRefs sig spec0, s.mem ((c.tc : Thread nD τ).loc b) = Wfin m c (Proc.devRef .tc b))
    (hY := fun c s' => by
      iintro ⟨-, HU, HSI⟩
      imodintro
      iapply (pointsTo_read_all (Pipeline.restRefs sig spec0) (fun b => (c.tc : Thread nD τ).loc b) (fun b => Wfin m c (Proc.devRef .tc b)) s')
      isplitl [HU] <;> iassumption)
    (hQ := fun s h c => ⟨(h c).2.2 main_v18 rest_v18, (h c).2.2 main_v22 rest_v22,
      ((h c).2.2 main_arg0 rest_arg0).trans (Wfin_arg0 m c),
      ((h c).1 2).trans (((dats m 0 c).arrAt_in 2 rfl _).trans ((A_eq m c 2).trans (V_arg1 m c)))⟩)

end Cert.Kernel.Body

end
-- ==== Proof.RefRun.lean ====
/-
  The reference's run, read back against the stage-by-stage terms.

  @main of the reference is a straight line of 118 host operations. Every weakly fair execution of it terminates, each
  buffer ending at the fold of the operations over the launch contents. No operation writes an argument, so the two
  arguments end as launched; the two results end at the operations composed, which is the last stage's term of the two
  arguments.
-/
import proofs.«125674_j51513837748796_2_alg».proof.Proof.RefRunDefsP
import proofs.«125674_j51513837748796_2_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The arguments: no operation writes them -/

set_option maxRecDepth 16384 in
theorem after_arg0 (m : (ℓ : Loc nD τ sig) → Buf (Elt F) ℓ) (c : Dev nD) :
    after (ValueP.ops (F := F)) (launchContents m c) (Proc.devRef .tc main_arg0) = m ((c.tc : Thread nD τ).loc main_arg0) := by
  after_results_simp <;> rfl

set_option maxRecDepth 16384 in
theorem after_arg1 (m : (ℓ : Loc nD τ sig) → Buf (Elt F) ℓ) (c : Dev nD) :
    after (ValueP.ops (F := F)) (launchContents m c) (Proc.devRef .tc main_arg1) = m ((c.tc : Thread nD τ).loc main_arg1) := by
  after_results_simp <;> rfl

/-! ## The results: the operations composed -/

set_option maxRecDepth 16384 in
set_option maxHeartbeats 4000000 in
/-- The first result ends at the last stage's term. The operations of the called functions are first read as
    plain operations on their buffers; the fold then computes, and the composed term is the stage's. -/
theorem after_v59 (m : (ℓ : Loc nD τ sig) → Buf (Elt F) ℓ) (c : Dev nD) :
    after (ValueP.ops (F := F)) (launchContents m c) (Proc.devRef .tc main_v59)
      = ReadP.val_main_v59 (F := F) (m ((c.tc : Thread nD τ).loc main_arg0)) (m ((c.tc : Thread nD τ).loc main_arg1)) := by
  refine Eq.trans ?_ (ReadP.val_main_v59_eq m c)
  simp only [ValueP.ops, TRef.nullary, TRef.unary, TRef.binary, TRef.ternary, TRef.of, TRef.toBuf, TRef.ofBuf, cast_eq]
  after_results_simp <;> rfl <;> (unfold ValueP.res_main_v59; rfl)

set_option maxRecDepth 16384 in
set_option maxHeartbeats 4000000 in
/-- The second result, likewise. -/
theorem after_v70 (m : (ℓ : Loc nD τ sig) → Buf (Elt F) ℓ) (c : Dev nD) :
    after (ValueP.ops (F := F)) (launchContents m c) (Proc.devRef .tc main_v70)
      = ReadP.val_main_v70 (F := F) (m ((c.tc : Thread nD τ).loc main_arg0)) (m ((c.tc : Thread nD τ).loc main_arg1)) := by
  refine Eq.trans ?_ (ReadP.val_main_v70_eq m c)
  simp only [ValueP.ops, TRef.nullary, TRef.unary, TRef.binary, TRef.ternary, TRef.of, TRef.toBuf, TRef.ofBuf, cast_eq]
  after_results_simp <;> rfl <;> (unfold ValueP.res_main_v70; rfl)

/-! ## The run -/

set_option maxRecDepth 16384 in
/-- On every device, from any memory with zero counters: every weakly fair execution of @main terminates with each
    result at its stage's term of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
          = ReadP.val_main_v59 (F := F) (m ((c.tc : Thread nD τ).loc main_arg0)) (m ((c.tc : Thread nD τ).loc main_arg1))
      ∧ r.2.mem ((c.tc : Thread nD τ).loc main_v70)
          = ReadP.val_main_v70 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v59).trans (after_v59 m c), (h c main_v70).trans (after_v70 m c),
      (h c main_arg0).trans (after_arg0 m c), (h c main_arg1).trans (after_arg1 m c)⟩)
    (run_seq ValueP.scopedRefs_eq ValueP.scopedSems_eq defs main (fun _ => ValueP.ops) ValueP.main_eq (fun _ => ValueP.ops_sub) m ρ)

/-- The reference runs, and its two arguments end as launched. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2.2.1, (h c).2.2.2⟩) (run m ρ)

end Cert.ReferenceIdeal.RefRun

end
-- ==== Proof.Spec.lean ====
/-
  The separation loss of a batch of 64 tokens, as two functions of the tokens' log-probabilities
  `lp b i k c` (8 batches, 64 tokens, 32 groups of 32 categories) and features `h b i d` (1024 features),
  on the extended reals.

  For a pair of tokens (i, j) of one batch:
  * the Jensen–Shannon divergence of their categorical distributions, averaged over the 32 groups,
    with `m = ½ (p_i + p_j)`:  JSD = mean_k ½ (Σ_c p_i (log p_i − log m) + Σ_c p_j (log p_j − log m));
  * the mean squared difference of their features, MSE = (Σ_d (h_i − h_j)²) / 1024.
  Pairs with i < j and JSD < ½ attract (loss: their mean MSE); pairs with i < j and JSD ≥ ½ repel
  (loss: their mean exp(−MSE)).  Each mean is a quotient (Σ weights · value) / (Σ weights + ε), replaced by 0
  when negative.

  Two arrangements of the same sums are stated: `Whole` sums over all 64 × 64 pairs and writes the divergence
  group by group; `Tiled` cuts the 64 tokens into 4 tiles of 16, sums only over the tile pairs (I, J) with I ≤ J
  (every pair of a tile pair with I > J has i > j, so its weight is 0), and writes the divergence as one sum over the
  1024 flattened (group, category) lanes scaled by 1/64.  That the two agree whenever every log-probability is a real
  number is proved elsewhere; this file only states them.
-/
import Mathlib
import Idealize.ShloMosaic.PureOps.Ideal

noncomputable section

namespace SepLoss

open Idealize.ShloMosaic

/-! ## The constants, as the binary32 words both programs carry -/

abbrev wZero : EReal := Ideal.ofBits .f32 0x00000000#32
abbrev wHalf : EReal := Ideal.ofBits .f32 0x3F000000#32
abbrev wOne : EReal := Ideal.ofBits .f32 0x3F800000#32
/-- 1/64 = ½ / 32. -/
abbrev wSixtyFourth : EReal := Ideal.ofBits .f32 0x3C800000#32
abbrev w32 : EReal := Ideal.ofBits .f32 0x42000000#32
abbrev w1024 : EReal := Ideal.ofBits .f32 0x44800000#32
/-- The f32 nearest 1e-10. -/
abbrev wEps : EReal := Ideal.ofBits .f32 0x2EDBE6FF#32

/-! ## Indices -/

/-- Token `r` of tile `I`. -/
def tile (I : Fin 4) (r : Fin 16) : Fin 64 := ⟨16 * I.val + r.val, by omega⟩
/-- The group of a flattened lane. -/
def laneGroup (d : Fin 1024) : Fin 32 := ⟨d.val / 32, by omega⟩
/-- The category of a flattened lane. -/
def laneCat (d : Fin 1024) : Fin 32 := ⟨d.val % 32, by omega⟩

/-- 1 when the proposition holds, else 0. -/
def ind (p : Prop) [Decidable p] : EReal := if p then 1 else 0

/-- The strict upper triangle: 1 when i < j. -/
def tri (i j : Fin 64) : EReal := ind (i.val < j.val)

section

variable (lp : Fin 8 → Fin 64 → Fin 32 → Fin 32 → EReal) (h : Fin 8 → Fin 64 → Fin 1024 → EReal)

/-! ## One pair of tokens -/

/-- log of the mean of the two tokens' probabilities of category (k, c). -/
def logMean (b : Fin 8) (i j : Fin 64) (k c : Fin 32) : EReal :=
  Ideal.log (wHalf * (Ideal.exp (lp b i k c) + Ideal.exp (lp b j k c)))
/-- The first token's term of the divergence, p_i (log p_i − log m). -/
def termQ (b : Fin 8) (i j : Fin 64) (k c : Fin 32) : EReal :=
  Ideal.exp (lp b i k c) * (lp b i k c - logMean lp b i j k c)
/-- The second token's term, p_j (log p_j − log m). -/
def termK (b : Fin 8) (i j : Fin 64) (k c : Fin 32) : EReal :=
  Ideal.exp (lp b j k c) * (lp b j k c - logMean lp b i j k c)

/-- The divergence, group by group: ((Σ_k ½ (Σ_c termQ + Σ_c termK)) / 32) · 1. -/
def jsdWhole (b : Fin 8) (i j : Fin 64) : EReal :=
  Ideal.div (∑ k : Fin 32, wHalf * ((∑ c : Fin 32, termQ lp b i j k c) + ∑ c : Fin 32, termK lp b i j k c)) w32 * wOne
/-- The divergence over the flattened lanes: ((1/64) · Σ_d (termQ + termK)) · 1. -/
def jsdTiled (b : Fin 8) (i j : Fin 64) : EReal :=
  (wSixtyFourth * ∑ d : Fin 1024, (termQ lp b i j (laneGroup d) (laneCat d) + termK lp b i j (laneGroup d) (laneCat d))) * wOne

/-- The mean squared difference of the two tokens' features. -/
def mse (b : Fin 8) (i j : Fin 64) : EReal :=
  Ideal.div (∑ d : Fin 1024, (h b i d - h b j d) * (h b i d - h b j d)) w1024
/-- exp(−MSE / 1), the sign written as a negation; -/
def energyWhole (b : Fin 8) (i j : Fin 64) : EReal := Ideal.exp (Ideal.div (-(mse h b i j)) wOne)
/-- and as a subtraction from zero. -/
def energyTiled (b : Fin 8) (i j : Fin 64) : EReal := Ideal.exp (Ideal.div (wZero - mse h b i j) wOne)

end

/-! ## The weights of a pair, from its divergence -/

/-- Attracting pairs: divergence below ½, above the diagonal. -/
def attW (jsd : Fin 8 → Fin 64 → Fin 64 → EReal) (b : Fin 8) (i j : Fin 64) : EReal := ind (jsd b i j < wHalf) * tri i j
/-- Repelling pairs: divergence at least ½, above the diagonal. -/
def repW (jsd : Fin 8 → Fin 64 → Fin 64 → EReal) (b : Fin 8) (i j : Fin 64) : EReal := ind (wHalf ≤ jsd b i j) * tri i j

/-- A weighted mean with the ε in the denominator, 0 when negative. -/
def loss (num den : EReal) : EReal :=
  if Ideal.div num (den + wEps) < wZero then wZero else Ideal.div num (den + wEps)

/-! ## The two arrangements of a sum over all pairs -/

/-- Over all pairs of all batches. -/
def sumWhole (f : Fin 8 → Fin 64 → Fin 64 → EReal) : EReal := ∑ b : Fin 8, ∑ i : Fin 64, ∑ j : Fin 64, f b i j
/-- One tile pair's part. -/
def tileSum (f : Fin 8 → Fin 64 → Fin 64 → EReal) (b : Fin 8) (I J : Fin 4) : EReal :=
  ∑ r : Fin 16, ∑ s : Fin 16, f b (tile I r) (tile J s)
/-- Over the tile pairs on or above the diagonal, batch by batch. -/
def sumTiled (f : Fin 8 → Fin 64 → Fin 64 → EReal) : EReal :=
  ∑ b : Fin 8, ∑ I : Fin 4, ∑ J : Fin 4, if I.val ≤ J.val then tileSum f b I J else 0

section

variable (lp : Fin 8 → Fin 64 → Fin 32 → Fin 32 → EReal) (h : Fin 8 → Fin 64 → Fin 1024 → EReal)

/-! ## The two losses, in each arrangement -/

def attLossWhole : EReal :=
  loss (sumWhole fun b i j => mse h b i j * attW (jsdWhole lp) b i j) (sumWhole (attW (jsdWhole lp)))
def repLossWhole : EReal :=
  loss (sumWhole fun b i j => energyWhole h b i j * repW (jsdWhole lp) b i j) (sumWhole (repW (jsdWhole lp)))

def attLossTiled : EReal :=
  loss (sumTiled fun b i j => mse h b i j * attW (jsdTiled lp) b i j) (sumTiled (attW (jsdTiled lp)))
def repLossTiled : EReal :=
  loss (sumTiled fun b i j => energyTiled h b i j * repW (jsdTiled lp) b i j) (sumTiled (repW (jsdTiled lp)))

end

end SepLoss

end
-- ==== Proof.TailValue.lean ====
/-
  The host lines after the kernel region, read at the exact values.

  The region leaves an [8, 1, 4] array: per batch, the four partial sums (weighted squared differences, attracting
  weights, weighted energies, repelling weights). The host lines see it as [8, 4], cut its four columns, sum each
  column over the eight batches from zero, and form two quotients, column 0 over column 1 plus ε and column 2 over
  column 3 plus ε, each replaced by zero when it is negative. So the two results are the weighted-mean losses of the
  column sums: entry (b, 0, q) of the array is entry b of column q, a host sum from the zero word is the sum of the
  entries, and a select on the bit of "the quotient is below zero" is the loss's conditional.
-/
import proofs.«125674_j51513837748796_2_alg».proof.Proof.Gen.KernelIdeal.Launch
import proofs.«125674_j51513837748796_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TailValue

open Cert.KernelIdeal Cert.KernelIdeal.Gen Idealize.ShloMosaic Idealize.ShloMosaic.ValueIdx
open scoped BigOperators

variable {α : Type}

/-- COLUMN q OF THE OUTPUT ARRAY: the [8, 1, 4] array seen as [8, 4], cut to its column o and seen as an [8] vector, reads
    at b the array's entry (b, 0, q), q the column's number. -/
theorem col_apply (X : (⟨3, ![8, 1, 4]⟩ : Shape).Idx → α) (o : Nat) (q : Fin 4) (hq : q.val = o)
    (h1 : (⟨3, ![8, 1, 4]⟩ : Shape).ShapeCasts ⟨2, ![8, 4]⟩)
    (hs : (⟨2, ![8, 4]⟩ : Shape).Slices ![0, o] ⟨2, ![8, 1]⟩)
    (h2 : (⟨2, ![8, 1]⟩ : Shape).ShapeCasts ⟨1, ![8]⟩) (b : Fin 8) :
    shapeCast ⟨1, ![8]⟩ (extractStridedSlice ⟨2, ![8, 1]⟩ ![0, o] (shapeCast ⟨2, ![8, 4]⟩ X h1) hs) h2 (ix1 b)
      = X (ix3 b (0 : Fin 1) q) := by
  refine (shapeCast_apply _ h2 (ix1 b) (ix2 b (0 : Fin 1)) ?_).trans ?_
  · rw [Shape.rowMajor_val_two, Shape.rowMajor_val_one]
    show b.val * 1 + 0 = b.val
    omega
  refine (slice2_axis1_apply o _ hs b (0 : Fin 1) q (by rw [hq]; rfl)).trans ?_
  refine shapeCast_apply X h1 (ix2 b q) (ix3 b (0 : Fin 1) q) ?_
  rw [Shape.rowMajor_val_three, Shape.rowMajor_val_two]
  show (b.val * 1 + 0) * 4 + q.val = b.val * 4 + q.val
  omega

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE HOST'S SUM of an [8] vector of exact values from the zero word: the sum of its eight entries. -/
theorem hostSum_apply (v : FVec Ideal ⟨1, ![8]⟩ .f32) (h : (⟨1, ![8]⟩ : Shape).ReducesTo [0] ⟨0, ![]⟩)
    (hu : 0 < (⟨0, ![]⟩ : Shape).numel) (i : (⟨0, ![]⟩ : Shape).Idx) :
    Host.reduceAdd v (constant (F := Ideal) ⟨0, ![]⟩ .f32 0x00000000#32) h hu i = ∑ b : Fin 8, v (ix1 b) := by
  show Ideal.hostReduceAdd h v (Ideal.ofBits .f32 0x00000000#32) i = _
  rw [Ideal.hostReduceAdd_total h (fun b => b.elim0) v _ i, Ideal.ofBits_zero_f32, zero_add, sum_idx1]

/-- THE SUM OF COLUMN q: the host's sum of that [8] vector from the zero word is the sum over b of the entries (b, 0, q). -/
theorem colSum_apply (X : FVec Ideal ⟨3, ![8, 1, 4]⟩ .f32) (o : Nat) (q : Fin 4) (hq : q.val = o)
    (h1 : (⟨3, ![8, 1, 4]⟩ : Shape).ShapeCasts ⟨2, ![8, 4]⟩)
    (hs : (⟨2, ![8, 4]⟩ : Shape).Slices ![0, o] ⟨2, ![8, 1]⟩)
    (h2 : (⟨2, ![8, 1]⟩ : Shape).ShapeCasts ⟨1, ![8]⟩) (hr : (⟨1, ![8]⟩ : Shape).ReducesTo [0] ⟨0, ![]⟩)
    (hu : 0 < (⟨0, ![]⟩ : Shape).numel) (i : (⟨0, ![]⟩ : Shape).Idx) :
    Host.reduceAdd (shapeCast ⟨1, ![8]⟩ (extractStridedSlice ⟨2, ![8, 1]⟩ ![0, o] (shapeCast ⟨2, ![8, 4]⟩ X h1) hs) h2)
        (constant (F := Ideal) ⟨0, ![]⟩ .f32 0x00000000#32) hr hu i
      = ∑ b : Fin 8, X (ix3 b (0 : Fin 1) q) := by
  rw [hostSum_apply]
  refine Finset.sum_congr rfl fun b _ => ?_
  exact col_apply X o q hq h1 hs h2 b

/-- A select on the bit of "x is below z" between z and x is the conditional. -/
theorem select_lt (x z : EReal) : Scalar.select (Ideal.cmp .olt x z) z x = if x < z then z else x := by
  unfold Scalar.select Ideal.cmp
  by_cases hlt : x < z
  · rw [if_pos hlt, decide_eq_true hlt]; rfl
  · rw [if_neg hlt, decide_eq_false hlt]; rfl

/-- THE TAIL: the sum of column n over the sum of column d plus ε, replaced by zero when negative, is the weighted mean's
    loss of the two column sums. -/
theorem lossTail_apply (X : FVec Ideal ⟨3, ![8, 1, 4]⟩ .f32) (on od : Nat) (qn qd : Fin 4) (hn : qn.val = on) (hd : qd.val = od)
    (h1 : (⟨3, ![8, 1, 4]⟩ : Shape).ShapeCasts ⟨2, ![8, 4]⟩)
    (hsn : (⟨2, ![8, 4]⟩ : Shape).Slices ![0, on] ⟨2, ![8, 1]⟩) (hsd : (⟨2, ![8, 4]⟩ : Shape).Slices ![0, od] ⟨2, ![8, 1]⟩)
    (h2 : (⟨2, ![8, 1]⟩ : Shape).ShapeCasts ⟨1, ![8]⟩) (hr : (⟨1, ![8]⟩ : Shape).ReducesTo [0] ⟨0, ![]⟩)
    (hu : 0 < (⟨0, ![]⟩ : Shape).numel) (i : (⟨0, ![]⟩ : Shape).Idx) :
    select
        (cmpf .olt
          (Host.divf
            (Host.reduceAdd (shapeCast ⟨1, ![8]⟩ (extractStridedSlice ⟨2, ![8, 1]⟩ ![0, on] (shapeCast ⟨2, ![8, 4]⟩ X h1) hsn) h2)
              (constant (F := Ideal) ⟨0, ![]⟩ .f32 0x00000000#32) hr hu)
            (addf
              (Host.reduceAdd (shapeCast ⟨1, ![8]⟩ (extractStridedSlice ⟨2, ![8, 1]⟩ ![0, od] (shapeCast ⟨2, ![8, 4]⟩ X h1) hsd) h2)
                (constant (F := Ideal) ⟨0, ![]⟩ .f32 0x00000000#32) hr hu)
              (constant (F := Ideal) ⟨0, ![]⟩ .f32 0x2EDBE6FF#32)))
          (constant (F := Ideal) ⟨0, ![]⟩ .f32 0x00000000#32))
        (constant (F := Ideal) ⟨0, ![]⟩ .f32 0x00000000#32)
        (Host.divf
          (Host.reduceAdd (shapeCast ⟨1, ![8]⟩ (extractStridedSlice ⟨2, ![8, 1]⟩ ![0, on] (shapeCast ⟨2, ![8, 4]⟩ X h1) hsn) h2)
            (constant (F := Ideal) ⟨0, ![]⟩ .f32 0x00000000#32) hr hu)
          (addf
            (Host.reduceAdd (shapeCast ⟨1, ![8]⟩ (extractStridedSlice ⟨2, ![8, 1]⟩ ![0, od] (shapeCast ⟨2, ![8, 4]⟩ X h1) hsd) h2)
              (constant (F := Ideal) ⟨0, ![]⟩ .f32 0x00000000#32) hr hu)
            (constant (F := Ideal) ⟨0, ![]⟩ .f32 0x2EDBE6FF#32))) i
      = SepLoss.loss (∑ b : Fin 8, X (ix3 b (0 : Fin 1) qn)) (∑ b : Fin 8, X (ix3 b (0 : Fin 1) qd)) := by
  have eN := colSum_apply X on qn hn h1 hsn h2 hr hu i
  have eD := colSum_apply X od qd hd h1 hsd h2 hr hu i
  have key : ∀ N D : EReal, Scalar.select (Ideal.cmp .olt (Ideal.div N (D + SepLoss.wEps)) SepLoss.wZero) SepLoss.wZero
      (Ideal.div N (D + SepLoss.wEps)) = SepLoss.loss N D := fun N D => (select_lt _ _).trans rfl
  exact (key _ _).trans (congrArg₂ SepLoss.loss eN eD)

/-! ## The two results of the host lines after the region -/

/-- THE ATTRACTING LOSS: after the host lines, the first result holds the loss of the first two columns' sums. -/
theorem tail_att (W : Valuation τ sig (Elt Ideal)) :
    (StableHlo.after (List.flatten [hostOps1 (F := Ideal), hostOps1_1 (F := Ideal), hostOps1_2 (F := Ideal), hostOps1_3 (F := Ideal)]) W
        (Proc.devRef .tc main_v18) : S_.Idx → EReal)
      = fun _ => SepLoss.loss (∑ b : Fin 8, (W (Proc.devRef .tc main_v1) : S8x1x4.Idx → EReal) (ix3 b (0 : Fin 1) (0 : Fin 4)))
          (∑ b : Fin 8, (W (Proc.devRef .tc main_v1) : S8x1x4.Idx → EReal) (ix3 b (0 : Fin 1) (1 : Fin 4))) := by
  simp only [hostOps1, hostOps1_1, hostOps1_2, hostOps1_3, List.flatten_cons, List.flatten_nil, List.append_nil, List.cons_append,
    List.nil_append]
  open StableHlo in after_results_simp
  funext i
  exact lossTail_apply (W (Proc.devRef .tc main_v1)) 0 1 0 1 rfl rfl _ _ _ _ _ _ i

/-- THE REPELLING LOSS: the second result holds the loss of the last two columns' sums. -/
theorem tail_rep (W : Valuation τ sig (Elt Ideal)) :
    (StableHlo.after (List.flatten [hostOps1 (F := Ideal), hostOps1_1 (F := Ideal), hostOps1_2 (F := Ideal), hostOps1_3 (F := Ideal)]) W
        (Proc.devRef .tc main_v22) : S_.Idx → EReal)
      = fun _ => SepLoss.loss (∑ b : Fin 8, (W (Proc.devRef .tc main_v1) : S8x1x4.Idx → EReal) (ix3 b (0 : Fin 1) (2 : Fin 4)))
          (∑ b : Fin 8, (W (Proc.devRef .tc main_v1) : S8x1x4.Idx → EReal) (ix3 b (0 : Fin 1) (3 : Fin 4))) := by
  simp only [hostOps1, hostOps1_1, hostOps1_2, hostOps1_3, List.flatten_cons, List.flatten_nil, List.append_nil, List.cons_append,
    List.nil_append]
  open StableHlo in after_results_simp
  funext i
  exact lossTail_apply (W (Proc.devRef .tc main_v1)) 2 3 2 3 rfl rfl _ _ _ _ _ _ i

end Cert.KernelIdeal.TailValue

end
-- ==== Proof.KernelValueBlocks.lean ====
/-
  The four input blocks of a grid point, read entry by entry off the arrays the region finds.

  Point t of the 128-point grid is (batch, query tile, key tile) = (t / 16, (t / 4) mod 4, t mod 4).  The first and third
  windows cut the log-probability and the feature array at block (batch, query tile), the second and fourth at block
  (batch, key tile); a block's coordinate is the block index times the block's extent plus the coordinate inside the
  block, so entry (0, r, …) of a block at tile T of batch b is entry (b, 16·T + r, …) of the array.
-/
import proofs.«125674_j51513837748796_2_alg».proof.Proof.ProofData
import proofs.«125674_j51513837748796_2_alg».proof.Proof.Spec
import Idealize.ShloMosaic.Lib.ValueIdx
import Idealize.ShloMosaic.Lib.Pipeline.Value

noncomputable section

namespace Cert.KernelIdeal.KValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The log-probabilities the region finds (the log-softmax stretch's result), by batch, token, group, category. -/
def kerLp : Fin 8 → Fin 64 → Fin 32 → Fin 32 → EReal :=
  fun b i k cc => (Body.V m c main_v0 : S8x64x32x32.Idx → EReal) (ix4 b i k cc)
/-- The features the region finds, by batch, token, feature. -/
def kerH : Fin 8 → Fin 64 → Fin 1024 → EReal :=
  fun b i d => (Body.V m c main_arg1 : S8x64x1024.Idx → EReal) (ix3 b i d)

/-- The block indices of the four input windows at point t. -/
theorem index0 : ∀ t : Fin cfg0.N, win0_0.index t 0 = t.val / 16 ∧ win0_0.index t 1 = t.val / 4 % 4 ∧ win0_0.index t 2 = 0 ∧ win0_0.index t 3 = 0 :=
  (by decide +kernel : ∀ t : Fin grid0.N, win0_0.index t 0 = t.val / 16 ∧ win0_0.index t 1 = t.val / 4 % 4 ∧ win0_0.index t 2 = 0 ∧ win0_0.index t 3 = 0)

/-- The first window's block holds the query tile's log-probabilities. -/
theorem iblk0_apply (t : Fin cfg0.N) (b : Fin 8) (I : Fin 4) (hb : b.val = t.val / 16) (hI : I.val = t.val / 4 % 4)
    (r : Fin 16) (k cc : Fin 32) :
    (Body.iblk m c 0 t : Vec Ideal S1x16x32x32 .f32) (ix4 (0 : Fin 1) r k cc) = kerLp m c b (SepLoss.tile I r) k cc := by
  obtain ⟨h0, h1, h2, h3⟩ := index0 t
  unfold Body.iblk kerLp
  rw [View.read_apply]
  show (Body.V m c main_v0 : S8x64x32x32.Idx → EReal) (((cfg0.win 0).blk t).view.emb (ix4 (0 : Fin 1) r k cc))
    = (Body.V m c main_v0 : S8x64x32x32.Idx → EReal) (ix4 b (SepLoss.tile I r) k cc)
  refine congrArg (Body.V m c main_v0 : S8x64x32x32.Idx → EReal) (funext fun a => Fin.ext ?_)
  match a with
  | ⟨0, _⟩ => show win0_0.index t 0 * 1 + 1 * (0 : ℕ) = b.val; rw [h0, hb]; omega
  | ⟨1, _⟩ => show win0_0.index t 1 * 16 + 1 * r.val = 16 * I.val + r.val; rw [h1, hI]; omega
  | ⟨2, _⟩ => show win0_0.index t 2 * 32 + 1 * k.val = k.val; rw [h2]; omega
  | ⟨3, _⟩ => show win0_0.index t 3 * 32 + 1 * cc.val = cc.val; rw [h3]; omega

theorem index1 : ∀ t : Fin cfg0.N, win0_1.index t 0 = t.val / 16 ∧ win0_1.index t 1 = t.val % 4 ∧ win0_1.index t 2 = 0 ∧ win0_1.index t 3 = 0 :=
  (by decide +kernel : ∀ t : Fin grid0.N, win0_1.index t 0 = t.val / 16 ∧ win0_1.index t 1 = t.val % 4 ∧ win0_1.index t 2 = 0 ∧ win0_1.index t 3 = 0)
theorem index2 : ∀ t : Fin cfg0.N, win0_2.index t 0 = t.val / 16 ∧ win0_2.index t 1 = t.val / 4 % 4 ∧ win0_2.index t 2 = 0 :=
  (by decide +kernel : ∀ t : Fin grid0.N, win0_2.index t 0 = t.val / 16 ∧ win0_2.index t 1 = t.val / 4 % 4 ∧ win0_2.index t 2 = 0)
theorem index3 : ∀ t : Fin cfg0.N, win0_3.index t 0 = t.val / 16 ∧ win0_3.index t 1 = t.val % 4 ∧ win0_3.index t 2 = 0 :=
  (by decide +kernel : ∀ t : Fin grid0.N, win0_3.index t 0 = t.val / 16 ∧ win0_3.index t 1 = t.val % 4 ∧ win0_3.index t 2 = 0)

/-- The second window's block holds the key tile's log-probabilities. -/
theorem iblk1_apply (t : Fin cfg0.N) (b : Fin 8) (J : Fin 4) (hb : b.val = t.val / 16) (hJ : J.val = t.val % 4)
    (s : Fin 16) (k cc : Fin 32) :
    (Body.iblk m c 1 t : Vec Ideal S1x16x32x32 .f32) (ix4 (0 : Fin 1) s k cc) = kerLp m c b (SepLoss.tile J s) k cc := by
  obtain ⟨h0, h1, h2, h3⟩ := index1 t
  unfold Body.iblk kerLp
  rw [View.read_apply]
  show (Body.V m c main_v0 : S8x64x32x32.Idx → EReal) (((cfg0.win 1).blk t).view.emb (ix4 (0 : Fin 1) s k cc))
    = (Body.V m c main_v0 : S8x64x32x32.Idx → EReal) (ix4 b (SepLoss.tile J s) k cc)
  refine congrArg (Body.V m c main_v0 : S8x64x32x32.Idx → EReal) (funext fun a => Fin.ext ?_)
  match a with
  | ⟨0, _⟩ => show win0_1.index t 0 * 1 + 1 * (0 : ℕ) = b.val; rw [h0, hb]; omega
  | ⟨1, _⟩ => show win0_1.index t 1 * 16 + 1 * s.val = 16 * J.val + s.val; rw [h1, hJ]; omega
  | ⟨2, _⟩ => show win0_1.index t 2 * 32 + 1 * k.val = k.val; rw [h2]; omega
  | ⟨3, _⟩ => show win0_1.index t 3 * 32 + 1 * cc.val = cc.val; rw [h3]; omega

/-- The third window's block holds the query tile's features. -/
theorem iblk2_apply (t : Fin cfg0.N) (b : Fin 8) (I : Fin 4) (hb : b.val = t.val / 16) (hI : I.val = t.val / 4 % 4)
    (r : Fin 16) (d : Fin 1024) :
    (Body.iblk m c 2 t : Vec Ideal S1x16x1024 .f32) (ix3 (0 : Fin 1) r d) = kerH m c b (SepLoss.tile I r) d := by
  obtain ⟨h0, h1, h2⟩ := index2 t
  unfold Body.iblk kerH
  rw [View.read_apply]
  show (Body.V m c main_arg1 : S8x64x1024.Idx → EReal) (((cfg0.win 2).blk t).view.emb (ix3 (0 : Fin 1) r d))
    = (Body.V m c main_arg1 : S8x64x1024.Idx → EReal) (ix3 b (SepLoss.tile I r) d)
  refine congrArg (Body.V m c main_arg1 : S8x64x1024.Idx → EReal) (funext fun a => Fin.ext ?_)
  match a with
  | ⟨0, _⟩ => show win0_2.index t 0 * 1 + 1 * (0 : ℕ) = b.val; rw [h0, hb]; omega
  | ⟨1, _⟩ => show win0_2.index t 1 * 16 + 1 * r.val = 16 * I.val + r.val; rw [h1, hI]; omega
  | ⟨2, _⟩ => show win0_2.index t 2 * 1024 + 1 * d.val = d.val; rw [h2]; omega

/-- The fourth window's block holds the key tile's features. -/
theorem iblk3_apply (t : Fin cfg0.N) (b : Fin 8) (J : Fin 4) (hb : b.val = t.val / 16) (hJ : J.val = t.val % 4)
    (s : Fin 16) (d : Fin 1024) :
    (Body.iblk m c 3 t : Vec Ideal S1x16x1024 .f32) (ix3 (0 : Fin 1) s d) = kerH m c b (SepLoss.tile J s) d := by
  obtain ⟨h0, h1, h2⟩ := index3 t
  unfold Body.iblk kerH
  rw [View.read_apply]
  show (Body.V m c main_arg1 : S8x64x1024.Idx → EReal) (((cfg0.win 3).blk t).view.emb (ix3 (0 : Fin 1) s d))
    = (Body.V m c main_arg1 : S8x64x1024.Idx → EReal) (ix3 b (SepLoss.tile J s) d)
  refine congrArg (Body.V m c main_arg1 : S8x64x1024.Idx → EReal) (funext fun a => Fin.ext ?_)
  match a with
  | ⟨0, _⟩ => show win0_3.index t 0 * 1 + 1 * (0 : ℕ) = b.val; rw [h0, hb]; omega
  | ⟨1, _⟩ => show win0_3.index t 1 * 16 + 1 * s.val = 16 * J.val + s.val; rw [h1, hJ]; omega
  | ⟨2, _⟩ => show win0_3.index t 2 * 1024 + 1 * d.val = d.val; rw [h2]; omega

end Cert.KernelIdeal.KValue

end
-- ==== Proof.AlgebraWords.lean ====
/-
  The binary32 words the separation loss carries, as the extended reals they denote:
  0x00000000 is 0, 0x3F000000 is 1/2, 0x3F800000 is 1, 0x3C800000 is 1/64, 0x42000000 is 32.
  Each is a normal number (2^23 + T) · 2^(E − 127 − 23) with T = 0, that is 2^(E − 127):
  E = 126, 127, 121, 132 give 1/2, 1, 1/64, 32.
-/
import proofs.«125674_j51513837748796_2_alg».proof.Proof.Spec

noncomputable section

namespace SepLoss

open Idealize.ShloMosaic

/-- The word +0.0 is 0. -/
theorem wZero_eq : wZero = 0 := by
  simp [Ideal.ofBits, Ideal.ieee]

/-- The word 0.5 is the real 1/2. -/
theorem wHalf_eq : wHalf = ((1 / 2 : ℝ) : EReal) := by
  simp [Ideal.ofBits, Ideal.ieee, -EReal.coe_mul]; norm_num

/-- The word 1.0 is 1. -/
theorem wOne_eq : wOne = 1 := by
  simp [Ideal.ofBits, Ideal.ieee, -EReal.coe_mul]; norm_num

/-- The word 0.015625 is the real 1/64. -/
theorem wSixtyFourth_eq : wSixtyFourth = ((1 / 64 : ℝ) : EReal) := by
  simp [Ideal.ofBits, Ideal.ieee, -EReal.coe_mul]; norm_num

/-- The word 32.0 is the real 32. -/
theorem w32_eq : w32 = ((32 : ℝ) : EReal) := by
  simp [Ideal.ofBits, Ideal.ieee, -EReal.coe_mul]; norm_num

end SepLoss

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.AlgebraSums.lean ====
/-
  A sum over all 64 × 64 pairs of tokens equals the sum over the tile pairs (I, J) with I ≤ J, for every summand
  that vanishes off the strict upper triangle i < j.

  The 64 tokens are the 4 tiles of 16: token 16·I + r is token r of tile I, so a sum over the tokens is a sum over the
  tiles of the sums inside each tile, and a sum over all pairs is the sum over all 16 tile pairs of the tile pairs' parts.
  In a tile pair with J < I every pair has 16·I + r ≥ 16·(J + 1) > 16·J + s, so i > j and the summand is 0 there:
  that tile pair's part is 0, which is what the tiled sum puts in its place.  Only commutative addition is used,
  so nothing is asked of the summands' finiteness.
-/
import proofs.«125674_j51513837748796_2_alg».proof.Proof.Spec
import proofs.«125674_j51513837748796_2_alg».proof.Proof.LibBlockSums

noncomputable section

namespace SepLoss

open Finset

/-- A sum over the 64 tokens, tile by tile. -/
theorem sum_tokens_eq_sum_tiles {M : Type*} [AddCommMonoid M] (f : Fin 64 → M) :
    ∑ i : Fin 64, f i = ∑ I : Fin 4, ∑ r : Fin 16, f (tile I r) :=
  BlockSums.sum_blocks (m := 4) (n := 16) (by norm_num) tile (fun I r => by simp only [tile]; omega) f

/-- A sum over all pairs of tokens is the sum over all tile pairs of their parts. -/
theorem sum_pairs_eq_sum_tilePairs (f : Fin 8 → Fin 64 → Fin 64 → EReal) (b : Fin 8) :
    ∑ i : Fin 64, ∑ j : Fin 64, f b i j = ∑ I : Fin 4, ∑ J : Fin 4, tileSum f b I J := by
  rw [sum_tokens_eq_sum_tiles]
  refine Finset.sum_congr rfl fun I _ => ?_
  have h1 : ∀ r : Fin 16, ∑ j : Fin 64, f b (tile I r) j = ∑ J : Fin 4, ∑ s : Fin 16, f b (tile I r) (tile J s) :=
    fun r => sum_tokens_eq_sum_tiles _
  simp only [h1, tileSum]
  exact Finset.sum_comm

/-- A tile pair below the diagonal holds no pair of the strict upper triangle. -/
theorem tile_not_lt {I J : Fin 4} (hIJ : ¬ I.val ≤ J.val) (r s : Fin 16) : ¬ (tile I r).val < (tile J s).val := by
  simp only [tile]; omega

/-- So its part of a sum that vanishes off the strict upper triangle is 0. -/
theorem tileSum_eq_zero (f : Fin 8 → Fin 64 → Fin 64 → EReal) (hf : ∀ b i j, ¬ i.val < j.val → f b i j = 0)
    (b : Fin 8) {I J : Fin 4} (hIJ : ¬ I.val ≤ J.val) : tileSum f b I J = 0 := by
  unfold tileSum
  exact Finset.sum_eq_zero fun r _ => Finset.sum_eq_zero fun s _ => hf b _ _ (tile_not_lt hIJ r s)

/-- The two arrangements of a sum that vanishes off the strict upper triangle agree. -/
theorem sumTiled_eq_sumWhole (f : Fin 8 → Fin 64 → Fin 64 → EReal) (hf : ∀ b i j, ¬ i.val < j.val → f b i j = 0) :
    sumTiled f = sumWhole f := by
  unfold sumTiled sumWhole
  refine Finset.sum_congr rfl fun b _ => ?_
  rw [sum_pairs_eq_sum_tilePairs]
  refine Finset.sum_congr rfl fun I _ => Finset.sum_congr rfl fun J _ => ?_
  by_cases hIJ : I.val ≤ J.val
  · rw [if_pos hIJ]
  · rw [if_neg hIJ, tileSum_eq_zero f hf b hIJ]

/-- The strict-upper-triangle indicator is 0 off the triangle. -/
theorem tri_eq_zero {i j : Fin 64} (hij : ¬ i.val < j.val) : tri i j = 0 := by
  unfold tri ind
  rw [if_neg hij]

/-- The attracting weights vanish off the triangle, -/
theorem attW_eq_zero (jsd : Fin 8 → Fin 64 → Fin 64 → EReal) (b : Fin 8) {i j : Fin 64} (hij : ¬ i.val < j.val) :
    attW jsd b i j = 0 := by
  unfold attW
  rw [tri_eq_zero hij, mul_zero]

/-- and so do the repelling weights. -/
theorem repW_eq_zero (jsd : Fin 8 → Fin 64 → Fin 64 → EReal) (b : Fin 8) {i j : Fin 64} (hij : ¬ i.val < j.val) :
    repW jsd b i j = 0 := by
  unfold repW
  rw [tri_eq_zero hij, mul_zero]

end SepLoss

end
-- ==== Proof.AlgebraJsd.lean ====
/-
  With real log-probabilities the two spellings of the Jensen–Shannon divergence of a pair of tokens agree.

  Write x, z for the two tokens' log-probabilities of one category.  e^x and e^z are positive reals, so their mean
  ½ (e^x + e^z) is a positive real, its logarithm is a real, and each term  e^x (x − log ½(e^x + e^z))  is a real number.
  Both spellings are then sums and products of real numbers, and it remains to compare them in ℝ:

    (1/64) Σ_{d < 1024} (q_d + p_d)   with lane d = 32·k + c read as (group k, category c)
      = (1/64) Σ_k Σ_c (q_kc + p_kc)
      = (Σ_k ½ (Σ_c q_kc + Σ_c p_kc)) · (1/32),

  division by the real 32 being multiplication by 1/32.
-/
import proofs.«125674_j51513837748796_2_alg».proof.Proof.Spec
import proofs.«125674_j51513837748796_2_alg».proof.Proof.AlgebraWords
import proofs.«125674_j51513837748796_2_alg».proof.Proof.LibBlockSums

noncomputable section

namespace SepLoss

open Idealize.ShloMosaic Finset

/-- A finite sum of real numbers, taken in the extended reals, is their real sum. -/
theorem coe_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- One term of the divergence at real log-probabilities is a real number: the weight e^x times x minus the
    logarithm of the mean of e^y and e^z. -/
theorem term_coe (x y z : ℝ) :
    Ideal.exp (x : EReal) * ((x : EReal) - Ideal.log (wHalf * (Ideal.exp (y : EReal) + Ideal.exp (z : EReal))))
      = ((Real.exp x * (x - Real.log (1 / 2 * (Real.exp y + Real.exp z))) : ℝ) : EReal) := by
  have hpos : ¬ (1 / 2 * (Real.exp y + Real.exp z) ≤ 0) := not_le.mpr (by positivity)
  simp only [wHalf_eq, Ideal.exp_coe]
  rw [← EReal.coe_add, ← EReal.coe_mul, Ideal.log_coe, if_neg hpos, ← EReal.coe_sub, ← EReal.coe_mul]

/-- Lane 32·k + c of the flattened (group, category) axis. -/
def lane (k c : Fin 32) : Fin 1024 := ⟨32 * k.val + c.val, by omega⟩

theorem laneGroup_lane (k c : Fin 32) : laneGroup (lane k c) = k :=
  Fin.ext (by simp only [laneGroup, lane]; omega)

theorem laneCat_lane (k c : Fin 32) : laneCat (lane k c) = c :=
  Fin.ext (by simp only [laneCat, lane]; omega)

/-- A sum over the 1024 lanes, read as (group, category), is the sum over the groups of the sums over the categories. -/
theorem sum_lanes {M : Type*} [AddCommMonoid M] (F : Fin 32 → Fin 32 → M) :
    ∑ d : Fin 1024, F (laneGroup d) (laneCat d) = ∑ k : Fin 32, ∑ c : Fin 32, F k c := by
  rw [BlockSums.sum_blocks (m := 32) (n := 32) (by norm_num) lane (fun k c => by simp only [lane]; omega)
    (fun d => F (laneGroup d) (laneCat d))]
  simp only [laneGroup_lane, laneCat_lane]

/-- The two spellings of the divergence agree at real log-probabilities. -/
theorem jsdTiled_eq_jsdWhole (lp : Fin 8 → Fin 64 → Fin 32 → Fin 32 → EReal)
    (hlp : ∀ b i k c, ∃ r : ℝ, lp b i k c = (r : EReal)) (b : Fin 8) (i j : Fin 64) :
    jsdTiled lp b i j = jsdWhole lp b i j := by
  choose R hR using hlp
  have hQ : ∀ k c, termQ lp b i j k c
      = ((Real.exp (R b i k c) * (R b i k c - Real.log (1 / 2 * (Real.exp (R b i k c) + Real.exp (R b j k c)))) : ℝ) : EReal) :=
    fun k c => by
      unfold termQ logMean
      rw [hR b i k c, hR b j k c]
      exact term_coe _ _ _
  have hK : ∀ k c, termK lp b i j k c
      = ((Real.exp (R b j k c) * (R b j k c - Real.log (1 / 2 * (Real.exp (R b i k c) + Real.exp (R b j k c)))) : ℝ) : EReal) :=
    fun k c => by
      unfold termK logMean
      rw [hR b i k c, hR b j k c]
      exact term_coe _ _ _
  unfold jsdTiled jsdWhole
  rw [sum_lanes (fun k c => termQ lp b i j k c + termK lp b i j k c)]
  simp only [hQ, hK]
  rw [wOne_eq, mul_one, mul_one, wSixtyFourth_eq, w32_eq, wHalf_eq, Ideal.div_coe (by norm_num : (32 : ℝ) ≠ 0)]
  simp only [← EReal.coe_add, coe_sum, ← EReal.coe_mul]
  congr 1
  simp only [Finset.sum_add_distrib, ← Finset.mul_sum]
  ring

end SepLoss

end
-- ==== Proof.Algebra.lean ====
/-
  The two arrangements of the separation loss agree whenever every log-probability is a real number.

  Three facts are put together:
  * the energy exp(−MSE) is spelt with 0 − x in one arrangement and −x in the other, and 0 − x = −x;
  * the divergence of a pair has the same value in both spellings at real log-probabilities (AlgebraJsd);
  * a sum over the tile pairs on or above the diagonal equals the sum over all pairs for a summand that vanishes
    off the strict upper triangle (AlgebraSums), and every summand here carries the factor tri i j, which is 0
    there (x · 0 = 0 for every extended real x).
  Numerator and denominator of each loss are therefore the same extended reals in both arrangements.
-/
import proofs.«125674_j51513837748796_2_alg».proof.Proof.Spec
import proofs.«125674_j51513837748796_2_alg».proof.Proof.AlgebraWords
import proofs.«125674_j51513837748796_2_alg».proof.Proof.AlgebraSums
import proofs.«125674_j51513837748796_2_alg».proof.Proof.AlgebraJsd

noncomputable section

namespace SepLoss

open Idealize.ShloMosaic

/-- exp(−MSE) spelt as a subtraction from zero is exp(−MSE) spelt as a negation. -/
theorem energyTiled_eq_energyWhole (h : Fin 8 → Fin 64 → Fin 1024 → EReal) : energyTiled h = energyWhole h := by
  funext b i j
  unfold energyTiled energyWhole
  rw [wZero_eq, zero_sub]

/-- The tiled arrangement of both losses equals the whole one at real log-probabilities. -/
theorem tiled_eq_whole (lp : Fin 8 → Fin 64 → Fin 32 → Fin 32 → EReal) (h : Fin 8 → Fin 64 → Fin 1024 → EReal)
    (hlp : ∀ b i k c, ∃ r : ℝ, lp b i k c = (r : EReal)) :
    attLossTiled lp h = attLossWhole lp h ∧ repLossTiled lp h = repLossWhole lp h := by
  have hj : jsdTiled lp = jsdWhole lp := by
    funext b i j
    exact jsdTiled_eq_jsdWhole lp hlp b i j
  have he : energyTiled h = energyWhole h := energyTiled_eq_energyWhole h
  have hA1 := sumTiled_eq_sumWhole (fun b i j => mse h b i j * attW (jsdWhole lp) b i j) (fun b i j hij => by
    show mse h b i j * attW (jsdWhole lp) b i j = 0
    rw [attW_eq_zero _ b hij, mul_zero])
  have hA2 := sumTiled_eq_sumWhole (attW (jsdWhole lp)) (fun b i j hij => attW_eq_zero _ b hij)
  have hR1 := sumTiled_eq_sumWhole (fun b i j => energyWhole h b i j * repW (jsdWhole lp) b i j) (fun b i j hij => by
    show energyWhole h b i j * repW (jsdWhole lp) b i j = 0
    rw [repW_eq_zero _ b hij, mul_zero])
  have hR2 := sumTiled_eq_sumWhole (repW (jsdWhole lp)) (fun b i j hij => repW_eq_zero _ b hij)
  unfold attLossTiled attLossWhole repLossTiled repLossWhole
  rw [hj, he, hA1, hA2, hR1, hR2]
  exact ⟨rfl, rfl⟩

end SepLoss

end
-- ==== Proof.RefSide.lean ====
/-
  The reference's two results, read index by index off its run, are the `Whole` arrangement of the separation
  loss (Spec.lean) of the log-softmax of the first argument and the second argument.

  Stage by stage: the pairwise divergence array at (b, i, j) is `SepLoss.jsdWhole` of the log-softmax; the triangle
  function is `SepLoss.tri`; the two masks are `SepLoss.attW` and `SepLoss.repW`; the pairwise feature stage is
  `SepLoss.mse` and its exponential `SepLoss.energyWhole`; each total over the 8 × 64 × 64 index set is the triple
  sum `SepLoss.sumWhole`; and the select on a negative quotient is `SepLoss.loss`.
-/
import proofs.«125674_j51513837748796_2_alg».proof.Defs
import proofs.«125674_j51513837748796_2_alg».proof.Proof.RefReadP
import proofs.«125674_j51513837748796_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem
open Idealize.ShloMosaic.ValueIdx (ix0 ix2 ix3 ix4 ix5)
open SepLoss

/-- The log-softmax stage of the reference, coordinate by coordinate. -/
def refLp (P : (⟨S8x64x32x32, .f32⟩ : BufTy).Contents (Elt Ideal)) : Fin 8 → Fin 64 → Fin 32 → Fin 32 → EReal :=
  fun b i k c => ReadP.val_main_v0 (F := Ideal) P (ix4 b i k c)

/-- The features, coordinate by coordinate. -/
def feat (H : (⟨S8x64x1024, .f32⟩ : BufTy).Contents (Elt Ideal)) : Fin 8 → Fin 64 → Fin 1024 → EReal :=
  fun b i d => H (ix3 b i d)

/-- Two indices of rank 2, 3, 4 or 5 are equal when their coordinates are. -/
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))
macro "idx4" : tactic => `(tactic| (funext a; match a with | ⟨0, _⟩ => rfl | ⟨1, _⟩ => rfl | ⟨2, _⟩ => rfl | ⟨3, _⟩ => rfl))
macro "idx5" : tactic =>
  `(tactic| (funext a; match a with | ⟨0, _⟩ => rfl | ⟨1, _⟩ => rfl | ⟨2, _⟩ => rfl | ⟨3, _⟩ => rfl | ⟨4, _⟩ => rfl))

variable (P : (⟨S8x64x32x32, .f32⟩ : BufTy).Contents (Elt Ideal))

/-- The probabilities: the exponential of the log-softmax. -/
theorem v1_at (b : Fin 8) (i : Fin 64) (k c : Fin 32) :
    ReadP.val_main_v1 (F := Ideal) P (ix4 b i k c) = Ideal.exp (refLp P b i k c) := rfl

/-- The first token's probability, broadcast along the second token's axis. -/
theorem v6_at (b : Fin 8) (i j : Fin 64) (k c : Fin 32) :
    ReadP.val_main_v6 (F := Ideal) P (ix5 b i j k c) = Ideal.exp (refLp P b i k c) := by
  rw [ReadP.val_main_v6_apply, ReadP.val_main_v2_apply,
    show ReadP.idx_main_v2 (ReadP.idx_main_v6 (ix5 b i j k c)) = ix4 b i k c from by idx4]
  rfl

/-- The second token's probability, broadcast along the first token's axis. -/
theorem v7_at (b : Fin 8) (i j : Fin 64) (k c : Fin 32) :
    ReadP.val_main_v7 (F := Ideal) P (ix5 b i j k c) = Ideal.exp (refLp P b j k c) := by
  rw [ReadP.val_main_v7_apply, ReadP.val_main_v3_apply,
    show ReadP.idx_main_v3 (ReadP.idx_main_v7 (ix5 b i j k c)) = ix4 b j k c from by idx4]
  rfl

/-- The log of the mean of the two probabilities. -/
theorem v11_at (b : Fin 8) (i j : Fin 64) (k c : Fin 32) :
    ReadP.val_main_v11 (F := Ideal) P (ix5 b i j k c) = logMean (refLp P) b i j k c := by
  rw [ReadP.val_main_v11_apply, ReadP.val_main_v10_apply, ReadP.val_main_v9_apply, ReadP.val_main_cst_apply,
    ReadP.val_main_v8_apply, v6_at, v7_at]
  rfl

/-- The first token's term of the divergence. -/
theorem v15_at (b : Fin 8) (i j : Fin 64) (k c : Fin 32) :
    ReadP.val_main_v15 (F := Ideal) P (ix5 b i j k c) = termQ (refLp P) b i j k c := by
  rw [ReadP.val_main_v15_apply, ReadP.val_main_v13_apply, v11_at, ReadP.val_main_v14_apply, ReadP.val_main_v2_apply,
    show ReadP.idx_main_v2 (ReadP.idx_main_v14 (ix5 b i j k c)) = ix4 b i k c from by idx4,
    ReadP.val_main_v12_apply, ReadP.val_main_v4_apply,
    show ReadP.idx_main_v4 (ReadP.idx_main_v12 (ix5 b i j k c)) = ix4 b i k c from by idx4]
  rfl

/-- The second token's term of the divergence. -/
theorem v20_at (b : Fin 8) (i j : Fin 64) (k c : Fin 32) :
    ReadP.val_main_v20 (F := Ideal) P (ix5 b i j k c) = termK (refLp P) b i j k c := by
  rw [ReadP.val_main_v20_apply, ReadP.val_main_v18_apply, v11_at, ReadP.val_main_v19_apply, ReadP.val_main_v3_apply,
    show ReadP.idx_main_v3 (ReadP.idx_main_v19 (ix5 b i j k c)) = ix4 b j k c from by idx4,
    ReadP.val_main_v17_apply, ReadP.val_main_v5_apply,
    show ReadP.idx_main_v5 (ReadP.idx_main_v17 (ix5 b i j k c)) = ix4 b j k c from by idx4]
  rfl

/-- The first token's terms summed over the categories of a group. -/
theorem v16_at (b : Fin 8) (i j : Fin 64) (k : Fin 32) :
    ReadP.val_main_v16 (F := Ideal) P (ix4 b i j k) = ∑ c : Fin 32, termQ (refLp P) b i j k c := by
  rw [ReadP.val_main_v16_apply, ReadP.val_main_cst_0_apply, Ideal.ofBits_def, Ideal.ofBits_zero_f32, zero_add]
  refine Finset.sum_congr rfl fun c _ => ?_
  rw [show ReadP.idx_main_v16 (ix4 b i j k) c = ix5 b i j k c from by idx5]
  exact v15_at P b i j k c

/-- The second token's terms summed over the categories of a group. -/
theorem v21_at (b : Fin 8) (i j : Fin 64) (k : Fin 32) :
    ReadP.val_main_v21 (F := Ideal) P (ix4 b i j k) = ∑ c : Fin 32, termK (refLp P) b i j k c := by
  rw [ReadP.val_main_v21_apply, ReadP.val_main_cst_1_apply, Ideal.ofBits_def, Ideal.ofBits_zero_f32, zero_add]
  refine Finset.sum_congr rfl fun c _ => ?_
  rw [show ReadP.idx_main_v21 (ix4 b i j k) c = ix5 b i j k c from by idx5]
  exact v20_at P b i j k c

/-- Half the sum of the two tokens' sums: one group's divergence. -/
theorem v24_at (b : Fin 8) (i j : Fin 64) (k : Fin 32) :
    ReadP.val_main_v24 (F := Ideal) P (ix4 b i j k)
      = wHalf * ((∑ c : Fin 32, termQ (refLp P) b i j k c) + ∑ c : Fin 32, termK (refLp P) b i j k c) := by
  rw [ReadP.val_main_v24_apply, ReadP.val_main_v23_apply, ReadP.val_main_cst_2_apply, ReadP.val_main_v22_apply, v16_at, v21_at]
  rfl

/-- The divergence of a pair of tokens: the mean over the groups, times the scaling factor one. -/
theorem v29_at (b : Fin 8) (i j : Fin 64) :
    ReadP.val_main_v29 (F := Ideal) P (ix3 b i j) = jsdWhole (refLp P) b i j := by
  rw [ReadP.val_main_v29_apply, ReadP.val_main_v28_apply, ReadP.val_main_cst_5_apply, ReadP.val_main_v27_apply,
    ReadP.val_main_v26_apply, ReadP.val_main_cst_4_apply, ReadP.val_main_v25_apply, ReadP.val_main_cst_3_apply,
    Ideal.ofBits_def, Ideal.ofBits_zero_f32, zero_add]
  have h : ∀ k : Fin 32, ReadP.val_main_v24 (F := Ideal) P (ReadP.idx_main_v25 (ix3 b i j) k)
      = wHalf * ((∑ c : Fin 32, termQ (refLp P) b i j k c) + ∑ c : Fin 32, termK (refLp P) b i j k c) := fun k => by
    rw [show ReadP.idx_main_v25 (ix3 b i j) k = ix4 b i j k from by idx4]
    exact v24_at P b i j k
  rw [Finset.sum_congr rfl fun k _ => h k]
  rfl

/-! ### The masks -/

/-- A 32-bit word holding a number below 64 reads, as a signed integer, that number. -/
theorem toInt_ofNat_small (a : Nat) (ha : a < 64) : (BitVec.ofNat 32 a).toInt = (a : Int) := by
  have h : (BitVec.ofNat 32 a).toNat = a := by rw [BitVec.toNat_ofNat]; omega
  rw [BitVec.toInt_eq_toNat_of_lt (by rw [h]; omega), h]

/-- Signed comparison of two such words is the comparison of the numbers. -/
theorem sle_ofNat_small (a b : Nat) (ha : a < 64) (hb : b < 64) :
    (BitVec.ofNat 32 a).sle (BitVec.ofNat 32 b) = decide (a ≤ b) := by
  unfold BitVec.sle
  rw [toInt_ofNat_small a ha, toInt_ofNat_small b hb]
  exact decide_eq_decide.mpr Int.ofNat_le

/-- A decided comparison converted to a float is the indicator of the comparison. -/
theorem uitofp_ofBool (p : Prop) [i1 : Decidable p] [i2 : Decidable p] :
    (((BitVec.ofBool (@decide p i1)).toNat : ℝ) : EReal) = @ind p i2 := by
  unfold ind
  by_cases h : p
  · rw [@decide_eq_true p i1 h, @if_pos p i2 h]; simp
  · rw [@decide_eq_false p i1 h, @if_neg p i2 h]; simp

/-- The strict upper triangle: row + 0 ≥ column selects 0, else the fill 1. -/
theorem v31_at (i j : Fin 64) : ReadP.val_main_v31 (F := Ideal) (ix2 i j) = tri i j := by
  rw [ReadP.val_main_v31_apply, ReadP.val_main_call1_v4_apply, ReadP.val_main_call1_v2_apply, ReadP.val_main_call1_v0_apply,
    ReadP.val_main_call1_v1_apply, ReadP.val_main_call1_c_apply, ReadP.val_main_call1_v3_apply, ReadP.val_main_call1_v5_apply,
    ReadP.val_main_call1_cst_apply, ReadP.val_main_v30_apply, ReadP.val_main_cst_6_apply]
  show Scalar.select (BitVec.ofBool ((BitVec.ofNat 32 j.val).sle (BitVec.ofNat 32 i.val + 0#32)))
    (Ideal.ofBits .f32 0x00000000#32) (Ideal.ofBits .f32 0x3F800000#32) = tri i j
  rw [BitVec.add_zero, sle_ofNat_small _ _ j.isLt i.isLt, Ideal.ofBits_zero_f32, Ideal.ofBits_one_f32]
  unfold tri ind
  by_cases h : j.val ≤ i.val
  · rw [decide_eq_true h, if_neg (by omega)]; exact ValueIdx.select_one _ _
  · rw [decide_eq_false h, if_pos (by omega)]; exact ValueIdx.select_zero _ _

/-- The triangle broadcast over the batches (its first use). -/
theorem v36_at (b : Fin 8) (i j : Fin 64) : ReadP.val_main_v36 (F := Ideal) (ix3 b i j) = tri i j := by
  rw [ReadP.val_main_v36_apply, ReadP.val_main_v35_apply,
    show ReadP.idx_main_v35 (ReadP.idx_main_v36 (ix3 b i j)) = ix2 i j from by idx2]
  exact v31_at i j

/-- The triangle broadcast over the batches (its second use). -/
theorem v42_at (b : Fin 8) (i j : Fin 64) : ReadP.val_main_v42 (F := Ideal) (ix3 b i j) = tri i j := by
  rw [ReadP.val_main_v42_apply, ReadP.val_main_v41_apply,
    show ReadP.idx_main_v41 (ReadP.idx_main_v42 (ix3 b i j)) = ix2 i j from by idx2]
  exact v31_at i j

/-- The attracting pairs' weight. -/
theorem v37_at (b : Fin 8) (i j : Fin 64) :
    ReadP.val_main_v37 (F := Ideal) P (ix3 b i j) = attW (jsdWhole (refLp P)) b i j := by
  rw [ReadP.val_main_v37_apply, v36_at, ReadP.val_main_v34_apply, ReadP.val_main_v33_apply, v29_at, ReadP.val_main_v32_apply,
    ReadP.val_main_cst_7_apply]
  show (((BitVec.ofBool (decide (jsdWhole (refLp P) b i j < wHalf))).toNat : ℝ) : EReal) * tri i j = _
  rw [uitofp_ofBool]
  rfl

/-- The repelling pairs' weight. -/
theorem v43_at (b : Fin 8) (i j : Fin 64) :
    ReadP.val_main_v43 (F := Ideal) P (ix3 b i j) = repW (jsdWhole (refLp P)) b i j := by
  rw [ReadP.val_main_v43_apply, v42_at, ReadP.val_main_v40_apply, ReadP.val_main_v39_apply, v29_at, ReadP.val_main_v38_apply,
    ReadP.val_main_cst_8_apply]
  show (((BitVec.ofBool (decide (wHalf ≤ jsdWhole (refLp P) b i j))).toNat : ℝ) : EReal) * tri i j = _
  rw [uitofp_ofBool]
  rfl

/-! ### The features' stage -/

variable (H : (⟨S8x64x1024, .f32⟩ : BufTy).Contents (Elt Ideal))

/-- The squared difference of one feature of the two tokens. -/
theorem v49_at (b : Fin 8) (i j : Fin 64) (d : Fin 1024) :
    ReadP.val_main_v49 (F := Ideal) H (ix4 b i j d)
      = (feat H b i d - feat H b j d) * (feat H b i d - feat H b j d) := by
  rw [ReadP.val_main_v49_apply, ReadP.val_main_v48_apply, ReadP.val_main_v46_apply, ReadP.val_main_v44_apply,
    show ReadP.idx_main_v44 (ReadP.idx_main_v46 (ix4 b i j d)) = ix3 b i d from by idx3,
    ReadP.val_main_v47_apply, ReadP.val_main_v45_apply,
    show ReadP.idx_main_v45 (ReadP.idx_main_v47 (ix4 b i j d)) = ix3 b j d from by idx3]
  rfl

/-- The mean squared difference of the two tokens' features. -/
theorem v52_at (b : Fin 8) (i j : Fin 64) : ReadP.val_main_v52 (F := Ideal) H (ix3 b i j) = mse (feat H) b i j := by
  rw [ReadP.val_main_v52_apply, ReadP.val_main_v51_apply, ReadP.val_main_cst_10_apply, ReadP.val_main_v50_apply,
    ReadP.val_main_cst_9_apply]
  have h : ∀ d : Fin 1024, ReadP.val_main_v49 (F := Ideal) H (ReadP.idx_main_v50 (ix3 b i j) d)
      = (feat H b i d - feat H b j d) * (feat H b i d - feat H b j d) := fun d => by
    rw [show ReadP.idx_main_v50 (ix3 b i j) d = ix4 b i j d from by idx4]
    exact v49_at H b i j d
  rw [Finset.sum_congr rfl fun d _ => h d]
  show Ideal.div (Ideal.ofBits .f32 0x00000000#32 + _) _ = _
  rw [Ideal.ofBits_zero_f32, zero_add]
  rfl

/-- The repulsion energy of a pair. -/
theorem v63_at (b : Fin 8) (i j : Fin 64) :
    ReadP.val_main_v63 (F := Ideal) H (ix3 b i j) = energyWhole (feat H) b i j := by
  rw [ReadP.val_main_v63_apply, ReadP.val_main_v62_apply, ReadP.val_main_v61_apply, ReadP.val_main_cst_16_apply,
    ReadP.val_main_v60_apply, v52_at]
  rfl

/-! ### The totals and the two losses -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (ValueIdx.eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The attraction's numerator: the weighted mean squared differences, summed over all pairs. -/
theorem v54_at (i : S_.Idx) :
    ReadP.val_main_v54 (F := Ideal) P H i
      = sumWhole fun b i j => mse (feat H) b i j * attW (jsdWhole (refLp P)) b i j := by
  rw [ReadP.val_main_v54_apply, ReadP.val_main_cst_11_apply, Ideal.ofBits_def, Ideal.ofBits_zero_f32, zero_add, sum_idx3]
  unfold sumWhole
  refine Finset.sum_congr rfl fun b _ => Finset.sum_congr rfl fun i _ => Finset.sum_congr rfl fun j _ => ?_
  rw [ReadP.val_main_v53_apply, v52_at, v37_at]
  rfl

/-- The attraction's denominator: the number of attracting pairs. -/
theorem v55_at (i : S_.Idx) :
    ReadP.val_main_v55 (F := Ideal) P i = sumWhole (attW (jsdWhole (refLp P))) := by
  rw [ReadP.val_main_v55_apply, ReadP.val_main_cst_12_apply, Ideal.ofBits_def, Ideal.ofBits_zero_f32, zero_add, sum_idx3]
  unfold sumWhole
  exact Finset.sum_congr rfl fun b _ => Finset.sum_congr rfl fun i _ => Finset.sum_congr rfl fun j _ => v37_at P b i j

/-- The repulsion's numerator: the weighted energies, summed over all pairs. -/
theorem v65_at (i : S_.Idx) :
    ReadP.val_main_v65 (F := Ideal) P H i
      = sumWhole fun b i j => energyWhole (feat H) b i j * repW (jsdWhole (refLp P)) b i j := by
  rw [ReadP.val_main_v65_apply, ReadP.val_main_cst_17_apply, Ideal.ofBits_def, Ideal.ofBits_zero_f32, zero_add, sum_idx3]
  unfold sumWhole
  refine Finset.sum_congr rfl fun b _ => Finset.sum_congr rfl fun i _ => Finset.sum_congr rfl fun j _ => ?_
  rw [ReadP.val_main_v64_apply, v63_at, v43_at]
  rfl

/-- The repulsion's denominator: the number of repelling pairs. -/
theorem v66_at (i : S_.Idx) :
    ReadP.val_main_v66 (F := Ideal) P i = sumWhole (repW (jsdWhole (refLp P))) := by
  rw [ReadP.val_main_v66_apply, ReadP.val_main_cst_18_apply, Ideal.ofBits_def, Ideal.ofBits_zero_f32, zero_add, sum_idx3]
  unfold sumWhole
  exact Finset.sum_congr rfl fun b _ => Finset.sum_congr rfl fun i _ => Finset.sum_congr rfl fun j _ => v43_at P b i j

/-- Selecting zero where the quotient is negative is the weighted mean of the specification. -/
theorem loss_select (num den : EReal) [i1 : Decidable (Ideal.div num (den + wEps) < wZero)] :
    Scalar.select (BitVec.ofBool (@decide _ i1)) wZero (Ideal.div num (den + wEps)) = loss num den := by
  unfold loss
  by_cases h : Ideal.div num (den + wEps) < wZero
  · rw [decide_eq_true h, if_pos h]; exact ValueIdx.select_one _ _
  · rw [decide_eq_false h, if_neg h]; exact ValueIdx.select_zero _ _

/-- The reference's first result is the attraction loss in the `Whole` arrangement. -/
theorem res_att : ReadP.val_main_v59 (F := Ideal) P H = fun _ => attLossWhole (refLp P) (feat H) := by
  funext i
  rw [ReadP.val_main_v59_apply, ReadP.val_main_v58_apply, ReadP.val_main_call2_v0_apply, ReadP.val_main_cst_15_apply,
    ReadP.val_main_cst_14_apply, ReadP.val_main_v57_apply, ReadP.val_main_v56_apply, ReadP.val_main_cst_13_apply, v54_at, v55_at]
  exact loss_select _ _

/-- The reference's second result is the repulsion loss in the `Whole` arrangement. -/
theorem res_rep : ReadP.val_main_v70 (F := Ideal) P H = fun _ => repLossWhole (refLp P) (feat H) := by
  funext i
  rw [ReadP.val_main_v70_apply, ReadP.val_main_v69_apply, ReadP.val_main_call3_v0_apply, ReadP.val_main_cst_21_apply,
    ReadP.val_main_cst_20_apply, ReadP.val_main_v68_apply, ReadP.val_main_v67_apply, ReadP.val_main_cst_19_apply, v65_at, v66_at]
  exact loss_select _ _

end Cert.ReferenceIdeal.RefValue

end
-- ==== Proof.LibLaneSum.lean ====
/-
  Two readings at an index written by coordinates, for a body that weights the last ("lane") axis of a rank-3 array by a
  vector and then sums that axis away.

  • A vector seen as a rank-3 array, [c] → [1, 1, c], reads (·, ·, d) at d: a shape cast keeps the row-major position,
    and the two unit axes contribute nothing to it.
  • That array broadcast along both leading axes, [1, 1, c] → [a, b, c], reads (p, q, d) at (0, 0, d).
  • At the exact (extended-real) values, the sum of an [a, b, c] array over its last axis, read at (p, q), is the sum
    over d of the entries (p, q, d): the source index over (p, q) with d inserted on the summed axis is (p, q, d).
-/
import Idealize.ShloMosaic.Lib.ValueLayout
import Idealize.ShloMosaic.PureOps.Ideal.Laws

namespace Cert.LibLaneSum

open Idealize.ShloMosaic Idealize.ShloMosaic.ValueIdx

variable {α : Type}

/-- A `[c]` vector cast to `[1, 1, c]` reads, at `(u, v, d)`, the operand at `d`, whatever the unit coordinates. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_one, Shape.rowMajor_val_three]
    show d.val = (u.val * 1 + v.val) * c + d.val
    rw [hu, hv]
    simp)

/-- A `[1, 1, c]` array broadcast to `[a, b, c]` reads, at `(p, q, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (d : Fin c) :
    broadcastTo ⟨3, ![a, b, c]⟩ v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- Over the result index `(p, q)` of a sum along the last axis of an `[a, b, c]` array, the source index with `d` on
    the summed axis is `(p, q, d)`. -/
theorem lift_last_ix3 {a b c : ℕ} (h : (⟨3, ![a, b, c]⟩ : Shape).Reduces [2] ⟨2, ![a, b]⟩) (p : Fin a) (q : Fin b) (d : Fin c) :
    h.lift (ix2 p q) d = ix3 p q d := by
  funext ax
  match ax with
  | ⟨0, _⟩ => rfl
  | ⟨1, _⟩ => rfl
  | ⟨2, _⟩ => rfl

/-- At the exact values, an `<add>` reduction of an `[a, b, c]` array along its last axis, read at `(p, q)`, is the sum
    over `d` of the entries `(p, q, d)`. The accumulator word's side condition is taken in whatever spelling the
    caller's term carries it. -/
theorem multiReduction_add_last_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ d : Fin c, src (ix3 p q d) := by
  refine (Ideal.multiReduction_add_single src acc h hφ hacc (ix2 p q)).trans ?_
  exact Finset.sum_congr rfl fun d _ => congrArg src (lift_last_ix3 h p q d)

end Cert.LibLaneSum
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.TileValueLayout.lean ====
/-
  The layout operations of the tile body read at an index written by coordinates.

  • A [1, 16, 32, 32] block cast to [16, 32, 32] and then to [16, 1024] keeps every element's row-major position, so
    row r, lane d holds the block's entry (0, r, d / 32, d % 32): lane d = 32·k + c is group k, category c.
  • A [1, 16, 1024] block cast to [16, 1024] reads (r, d) at (0, r, d).
  • A [16, 1024] array seen as [16, 1, 1024] and broadcast to [16, 16, 1024] reads (r, s, d) at (r, d): the query row;
    seen as [1, 16, 1024] and broadcast it reads (r, s, d) at (s, d): the key row.
  • A sum over every index of a rank-3 array is the triple sum over its coordinates.
  • A [16, 16] array seen as [1, 16, 16] and summed over its two tile axes, the one result extracted and added to a
    [1, 1] value, is that value plus the double sum over the tile's rows and columns.
-/
import proofs.«125674_j51513837748796_2_alg».proof.Proof.TileStep
import proofs.«125674_j51513837748796_2_alg».proof.Proof.Spec
import proofs.«125674_j51513837748796_2_alg».proof.Proof.LibLaneSum
import proofs.«125674_j51513837748796_2_alg».proof.Proof.LibFlattenBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Cert.KernelIdeal.Tile Idealize.ShloMosaic Idealize.ShloMosaic.ValueIdx
open scoped BigOperators

variable {α : Type}

/-- Row r, lane d of the flattened log-probability block is the block at (0, r, d / 32, d % 32). -/
theorem flatLanes_apply (x : (⟨4, ![1, 16, 32, 32]⟩ : Shape).Idx → α)
    (h1 : (⟨4, ![1, 16, 32, 32]⟩ : Shape).ShapeCasts ⟨3, ![16, 32, 32]⟩)
    (h2 : (⟨3, ![16, 32, 32]⟩ : Shape).ShapeCasts ⟨2, ![16, 1024]⟩) (r : Fin 16) (d : Fin 1024) :
    shapeCast ⟨2, ![16, 1024]⟩ (shapeCast ⟨3, ![16, 32, 32]⟩ x h1) h2 (ix2 r d)
      = x (ix4 (0 : Fin 1) r (SepLoss.laneGroup d) (SepLoss.laneCat d)) := by
  refine (shapeCast_apply _ h2 (ix2 r d) (ix3 r (SepLoss.laneGroup d) (SepLoss.laneCat d)) ?_).trans ?_
  · rw [Shape.rowMajor_val_three, Shape.rowMajor_val_two]
    show (r.val * 32 + d.val / 32) * 32 + d.val % 32 = r.val * 1024 + d.val
    omega
  · exact shapeCast_1abc_abc_apply x h1 r _ _

/-- The query row of a [16, 1024] array inside the [16, 16, 1024] pair array. -/
theorem queryRow_apply (v : (⟨2, ![16, 1024]⟩ : Shape).Idx → α)
    (h1 : (⟨2, ![16, 1024]⟩ : Shape).ShapeCasts ⟨3, ![16, 1, 1024]⟩)
    (h2 : (⟨3, ![16, 1, 1024]⟩ : Shape).Broadcasts ⟨3, ![16, 16, 1024]⟩) (r s : Fin 16) (d : Fin 1024) :
    broadcastTo ⟨3, ![16, 16, 1024]⟩ (shapeCast ⟨3, ![16, 1, 1024]⟩ v h1) h2 (ix3 r s d) = v (ix2 r d) :=
  (Cert.LibFlattenBroadcast.broadcastTo_a1c_abc_apply _ h2 r s d).trans
    (Cert.LibFlattenBroadcast.shapeCast_ac_a1c_apply v h1 r 0 d)

/-- The key row of a [16, 1024] array inside the [16, 16, 1024] pair array. -/
theorem keyRow_apply (v : (⟨2, ![16, 1024]⟩ : Shape).Idx → α)
    (h1 : (⟨2, ![16, 1024]⟩ : Shape).ShapeCasts ⟨3, ![1, 16, 1024]⟩)
    (h2 : (⟨3, ![1, 16, 1024]⟩ : Shape).Broadcasts ⟨3, ![16, 16, 1024]⟩) (r s : Fin 16) (d : Fin 1024) :
    broadcastTo ⟨3, ![16, 16, 1024]⟩ (shapeCast ⟨3, ![1, 16, 1024]⟩ v h1) h2 (ix3 r s d) = v (ix2 s d) :=
  (Cert.LibFlattenBroadcast.broadcastTo_1bc_abc_apply _ h2 r s d).trans
    (shapeCast_ab_1ab_apply v h1 0 s d)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The position (0, 0, 0) of a [1, 1, 1] array, as an index by coordinates. -/
theorem pos000 (h : ∀ a, (![0, 0, 0] : Fin 3 → Nat) a < (⟨3, ![1, 1, 1]⟩ : Shape).size a) :
    (fun a => (⟨(![0, 0, 0] : Fin 3 → Nat) a, h a⟩ : Fin ((⟨3, ![1, 1, 1]⟩ : Shape).size a)))
      = ix3 (0 : Fin 1) (0 : Fin 1) (0 : Fin 1) := by
  funext a
  match a with
  | ⟨0, _⟩ => rfl
  | ⟨1, _⟩ => rfl
  | ⟨2, _⟩ => rfl

/-- The one index of a [1, 1] array. -/
theorem eq_ix2_00 (y : (⟨2, ![1, 1]⟩ : Shape).Idx) : y = ix2 (0 : Fin 1) (0 : Fin 1) := by
  funext a
  match a with
  | ⟨0, _⟩ => exact Fin.ext (by have := idx2_lt0 y; show (y 0).val = 0; omega)
  | ⟨1, _⟩ => exact Fin.ext (by have := idx2_lt1 y; show (y 1).val = 0; omega)

/-- A [16, 16] tile of exact values, summed over both axes (as the [1, 16, 16] array it is cast to), extracted and added
    to a [1, 1] value: the value plus the double sum over the tile. -/
theorem addTileTotal_apply (w : FVec Ideal ⟨2, ![16, 16]⟩ .f32) (s : FVec Ideal ⟨2, ![1, 1]⟩ .f32)
    (h1 : (⟨2, ![16, 16]⟩ : Shape).ShapeCasts ⟨3, ![1, 16, 16]⟩)
    (h2 : (⟨3, ![1, 16, 16]⟩ : Shape).Reduces [1, 2] ⟨1, ![1]⟩) (hφ : FKind.Formats .f32)
    (hacc : (0x00000000#32 : BitVec 32) = FKind.add.neutral .f32 hφ)
    (h3 : (⟨1, ![1]⟩ : Shape).ShapeCasts ⟨3, ![1, 1, 1]⟩)
    (h4 : ∀ a, (![0, 0, 0] : Fin 3 → Nat) a < (⟨3, ![1, 1, 1]⟩ : Shape).size a) (y : (⟨2, ![1, 1]⟩ : Shape).Idx) :
    addf s (broadcast ⟨2, ![1, 1]⟩ (extractAt ![0, 0, 0] (shapeCast ⟨3, ![1, 1, 1]⟩
        (multiReduction .add [1, 2] ⟨1, ![1]⟩ (shapeCast ⟨3, ![1, 16, 16]⟩ w h1) 0x00000000#32 h2 hφ hacc) h3) h4)) y
      = s y + ∑ r : Fin 16, ∑ c : Fin 16, w (ix2 r c) := by
  refine congrArg (s y + ·) ?_
  show shapeCast ⟨3, ![1, 1, 1]⟩ _ h3 (fun a => ⟨(![0, 0, 0] : Fin 3 → Nat) a, h4 a⟩) = _
  rw [pos000 h4]
  refine (Cert.LibLaneSum.shapeCast_c_11c_apply _ h3 0 0 0).trans ?_
  refine (Ideal.multiReduction_add_total (shapeCast ⟨3, ![1, 16, 16]⟩ w h1) 0x00000000#32 h2
    (fun b => by match b with | ⟨0, _⟩ => rfl) hφ hacc (ix1 0)).trans ?_
  rw [sum_idx3, Fin.sum_univ_one]
  exact Finset.sum_congr rfl fun r _ => Finset.sum_congr rfl fun c _ => shapeCast_ab_1ab_apply w h1 0 r c

end Cert.KernelIdeal.TileValue

end
-- ==== Proof.TileValueJsd.lean ====
/-
  The divergence block of the tile body read at an index: entry (r, s) of the [16, 16] array is 1/64 times the sum, over
  the 1024 flattened (group, category) lanes, of p (log p − log m) + q (log q − log m), where p and q are the query
  token's and the key token's probabilities of the lane's category and m = ½ (p + q); times one.
-/
import proofs.«125674_j51513837748796_2_alg».proof.Proof.TileValueLayout

noncomputable section

namespace Cert.KernelIdeal.TileValue

open Cert.KernelIdeal Cert.KernelIdeal.Gen Cert.KernelIdeal.Tile Idealize.ShloMosaic Idealize.ShloMosaic.ValueIdx
open scoped BigOperators

/-- The exponential and the logarithm of a vector of exact values, read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- THE DIVERGENCE BLOCK: entry (r, s) of the body's [16, 16] divergence array is the tiled Jensen–Shannon divergence of
    token r of the query tile and token s of the key tile. -/
theorem jsdBlock_apply (lp : Fin 8 → Fin 64 → Fin 32 → Fin 32 → EReal) (b : Fin 8) (I J : Fin 4)
    (x0 x1 : Vec Ideal S1x16x32x32 .f32)
    (hx0 : ∀ (r : Fin 16) (k c : Fin 32), x0 (ix4 (0 : Fin 1) r k c) = lp b (SepLoss.tile I r) k c)
    (hx1 : ∀ (s : Fin 16) (k c : Fin 32), x1 (ix4 (0 : Fin 1) s k c) = lp b (SepLoss.tile J s) k c)
    (r s : Fin 16) :
    jsdBlock x0 x1 (ix2 r s) = SepLoss.jsdTiled lp b (SepLoss.tile I r) (SepLoss.tile J s) := by
  unfold jsdBlock Gen.k0_pay11 SepLoss.jsdTiled
  refine congrArg (fun t : EReal => (SepLoss.wSixtyFourth * t) * SepLoss.wOne) ?_
  refine (Cert.LibLaneSum.multiReduction_add_last_apply _ _ _ _ _ r s).trans ?_
  refine Finset.sum_congr rfl fun d _ => ?_
  simp only [addf_apply, mulf_apply, subf_apply, log_apply, broadcast_apply, queryRow_apply, keyRow_apply, exp_apply,
    flatLanes_apply, hx0, hx1]
  rfl

end Cert.KernelIdeal.TileValue

end
-- ==== Proof.TileValueMse.lean ====
/-
  The feature block of the tile body read at an index: entry (r, s) of the [16, 16] array of mean squared differences
  is the sum over the 1024 features of the squared difference of the query token's and the key token's feature,
  divided by 1024.
-/
import proofs.«125674_j51513837748796_2_alg».proof.Proof.TileValueLayout

noncomputable section

namespace Cert.KernelIdeal.TileValue

open Cert.KernelIdeal Cert.KernelIdeal.Gen Cert.KernelIdeal.Tile Idealize.ShloMosaic Idealize.ShloMosaic.ValueIdx
open scoped BigOperators

/-- THE MEAN-SQUARED-DIFFERENCE BLOCK: entry (r, s) is the mean squared difference of the features of token r of the
    query tile and token s of the key tile. -/
theorem mseBlock_apply (h : Fin 8 → Fin 64 → Fin 1024 → EReal) (b : Fin 8) (I J : Fin 4)
    (x2 x3 : Vec Ideal S1x16x1024 .f32)
    (hx2 : ∀ (r : Fin 16) (d : Fin 1024), x2 (ix3 (0 : Fin 1) r d) = h b (SepLoss.tile I r) d)
    (hx3 : ∀ (s : Fin 16) (d : Fin 1024), x3 (ix3 (0 : Fin 1) s d) = h b (SepLoss.tile J s) d)
    (r s : Fin 16) :
    mseBlock x2 x3 (ix2 r s) = SepLoss.mse h b (SepLoss.tile I r) (SepLoss.tile J s) := by
  unfold mseBlock Gen.k0_pay16 Gen.k0_pay9 Gen.k0_pay10 SepLoss.mse
  refine congrArg (fun t : EReal => Ideal.div t SepLoss.w1024) ?_
  refine (Cert.LibLaneSum.multiReduction_add_last_apply _ _ _ _ _ r s).trans ?_
  refine Finset.sum_congr rfl fun d _ => ?_
  simp only [mulf_apply, subf_apply, queryRow_apply, keyRow_apply, shapeCast_1ab_ab_apply, hx2, hx3]

end Cert.KernelIdeal.TileValue

end
-- ==== Proof.TileValueMask.lean ====
/-
  The pair weights of the tile body read at an index.

  The body numbers the query tile's rows 16·I + r and the key tile's columns 16·J + s with 32-bit words, compares them as
  signed numbers, widens the one-bit answer to 32 bits and converts it to a float. All the numbers are below 64, so the
  word arithmetic is the arithmetic of naturals, the signed comparison is the comparison of naturals, and the converted
  bit is 1 or 0: the strict upper triangle's indicator at the two tokens. In the same way a float comparison's bit,
  widened and converted, is the indicator of the compared inequality. An attracting (repelling) weight is the
  indicator of "the divergence is below (at least) one half" times the triangle's indicator.
-/
import proofs.«125674_j51513837748796_2_alg».proof.Proof.TileStep
import proofs.«125674_j51513837748796_2_alg».proof.Proof.Spec
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Cert.KernelIdeal.Tile Idealize.ShloMosaic Idealize.ShloMosaic.ValueIdx
open scoped BigOperators

/-- 16·I + r computed with 32-bit words is the word of token r of tile I. -/
theorem tileWord (I : Fin 4) (r : Fin 16) :
    IntOp.addi (Scalar.muli (BitVec.ofNat 32 I.val) 16#32) (BitVec.ofNat 32 r.val)
      = BitVec.ofNat 32 (SepLoss.tile I r).val := by
  revert I r; decide

/-- Two token numbers, as 32-bit words, compare signed-less exactly when the numbers do. -/
theorem slt_tokens (i j : Fin 64) :
    IntOp.cmpi .slt (BitVec.ofNat 32 i.val) (BitVec.ofNat 32 j.val) = BitVec.ofBool (decide (i.val < j.val)) := by
  unfold IntOp.cmpi
  show BitVec.ofBool ((BitVec.ofNat 32 i.val).slt (BitVec.ofNat 32 j.val)) = _
  refine congrArg BitVec.ofBool ?_
  have hi := i.isLt
  have hj := j.isLt
  rw [BitVec.slt_eq_decide]
  have ti : (BitVec.ofNat 32 i.val).toInt = (i.val : Int) := by
    rw [BitVec.toInt_eq_toNat_of_lt (by rw [BitVec.toNat_ofNat]; omega), BitVec.toNat_ofNat]; omega
  have tj : (BitVec.ofNat 32 j.val).toInt = (j.val : Int) := by
    rw [BitVec.toInt_eq_toNat_of_lt (by rw [BitVec.toNat_ofNat]; omega), BitVec.toNat_ofNat]; omega
  rw [ti, tj]
  simp

/-- A decided bit, widened to 32 bits and converted to a float, is the proposition's indicator. -/
theorem bit_ind (p : Prop) [Decidable p] :
    FloatOps.sitofp (F := Ideal) .f32 ((BitVec.ofBool (decide p)).setWidth 32) = SepLoss.ind p := by
  unfold SepLoss.ind
  by_cases h : p
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- The body's row numbers: entry (r, s) is the word of token r of the query tile. -/
theorem rowsOf_apply (I : Fin 4) (r s : Fin 16) :
    rowsOf (BitVec.ofNat 32 I.val) (ix2 r s) = BitVec.ofNat 32 (SepLoss.tile I r).val := by
  unfold rowsOf Gen.k0_pay12
  show IntOp.addi (Scalar.muli (BitVec.ofNat 32 I.val) 16#32) (iota .tc S16x16 32 [0] iota_S16x16_d0_w32 (ix2 r s)) = _
  rw [iota_single_apply]
  exact tileWord I r

/-- THE TRIANGLE MASK: entry (r, s) is 1 when token r of the query tile comes before token s of the key tile, else 0. -/
theorem triMask_apply (I J : Fin 4) (rows : IVec S16x16 32)
    (hrows : ∀ r s : Fin 16, rows (ix2 r s) = BitVec.ofNat 32 (SepLoss.tile I r).val) (r s : Fin 16) :
    Gen.k0_pay13 (F := Ideal) (BitVec.ofNat 32 J.val) rows 16#32 (ix2 r s)
      = SepLoss.tri (SepLoss.tile I r) (SepLoss.tile J s) := by
  unfold Gen.k0_pay13
  show FloatOps.sitofp (F := Ideal) .f32 ((IntOp.cmpi .slt (rows (ix2 r s))
    (IntOp.addi (Scalar.muli (BitVec.ofNat 32 J.val) 16#32) (iota .tc S16x16 32 [1] iota_S16x16_d1_w32 (ix2 r s)))).setWidth 32) = _
  rw [hrows, iota_single_apply]
  show FloatOps.sitofp (F := Ideal) .f32 ((IntOp.cmpi .slt (BitVec.ofNat 32 (SepLoss.tile I r).val)
    (IntOp.addi (Scalar.muli (BitVec.ofNat 32 J.val) 16#32) (BitVec.ofNat 32 s.val))).setWidth 32) = _
  rw [tileWord J s, slt_tokens, bit_ind]
  rfl

/-- THE ATTRACTING WEIGHTS: entry (r, s) is the attracting weight of the two tokens, for whatever divergence the block
    of divergences holds. -/
theorem attBlock_apply (jsd : Fin 8 → Fin 64 → Fin 64 → EReal) (b : Fin 8) (I J : Fin 4)
    (v : FVec Ideal S16x16 .f32) (rows : IVec S16x16 32)
    (hv : ∀ r s : Fin 16, v (ix2 r s) = jsd b (SepLoss.tile I r) (SepLoss.tile J s))
    (hrows : ∀ r s : Fin 16, rows (ix2 r s) = BitVec.ofNat 32 (SepLoss.tile I r).val) (r s : Fin 16) :
    Gen.k0_pay14 (BitVec.ofNat 32 J.val) v rows 16#32 (ix2 r s)
      = SepLoss.attW jsd b (SepLoss.tile I r) (SepLoss.tile J s) := by
  unfold Gen.k0_pay14 SepLoss.attW
  show FloatOps.sitofp (F := Ideal) .f32 ((BitVec.ofBool (decide (v (ix2 r s) < SepLoss.wHalf))).setWidth 32)
    * Gen.k0_pay13 (F := Ideal) (BitVec.ofNat 32 J.val) rows 16#32 (ix2 r s) = _
  rw [triMask_apply I J rows hrows, hv, bit_ind]

/-- THE REPELLING WEIGHTS: entry (r, s) is the repelling weight of the two tokens. -/
theorem repBlock_apply' (jsd : Fin 8 → Fin 64 → Fin 64 → EReal) (b : Fin 8) (I J : Fin 4)
    (v : FVec Ideal S16x16 .f32) (rows : IVec S16x16 32)
    (hv : ∀ r s : Fin 16, v (ix2 r s) = jsd b (SepLoss.tile I r) (SepLoss.tile J s))
    (hrows : ∀ r s : Fin 16, rows (ix2 r s) = BitVec.ofNat 32 (SepLoss.tile I r).val) (r s : Fin 16) :
    Gen.k0_pay15 (BitVec.ofNat 32 J.val) v rows 16#32 (ix2 r s)
      = SepLoss.repW jsd b (SepLoss.tile I r) (SepLoss.tile J s) := by
  unfold Gen.k0_pay15 SepLoss.repW
  show FloatOps.sitofp (F := Ideal) .f32 ((BitVec.ofBool (decide (SepLoss.wHalf ≤ v (ix2 r s)))).setWidth 32)
    * Gen.k0_pay13 (F := Ideal) (BitVec.ofNat 32 J.val) rows 16#32 (ix2 r s) = _
  rw [triMask_apply I J rows hrows, hv, bit_ind]

end Cert.KernelIdeal.TileValue

end
-- ==== Proof.TileValue.lean ====
/-
  One tile pair's update of the four running sums, at the exact values.

  With the four input blocks holding the query tile's and the key tile's log-probabilities and features, each update is
  the sum's value before plus the tile pair's partial sum over its 16 × 16 token pairs: of the mean squared difference
  times the attracting weight, of the attracting weight, of exp(−mean squared difference) times the repelling weight,
  and of the repelling weight. The reset value of each sum is zero, and the row written out holds the four sums side by
  side.
-/
import proofs.«125674_j51513837748796_2_alg».proof.Proof.TileValueJsd
import proofs.«125674_j51513837748796_2_alg».proof.Proof.TileValueMse
import proofs.«125674_j51513837748796_2_alg».proof.Proof.TileValueMask

noncomputable section

namespace Cert.KernelIdeal.TileValue

open Cert.KernelIdeal Cert.KernelIdeal.Gen Cert.KernelIdeal.Tile Idealize.ShloMosaic Idealize.ShloMosaic.ValueIdx
open scoped BigOperators

section Steps

variable (lp : Fin 8 → Fin 64 → Fin 32 → Fin 32 → EReal) (h : Fin 8 → Fin 64 → Fin 1024 → EReal) (b : Fin 8) (I J : Fin 4)
  (x0 x1 : Vec Ideal S1x16x32x32 .f32) (x2 x3 : Vec Ideal S1x16x1024 .f32)
  (hx0 : ∀ (r : Fin 16) (k c : Fin 32), x0 (ix4 (0 : Fin 1) r k c) = lp b (SepLoss.tile I r) k c)
  (hx1 : ∀ (s : Fin 16) (k c : Fin 32), x1 (ix4 (0 : Fin 1) s k c) = lp b (SepLoss.tile J s) k c)
  (hx2 : ∀ (r : Fin 16) (d : Fin 1024), x2 (ix3 (0 : Fin 1) r d) = h b (SepLoss.tile I r) d)
  (hx3 : ∀ (s : Fin 16) (d : Fin 1024), x3 (ix3 (0 : Fin 1) s d) = h b (SepLoss.tile J s) d)

include hx0 hx1 in
/-- The repelling weights of the pair, from the two log-probability blocks. -/
theorem repBlock_apply (r s : Fin 16) :
    repBlock (BitVec.ofNat 32 I.val) (BitVec.ofNat 32 J.val) x0 x1 (ix2 r s)
      = SepLoss.repW (SepLoss.jsdTiled lp) b (SepLoss.tile I r) (SepLoss.tile J s) :=
  repBlock_apply' (SepLoss.jsdTiled lp) b I J _ _ (jsdBlock_apply lp b I J x0 x1 hx0 hx1) (rowsOf_apply I) r s

include hx0 hx1 hx2 hx3 in
/-- The first running sum gains the pair's sum of mean squared difference times attracting weight. -/
theorem step0_apply (s : Vec Ideal S1x1 .f32) (y : S1x1.Idx) :
    step0 (BitVec.ofNat 32 I.val) (BitVec.ofNat 32 J.val) x0 x1 x2 x3 s y
      = s y + SepLoss.tileSum (fun b i j => SepLoss.mse h b i j * SepLoss.attW (SepLoss.jsdTiled lp) b i j) b I J := by
  unfold step0 Gen.k0_pay17
  refine (congrFun (shapeCast_self _ _) y).trans ?_
  refine (addTileTotal_apply _ s _ _ _ _ _ _ y).trans ?_
  unfold SepLoss.tileSum
  refine congrArg (s y + ·) (Finset.sum_congr rfl fun r _ => Finset.sum_congr rfl fun c _ => ?_)
  rw [mulf_apply]
  exact congrArg₂ (· * ·) (mseBlock_apply h b I J x2 x3 hx2 hx3 r c)
    (attBlock_apply (SepLoss.jsdTiled lp) b I J _ _ (jsdBlock_apply lp b I J x0 x1 hx0 hx1) (rowsOf_apply I) r c)

include hx0 hx1 in
/-- The second running sum gains the pair's sum of attracting weights. -/
theorem step1_apply (s : Vec Ideal S1x1 .f32) (y : S1x1.Idx) :
    step1 (BitVec.ofNat 32 I.val) (BitVec.ofNat 32 J.val) x0 x1 s y
      = s y + SepLoss.tileSum (SepLoss.attW (SepLoss.jsdTiled lp)) b I J := by
  unfold step1 Gen.k0_pay5 Gen.k0_pay18
  refine (congrFun (shapeCast_self _ _) y).trans ?_
  refine (addTileTotal_apply _ s _ _ _ _ _ _ y).trans ?_
  unfold SepLoss.tileSum
  refine congrArg (s y + ·) (Finset.sum_congr rfl fun r _ => Finset.sum_congr rfl fun c _ => ?_)
  exact attBlock_apply (SepLoss.jsdTiled lp) b I J _ _ (jsdBlock_apply lp b I J x0 x1 hx0 hx1) (rowsOf_apply I) r c

include hx0 hx1 hx2 hx3 in
/-- The third running sum gains the pair's sum of exp(−mean squared difference) times repelling weight. -/
theorem step2_apply (s : Vec Ideal S1x1 .f32) (y : S1x1.Idx) :
    step2 (BitVec.ofNat 32 I.val) (BitVec.ofNat 32 J.val) x0 x1 x2 x3 s y
      = s y + SepLoss.tileSum (fun b i j => SepLoss.energyTiled h b i j * SepLoss.repW (SepLoss.jsdTiled lp) b i j) b I J := by
  unfold step2 Gen.k0_pay6
  refine (congrFun (shapeCast_self _ _) y).trans ?_
  refine (addTileTotal_apply _ s _ _ _ _ _ _ y).trans ?_
  unfold SepLoss.tileSum
  refine congrArg (s y + ·) (Finset.sum_congr rfl fun r _ => Finset.sum_congr rfl fun c _ => ?_)
  show Ideal.exp (Ideal.div (SepLoss.wZero - mseBlock x2 x3 (ix2 r c)) SepLoss.wOne)
    * repBlock (BitVec.ofNat 32 I.val) (BitVec.ofNat 32 J.val) x0 x1 (ix2 r c) = _
  rw [mseBlock_apply h b I J x2 x3 hx2 hx3 r c, repBlock_apply lp b I J x0 x1 hx0 hx1 r c]
  rfl

include hx0 hx1 in
/-- The fourth running sum gains the pair's sum of repelling weights. -/
theorem step3_apply (s : Vec Ideal S1x1 .f32) (y : S1x1.Idx) :
    step3 (BitVec.ofNat 32 I.val) (BitVec.ofNat 32 J.val) x0 x1 s y
      = s y + SepLoss.tileSum (SepLoss.repW (SepLoss.jsdTiled lp)) b I J := by
  unfold step3 Gen.k0_pay7
  refine (congrFun (shapeCast_self _ _) y).trans ?_
  refine (addTileTotal_apply _ s _ _ _ _ _ _ y).trans ?_
  unfold SepLoss.tileSum
  refine congrArg (s y + ·) (Finset.sum_congr rfl fun r _ => Finset.sum_congr rfl fun c _ => ?_)
  exact repBlock_apply lp b I J x0 x1 hx0 hx1 r c

end Steps

/-! ## The reset values -/

/-- Each running sum is reset to the zero word's value, zero. -/
theorem reset1_apply (y : S1x1.Idx) : Gen.k0_pay1 (F := Ideal) y = 0 := by
  unfold Gen.k0_pay1
  exact (congrFun (shapeCast_self _ _) y).trans Ideal.ofBits_zero_f32
theorem reset2_apply (y : S1x1.Idx) : Gen.k0_pay2 (F := Ideal) y = 0 := by
  unfold Gen.k0_pay2
  exact (congrFun (shapeCast_self _ _) y).trans Ideal.ofBits_zero_f32
theorem reset3_apply (y : S1x1.Idx) : Gen.k0_pay3 (F := Ideal) y = 0 := by
  unfold Gen.k0_pay3
  exact (congrFun (shapeCast_self _ _) y).trans Ideal.ofBits_zero_f32
theorem reset4_apply (y : S1x1.Idx) : Gen.k0_pay4 (F := Ideal) y = 0 := by
  unfold Gen.k0_pay4
  exact (congrFun (shapeCast_self _ _) y).trans Ideal.ofBits_zero_f32

/-! ## The row written out -/

section OutRow

variable (s0 s1 s2 s3 : Vec Ideal S1x1 .f32)

/-- The four [1, 1, 1] pieces the row is concatenated from. -/
abbrev rowPieces : List ((s : Shape) × (s.Idx → Ideal .f32)) :=
  [⟨S1x1x1, shapeCast S1x1x1 s0 shapeCasts_S1x1_S1x1x1⟩, ⟨S1x1x1, shapeCast S1x1x1 s1 shapeCasts_S1x1_S1x1x1⟩,
    ⟨S1x1x1, shapeCast S1x1x1 s2 shapeCasts_S1x1_S1x1x1⟩, ⟨S1x1x1, shapeCast S1x1x1 s3 shapeCasts_S1x1_S1x1x1⟩]

/-- Entry q of the row written out is the q-th running sum: the four [1, 1, 1] pieces lie side by side along the last
    axis, each of extent one, so entry q falls in piece q at its one index. -/
theorem outRow_piece (q : Nat) (hq : q < 4) (sq : Vec Ideal S1x1 .f32)
    (hsq : (rowPieces s0 s1 s2 s3)[q]'hq = ⟨S1x1x1, shapeCast S1x1x1 sq shapeCasts_S1x1_S1x1x1⟩)
    (hpre : ((((rowPieces s0 s1 s2 s3).take q).map (·.1)).map
          fun s => if h : s.rank = S1x1x4.rank then s.size ((2 : Fin S1x1x4.rank).cast h.symm) else 0).sum = q) :
    outRow s0 s1 s2 s3 (ix3 (0 : Fin 1) (0 : Fin 1) (⟨q, hq⟩ : Fin 4)) = sq (ix2 (0 : Fin 1) (0 : Fin 1)) := by
  unfold outRow Gen.k0_pay8
  refine (concatenate_apply_piece (2 : Fin S1x1x4.rank) (rowPieces s0 s1 s2 s3)
    concatenates_S1x1x1_S1x1x1_S1x1x1_S1x1x1_S1x1x4_d2 (ix3 (0 : Fin 1) (0 : Fin 1) (⟨q, hq⟩ : Fin 4)) q hq S1x1x1
    (shapeCast S1x1x1 sq shapeCasts_S1x1_S1x1x1) hsq rfl q hpre (ix3 (0 : Fin 1) (0 : Fin 1) (0 : Fin 1)) ?_ ?_).trans ?_
  · intro bb hbb
    match bb with
    | ⟨0, _⟩ => rfl
    | ⟨1, _⟩ => rfl
    | ⟨2, _⟩ => exact absurd rfl hbb
  · rfl
  · exact shapeCast_ab_1ab_apply sq _ 0 0 0

theorem outRow_apply0 : outRow s0 s1 s2 s3 (ix3 (0 : Fin 1) (0 : Fin 1) (0 : Fin 4)) = s0 (ix2 (0 : Fin 1) (0 : Fin 1)) :=
  outRow_piece s0 s1 s2 s3 0 (by decide) s0 rfl rfl
theorem outRow_apply1 : outRow s0 s1 s2 s3 (ix3 (0 : Fin 1) (0 : Fin 1) (1 : Fin 4)) = s1 (ix2 (0 : Fin 1) (0 : Fin 1)) :=
  outRow_piece s0 s1 s2 s3 1 (by decide) s1 rfl rfl
theorem outRow_apply2 : outRow s0 s1 s2 s3 (ix3 (0 : Fin 1) (0 : Fin 1) (2 : Fin 4)) = s2 (ix2 (0 : Fin 1) (0 : Fin 1)) :=
  outRow_piece s0 s1 s2 s3 2 (by decide) s2 rfl rfl
theorem outRow_apply3 : outRow s0 s1 s2 s3 (ix3 (0 : Fin 1) (0 : Fin 1) (3 : Fin 4)) = s3 (ix2 (0 : Fin 1) (0 : Fin 1)) :=
  outRow_piece s0 s1 s2 s3 3 (by decide) s3 rfl rfl

end OutRow

end Cert.KernelIdeal.TileValue

end
-- ==== Proof.KernelValueSums.lean ====
/-
  The four running sums after each grid point, as partial tiled sums of the separation loss.

  Point t = 16·b + p is tile pair number p of batch b, the pair (p / 4, p mod 4).  The sums are reset at p = 0, gain the
  pair's part when p / 4 ≤ p mod 4 and are left alone otherwise, so after point t each holds the sum, over the pairs
  numbered 0 … p, of the pair's part when it lies on or above the diagonal (and 0 when below).  After the last pair
  (p = 15) that is the sum over all tile pairs (I, J) of the part when I ≤ J: the tiled arrangement's sum for batch b.
-/
import proofs.«125674_j51513837748796_2_alg».proof.Proof.KernelValueBlocks
import proofs.«125674_j51513837748796_2_alg».proof.Proof.TileValue
import proofs.«125674_j51513837748796_2_alg».proof.Proof.LibBlockSums

noncomputable section

namespace Cert.KernelIdeal.KValue

open Cert.KernelIdeal Cert.KernelIdeal.Gen
open Idealize.ShloMosaic Idealize.ShloMosaic.TcCoe Idealize.ShloMosaic.ValueIdx
open Idealize.SL.Sem

/-! ## Partial sums over the tile pairs of a batch -/

section Partial

variable (f : Fin 8 → Fin 64 → Fin 64 → EReal) (b : Fin 8)

/-- Tile pair number q of a batch is (q / 4, q mod 4); its part of the tiled sum, 0 below the diagonal. -/
def pairPart (q : ℕ) : EReal :=
  if h : q < 16 then (if q / 4 ≤ q % 4 then SepLoss.tileSum f b ⟨q / 4, by omega⟩ ⟨q % 4, by omega⟩ else 0) else 0

/-- The sum of the parts of the pairs numbered 0 … p. -/
def runSum (p : ℕ) : EReal := ∑ q ∈ Finset.range (p + 1), pairPart f b q

/-- The tiled arrangement's sum for one batch. -/
def tiledPart : EReal := ∑ I : Fin 4, ∑ J : Fin 4, if I.val ≤ J.val then SepLoss.tileSum f b I J else 0

theorem runSum_zero : runSum f b 0 = pairPart f b 0 := by
  unfold runSum
  rw [Finset.sum_range_one]

theorem runSum_succ (p : ℕ) : runSum f b (p + 1) = runSum f b p + pairPart f b (p + 1) := by
  unfold runSum
  rw [Finset.sum_range_succ]

theorem pairPart_diag (q : ℕ) (hq : q < 16) (h : q / 4 ≤ q % 4) (I J : Fin 4) (hI : I.val = q / 4) (hJ : J.val = q % 4) :
    pairPart f b q = SepLoss.tileSum f b I J := by
  unfold pairPart
  rw [dif_pos hq, if_pos h]
  congr 1
  · exact Fin.ext hI.symm
  · exact Fin.ext hJ.symm

theorem pairPart_below (q : ℕ) (h : ¬ q / 4 ≤ q % 4) : pairPart f b q = 0 := by
  unfold pairPart
  by_cases hq : q < 16
  · rw [dif_pos hq, if_neg h]
  · rw [dif_neg hq]

/-- Pair number 4·I + J is the pair (I, J). -/
theorem pairPart_pair (I J : Fin 4) :
    pairPart f b (I.val * 4 + J.val) = if I.val ≤ J.val then SepLoss.tileSum f b I J else 0 := by
  by_cases h : I.val ≤ J.val
  · rw [if_pos h]
    exact pairPart_diag f b _ (by omega) (by omega) I J (by omega) (by omega)
  · rw [if_neg h]
    exact pairPart_below f b _ (by omega)

/-- After the last pair the running sum is the tiled arrangement's sum for the batch. -/
theorem runSum_last : runSum f b 15 = tiledPart f b := by
  unfold runSum tiledPart
  rw [Finset.sum_range (fun q => pairPart f b q)]
  rw [BlockSums.sum_blocks (m := 4) (n := 4) (by norm_num) (fun I J => (⟨I.val * 4 + J.val, by omega⟩ : Fin 16))
    (fun I J => rfl) (fun q : Fin 16 => pairPart f b q.val)]
  exact Finset.sum_congr rfl fun I _ => Finset.sum_congr rfl fun J _ => pairPart_pair f b I J

end Partial

/-! ## One point's update -/

variable (m : (ℓ : Loc nD τ sig) → Buf (Elt Ideal) ℓ) (c : Dev nD)

/-- The four summands: mean squared difference times attracting weight, attracting weight, energy times repelling
    weight, repelling weight — of the arrays the region finds. -/
abbrev f0 : Fin 8 → Fin 64 → Fin 64 → EReal :=
  fun b i j => SepLoss.mse (kerH m c) b i j * SepLoss.attW (SepLoss.jsdTiled (kerLp m c)) b i j
abbrev f1 : Fin 8 → Fin 64 → Fin 64 → EReal := SepLoss.attW (SepLoss.jsdTiled (kerLp m c))
abbrev f2 : Fin 8 → Fin 64 → Fin 64 → EReal :=
  fun b i j => SepLoss.energyTiled (kerH m c) b i j * SepLoss.repW (SepLoss.jsdTiled (kerLp m c)) b i j
abbrev f3 : Fin 8 → Fin 64 → Fin 64 → EReal := SepLoss.repW (SepLoss.jsdTiled (kerLp m c))

/-- The batch of point n. -/
def bOf (n : ℕ) : Fin 8 := ⟨n / 16 % 8, Nat.mod_lt _ (by norm_num)⟩

theorem point_lt (t : Fin cfg0.N) : t.val < 128 := lt_of_lt_of_eq t.isLt N_0

/-- Point t adds its tile pair's four parts to the four sums. -/
theorem stepAll_apply (t : Fin cfg0.N) (s : Body.Acc Ideal) (b : Fin 8) (I J : Fin 4) (hb : b.val = t.val / 16)
    (hI : I.val = t.val / 4 % 4) (hJ : J.val = t.val % 4) (y : S1x1.Idx) :
    (Body.stepAll m c t s).1 y = s.1 y + SepLoss.tileSum (f0 m c) b I J
    ∧ (Body.stepAll m c t s).2.1 y = s.2.1 y + SepLoss.tileSum (f1 m c) b I J
    ∧ (Body.stepAll m c t s).2.2.1 y = s.2.2.1 y + SepLoss.tileSum (f2 m c) b I J
    ∧ (Body.stepAll m c t s).2.2.2 y = s.2.2.2 y + SepLoss.tileSum (f3 m c) b I J := by
  have e1 : BitVec.ofNat 32 ((grid0.coords t) 1).val = BitVec.ofNat 32 I.val := congrArg _ (by rw [(Body.coords_val t).2.1, hI])
  have e2 : BitVec.ofNat 32 ((grid0.coords t) 2).val = BitVec.ofNat 32 J.val := congrArg _ (by rw [(Body.coords_val t).2.2, hJ])
  have x0 := iblk0_apply m c t b I hb hI
  have x1 := iblk1_apply m c t b J hb hJ
  have x2 := iblk2_apply m c t b I hb hI
  have x3 := iblk3_apply m c t b J hb hJ
  have k0 : ∀ wi wj : BitVec 32, wi = BitVec.ofNat 32 I.val → wj = BitVec.ofNat 32 J.val →
      Tile.step0 wi wj (Body.iblk m c 0 t) (Body.iblk m c 1 t) (Body.iblk m c 2 t) (Body.iblk m c 3 t) s.1 y
        = s.1 y + SepLoss.tileSum (f0 m c) b I J := by
    rintro _ _ rfl rfl
    exact TileValue.step0_apply (kerLp m c) (kerH m c) b I J (Body.iblk m c 0 t) (Body.iblk m c 1 t) (Body.iblk m c 2 t)
      (Body.iblk m c 3 t) x0 x1 x2 x3 s.1 y
  have k1 : ∀ wi wj : BitVec 32, wi = BitVec.ofNat 32 I.val → wj = BitVec.ofNat 32 J.val →
      Tile.step1 wi wj (Body.iblk m c 0 t) (Body.iblk m c 1 t) s.2.1 y = s.2.1 y + SepLoss.tileSum (f1 m c) b I J := by
    rintro _ _ rfl rfl
    exact TileValue.step1_apply (kerLp m c) b I J (Body.iblk m c 0 t) (Body.iblk m c 1 t) x0 x1 s.2.1 y
  have k2 : ∀ wi wj : BitVec 32, wi = BitVec.ofNat 32 I.val → wj = BitVec.ofNat 32 J.val →
      Tile.step2 wi wj (Body.iblk m c 0 t) (Body.iblk m c 1 t) (Body.iblk m c 2 t) (Body.iblk m c 3 t) s.2.2.1 y
        = s.2.2.1 y + SepLoss.tileSum (f2 m c) b I J := by
    rintro _ _ rfl rfl
    exact TileValue.step2_apply (kerLp m c) (kerH m c) b I J (Body.iblk m c 0 t) (Body.iblk m c 1 t) (Body.iblk m c 2 t)
      (Body.iblk m c 3 t) x0 x1 x2 x3 s.2.2.1 y
  have k3 : ∀ wi wj : BitVec 32, wi = BitVec.ofNat 32 I.val → wj = BitVec.ofNat 32 J.val →
      Tile.step3 wi wj (Body.iblk m c 0 t) (Body.iblk m c 1 t) s.2.2.2 y = s.2.2.2 y + SepLoss.tileSum (f3 m c) b I J := by
    rintro _ _ rfl rfl
    exact TileValue.step3_apply (kerLp m c) b I J (Body.iblk m c 0 t) (Body.iblk m c 1 t) x0 x1 s.2.2.2 y
  exact ⟨k0 _ _ e1 e2, k1 _ _ e1 e2, k2 _ _ e1 e2, k3 _ _ e1 e2⟩

/-! ## The sums after every point -/

/-- The four sums `s` are the partial tiled sums of batch b through pair number p. -/
def SumsAre (s : Body.Acc Ideal) (b : Fin 8) (p : ℕ) : Prop :=
  ∀ y : S1x1.Idx, s.1 y = runSum (f0 m c) b p ∧ s.2.1 y = runSum (f1 m c) b p
    ∧ s.2.2.1 y = runSum (f2 m c) b p ∧ s.2.2.2 y = runSum (f3 m c) b p

/-- The first pair of a batch, (0, 0), added to the reset sums. -/
theorem sumsAre_first (t : Fin cfg0.N) (h0 : t.val % 16 = 0) :
    SumsAre m c (Body.stepAll m c t Body.zeros) (bOf t.val) 0 := by
  intro y
  have hN := point_lt t
  obtain ⟨a0, a1, a2, a3⟩ := stepAll_apply m c t Body.zeros (bOf t.val) ⟨t.val / 4 % 4, by omega⟩ ⟨t.val % 4, by omega⟩
    (by simp only [bOf]; omega) rfl rfl y
  have hq : ∀ f : Fin 8 → Fin 64 → Fin 64 → EReal,
      runSum f (bOf t.val) 0 = SepLoss.tileSum f (bOf t.val) ⟨t.val / 4 % 4, by omega⟩ ⟨t.val % 4, by omega⟩ := fun f => by
    rw [runSum_zero]
    exact pairPart_diag f _ 0 (by norm_num) (by norm_num) _ _ (by show t.val / 4 % 4 = 0 / 4; omega) (by show t.val % 4 = 0 % 4; omega)
  have z0 : (Body.zeros (F := Ideal)).1 y = 0 := TileValue.reset1_apply y
  have z1 : (Body.zeros (F := Ideal)).2.1 y = 0 := TileValue.reset2_apply y
  have z2 : (Body.zeros (F := Ideal)).2.2.1 y = 0 := TileValue.reset3_apply y
  have z3 : (Body.zeros (F := Ideal)).2.2.2 y = 0 := TileValue.reset4_apply y
  refine ⟨?_, ?_, ?_, ?_⟩
  · rw [a0, hq, z0]; exact zero_add _
  · rw [a1, hq, z1]; exact zero_add _
  · rw [a2, hq, z2]; exact zero_add _
  · rw [a3, hq, z3]; exact zero_add _

/-- A later pair on or above the diagonal, added to the sums through the pair before. -/
theorem sumsAre_step (t : Fin cfg0.N) (s : Body.Acc Ideal) (p : ℕ) (hs : SumsAre m c s (bOf t.val) p)
    (hp : p + 1 = t.val % 16) (h2 : t.val / 4 % 4 ≤ t.val % 4) :
    SumsAre m c (Body.stepAll m c t s) (bOf t.val) (p + 1) := by
  intro y
  have hN := point_lt t
  obtain ⟨s0, s1, s2, s3⟩ := hs y
  obtain ⟨a0, a1, a2, a3⟩ := stepAll_apply m c t s (bOf t.val) ⟨t.val / 4 % 4, by omega⟩ ⟨t.val % 4, by omega⟩
    (by simp only [bOf]; omega) rfl rfl y
  have hq : ∀ f : Fin 8 → Fin 64 → Fin 64 → EReal,
      pairPart f (bOf t.val) (p + 1) = SepLoss.tileSum f (bOf t.val) ⟨t.val / 4 % 4, by omega⟩ ⟨t.val % 4, by omega⟩ := fun f =>
    pairPart_diag f _ (p + 1) (by omega) (by omega) _ _ (by show t.val / 4 % 4 = (p + 1) / 4; omega) (by show t.val % 4 = (p + 1) % 4; omega)
  exact ⟨by rw [a0, s0, runSum_succ, hq], by rw [a1, s1, runSum_succ, hq], by rw [a2, s2, runSum_succ, hq],
    by rw [a3, s3, runSum_succ, hq]⟩

/-- A pair below the diagonal leaves the sums, and adds 0 to the partial sums. -/
theorem sumsAre_skip (s : Body.Acc Ideal) (b : Fin 8) (p : ℕ) (hs : SumsAre m c s b p) (hq : ¬ (p + 1) / 4 ≤ (p + 1) % 4) :
    SumsAre m c s b (p + 1) := by
  intro y
  obtain ⟨s0, s1, s2, s3⟩ := hs y
  have z : ∀ f : Fin 8 → Fin 64 → Fin 64 → EReal, runSum f b (p + 1) = runSum f b p := fun f => by
    rw [runSum_succ, pairPart_below f b _ hq, add_zero]
  exact ⟨by rw [s0, z], by rw [s1, z], by rw [s2, z], by rw [s3, z]⟩

/-- After point n the four sums are the partial tiled sums of batch n / 16 through pair number n mod 16. -/
theorem accAt_sums : ∀ (n : ℕ) (hn : n < cfg0.N), SumsAre m c (Body.accAt m c n hn) (bOf n) (n % 16)
  | 0, hn => by
    have e : Body.accAt m c 0 hn = Body.stepAll m c ⟨0, hn⟩ Body.zeros := rfl
    rw [e]
    exact sumsAre_first m c ⟨0, hn⟩ rfl
  | n + 1, hn => by
    have ih := accAt_sums n (Nat.lt_of_succ_lt hn)
    have hN : n + 1 < 128 := point_lt ⟨n + 1, hn⟩
    by_cases h0 : (n + 1) % 16 = 0
    · have e : Body.accAt m c (n + 1) hn = Body.stepAll m c ⟨n + 1, hn⟩ Body.zeros := Body.accAt_first m c ⟨n + 1, hn⟩ h0
      rw [e, h0]
      exact sumsAre_first m c ⟨n + 1, hn⟩ h0
    · have hb : bOf (n + 1) = bOf n := Fin.ext (by simp only [bOf]; omega)
      have hp : (n + 1) % 16 = n % 16 + 1 := by omega
      by_cases h2 : (n + 1) / 4 % 4 ≤ (n + 1) % 4
      · have e : Body.accAt m c (n + 1) hn = Body.stepAll m c ⟨n + 1, hn⟩ (Body.accAt m c n (Nat.lt_of_succ_lt hn)) :=
          Body.accAt_diag m c ⟨n + 1, hn⟩ h0 h2
        rw [e, hp]
        have ih' : SumsAre m c (Body.accAt m c n (Nat.lt_of_succ_lt hn)) (bOf (n + 1)) (n % 16) := by rw [hb]; exact ih
        exact sumsAre_step m c ⟨n + 1, hn⟩ _ (n % 16) ih' hp.symm h2
      · have e : Body.accAt m c (n + 1) hn = Body.accAt m c n (Nat.lt_of_succ_lt hn) := Body.accAt_below m c ⟨n + 1, hn⟩ h0 h2
        rw [e, hp, hb]
        exact sumsAre_skip m c _ _ _ ih (by omega)

/-- After the last pair of a batch the four sums are the tiled arrangement's sums for the batch. -/
theorem accAt_last (t : Fin cfg0.N) (h : t.val % 16 = 15) (y : S1x1.Idx) :
    (Body.accAt m c t.val t.isLt).1 y = tiledPart (f0 m c) (bOf t.val)
    ∧ (Body.accAt m c t.val t.isLt).2.1 y = tiledPart (f1 m c) (bOf t.val)
    ∧ (Body.accAt m c t.val t.isLt).2.2.1 y = tiledPart (f2 m c) (bOf t.val)
    ∧ (Body.accAt m c t.val t.isLt).2.2.2 y = tiledPart (f3 m c) (bOf t.val) := by
  have hs := accAt_sums m c t.val t.isLt y
  rw [h] at hs
  simp only [runSum_last] at hs
  exact hs

end Cert.KernelIdeal.KValue

end
-- ==== Proof.KernelValueOut.lean ====
/-
  The output array after the region: entry (b, 0, q) is the q-th tiled sum of batch b.

  The output block [1, 1, 4] is written back exactly at the last tile pair of each batch (the points t ≡ 15 mod 16),
  into row t / 16 of the [8, 1, 4] array, and holds the four running sums side by side.  After the last pair of batch b
  those are the tiled arrangement's four sums for the batch, so every written block is its row of one array, and the
  eight written rows cover the array: row b is written at point 16·b + 15.
-/
import proofs.«125674_j51513837748796_2_alg».proof.Proof.KernelValueSums
import Idealize.ShloMosaic.Lib.Pipeline.Value

noncomputable section

namespace Cert.KernelIdeal.KValue

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The q-th of the four summands. -/
def fSel : Fin 4 → Fin 8 → Fin 64 → Fin 64 → EReal
  | ⟨0, _⟩ => f0 m c
  | ⟨1, _⟩ => f1 m c
  | ⟨2, _⟩ => f2 m c
  | ⟨3, _⟩ => f3 m c

/-- The output array: entry (b, 0, q) is the q-th tiled sum of batch b. -/
def outG : S8x1x4.Idx → EReal := fun i => tiledPart (fSel m c (i 2)) (i 0)

/-- The output window's block index at point t, and its rectangle in the array. -/
theorem index4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
theorem rect4 : ∀ t : Fin cfg0.N,
    (win0_4.index t 0 * win0_4.size 0 = t.val / 16 ∧ win0_4.xsize (grid0.coords t) 0 = 1)
    ∧ (win0_4.index t 1 * win0_4.size 1 = 0 ∧ win0_4.xsize (grid0.coords t) 1 = 1)
    ∧ (win0_4.index t 2 * win0_4.size 2 = 0 ∧ win0_4.xsize (grid0.coords t) 2 = 4) :=
  (by decide +kernel : ∀ t : Fin grid0.N,
    (win0_4.index t 0 * win0_4.size 0 = t.val / 16 ∧ win0_4.xsize (grid0.coords t) 0 = 1)
    ∧ (win0_4.index t 1 * win0_4.size 1 = 0 ∧ win0_4.xsize (grid0.coords t) 1 = 1)
    ∧ (win0_4.index t 2 * win0_4.size 2 = 0 ∧ win0_4.xsize (grid0.coords t) 2 = 4))

/-- Entry (0, 0, q) of point t's output block sits at (t / 16, 0, q) of the array. -/
theorem emb4 (t : Fin cfg0.N) (q : Fin 4) :
    (((cfg0.win 4).blk t).view.emb (ix3 (0 : Fin 1) (0 : Fin 1) q) : S8x1x4.Idx) = ix3 (bOf t.val) (0 : Fin 1) q := by
  obtain ⟨i0, i1, i2⟩ := index4 t
  have hN := point_lt t
  funext a
  apply Fin.ext
  match a with
  | ⟨0, _⟩ => show win0_4.index t 0 * 1 + 1 * (0 : ℕ) = (bOf t.val).val; rw [i0]; simp only [bOf]; omega
  | ⟨1, _⟩ => show win0_4.index t 1 * 1 + 1 * (0 : ℕ) = 0; rw [i1]
  | ⟨2, _⟩ => show win0_4.index t 2 * 4 + 1 * q.val = q.val; rw [i2]; omega

theorem outG_ix (b : Fin 8) (q : Fin 4) : outG m c (ix3 b (0 : Fin 1) q) = tiledPart (fSel m c q) b := rfl

/-- The row written out after the last pair of a batch is the batch's row of the output array. -/
theorem flushed4_point (t : Fin cfg0.N) (h15 : t.val % 16 = 15) (x : S1x1x4.Idx) :
    Tile.outRow (Body.accAt m c t.val t.isLt).1 (Body.accAt m c t.val t.isLt).2.1 (Body.accAt m c t.val t.isLt).2.2.1
        (Body.accAt m c t.val t.isLt).2.2.2 x
      = outG m c (((cfg0.win 4).blk t).view.emb x) := by
  obtain ⟨p, r, q, rfl⟩ : ∃ (p : Fin 1) (r : Fin 1) (q : Fin 4), x = ix3 p r q := ⟨x 0, x 1, x 2, eq_ix3 x⟩
  obtain rfl : p = 0 := Subsingleton.elim _ _
  obtain rfl : r = 0 := Subsingleton.elim _ _
  obtain ⟨a0, a1, a2, a3⟩ := accAt_last m c t h15 (ix2 (0 : Fin 1) (0 : Fin 1))
  rw [emb4 t q, outG_ix]
  match q with
  | ⟨0, hq⟩ =>
    exact (TileValue.outRow_apply0 (Body.accAt m c t.val t.isLt).1 (Body.accAt m c t.val t.isLt).2.1
      (Body.accAt m c t.val t.isLt).2.2.1 (Body.accAt m c t.val t.isLt).2.2.2).trans a0
  | ⟨1, hq⟩ =>
    exact (TileValue.outRow_apply1 (Body.accAt m c t.val t.isLt).1 (Body.accAt m c t.val t.isLt).2.1
      (Body.accAt m c t.val t.isLt).2.2.1 (Body.accAt m c t.val t.isLt).2.2.2).trans a1
  | ⟨2, hq⟩ =>
    exact (TileValue.outRow_apply2 (Body.accAt m c t.val t.isLt).1 (Body.accAt m c t.val t.isLt).2.1
      (Body.accAt m c t.val t.isLt).2.2.1 (Body.accAt m c t.val t.isLt).2.2.2).trans a2
  | ⟨3, hq⟩ =>
    exact (TileValue.outRow_apply3 (Body.accAt m c t.val t.isLt).1 (Body.accAt m c t.val t.isLt).2.1
      (Body.accAt m c t.val t.isLt).2.2.1 (Body.accAt m c t.val t.isLt).2.2.2).trans a3

/-- What each write-back writes is its block of the output array. -/
theorem flushed4_eq (t : Fin cfg0.N) (hf : (cfg0.win 4).flush t = true) :
    (Body.dats m 0 c).flushed 4 t = ((cfg0.win 4).blk t).view.read (Elt Ideal) (outG m c) := by
  have h15 : t.val % 16 = 15 := (flush0_4 t).mp hf
  show (cfg0.win 4).cut (grid0.coords t) ((Body.dats m 0 c).after 4 t) = _
  rw [Body.after4]
  funext x
  rw [View.read_apply]
  exact flushed4_point m c t h15 x

/-- The output array after the region. -/
theorem final4 : (Body.dats m 0 c).arrAt 4 cfg0.N = outG m c :=
  (Body.dats m 0 c).arrAt_eq_of_cover 4 (outG m c) (flushed4_eq m c) fun i => by
    have h0 : (i 0 : ℕ) < 8 := (i 0).isLt
    have h1 : (i 1 : ℕ) < 1 := (i 1).isLt
    have h2 : (i 2 : ℕ) < 4 := (i 2).isLt
    obtain ⟨T, hT⟩ : ∃ T : Fin cfg0.N, T.val = 16 * (i 0 : ℕ) + 15 :=
      ⟨⟨16 * (i 0 : ℕ) + 15, by rw [show cfg0.N = 128 from N_0]; omega⟩, rfl⟩
    refine ⟨T, (flush0_4 T).mpr (by omega), ?_⟩
    show i ∈ ((View.whole main_v1).slice (win0_4.rect T)).set
    rw [View.set_slice_whole, Rect.mem_set_unit]
    obtain ⟨⟨r0, z0⟩, ⟨r1, z1⟩, ⟨r2, z2⟩⟩ := rect4 T
    intro a
    match a with
    | ⟨0, _⟩ =>
      show win0_4.index T 0 * win0_4.size 0 ≤ (i 0 : ℕ) ∧ (i 0 : ℕ) < win0_4.index T 0 * win0_4.size 0 + win0_4.xsize (grid0.coords T) 0
      rw [r0, z0]; omega
    | ⟨1, _⟩ =>
      show win0_4.index T 1 * win0_4.size 1 ≤ (i 1 : ℕ) ∧ (i 1 : ℕ) < win0_4.index T 1 * win0_4.size 1 + win0_4.xsize (grid0.coords T) 1
      rw [r1, z1]; omega
    | ⟨2, _⟩ =>
      show win0_4.index T 2 * win0_4.size 2 ≤ (i 2 : ℕ) ∧ (i 2 : ℕ) < win0_4.index T 2 * win0_4.size 2 + win0_4.xsize (grid0.coords T) 2
      rw [r2, z2]; omega

/-- Entry (b, 0, q) of the output array is the q-th tiled sum of batch b. -/
theorem out_apply (b : Fin 8) (q : Fin 4) :
    ((Body.dats m 0 c).arrAt 4 cfg0.N : S8x1x4.Idx → EReal) (ix3 b (0 : Fin 1) q) = tiledPart (fSel m c q) b :=
  (congrFun (final4 m c) (ix3 b (0 : Fin 1) q)).trans rfl

theorem out_apply0 (b : Fin 8) :
    ((Body.dats m 0 c).arrAt 4 cfg0.N : S8x1x4.Idx → EReal) (ix3 b (0 : Fin 1) (0 : Fin 4))
      = ∑ I : Fin 4, ∑ J : Fin 4, if I.val ≤ J.val then SepLoss.tileSum (f0 m c) b I J else 0 := out_apply m c b 0
theorem out_apply1 (b : Fin 8) :
    ((Body.dats m 0 c).arrAt 4 cfg0.N : S8x1x4.Idx → EReal) (ix3 b (0 : Fin 1) (1 : Fin 4))
      = ∑ I : Fin 4, ∑ J : Fin 4, if I.val ≤ J.val then SepLoss.tileSum (f1 m c) b I J else 0 := out_apply m c b 1
theorem out_apply2 (b : Fin 8) :
    ((Body.dats m 0 c).arrAt 4 cfg0.N : S8x1x4.Idx → EReal) (ix3 b (0 : Fin 1) (2 : Fin 4))
      = ∑ I : Fin 4, ∑ J : Fin 4, if I.val ≤ J.val then SepLoss.tileSum (f2 m c) b I J else 0 := out_apply m c b 2
theorem out_apply3 (b : Fin 8) :
    ((Body.dats m 0 c).arrAt 4 cfg0.N : S8x1x4.Idx → EReal) (ix3 b (0 : Fin 1) (3 : Fin 4))
      = ∑ I : Fin 4, ∑ J : Fin 4, if I.val ≤ J.val then SepLoss.tileSum (f3 m c) b I J else 0 := out_apply m c b 3

/-- Summed over the batches these are the tiled arrangement's sums. -/
theorem sumTiled_eq (f : Fin 8 → Fin 64 → Fin 64 → EReal) : SepLoss.sumTiled f = ∑ b : Fin 8, tiledPart f b := rfl

end Cert.KernelIdeal.KValue

end
-- ==== Proof.LibSoftmaxShift.lean ====
/-
  A softmax on the extended reals does not see a common real shift of its scores.

  For real scores s_j and a real M, exp (s_j − M) / Σ_j' exp (s_j' − M) = exp s_j / Σ_j' exp s_j': the common
  factor exp (−M) cancels, the sums being positive. It is an identity of real numbers, carried into the extended
  reals through the coercion of a finite sum (a sum of coerced reals is the coerced sum). The shift a stable
  softmax subtracts is the row's maximum, the fold of max from −∞ over the row; over at least one real it is
  a real: below +∞ because every entry is, and at least the first entry, hence above −∞.
-/
import Idealize.ShloMosaic.PureOps.Ideal

noncomputable section

namespace Cert.LibSoftmaxShift

open Idealize.ShloMosaic
open scoped BigOperators

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Softmax does not see a common real shift of its scores. -/
theorem softmax_shift {ι : Type} [Fintype ι] [Nonempty ι] (s : ι → ℝ) (M : ℝ) (j : ι) :
    Ideal.div (Ideal.exp ((s j : EReal) - (M : EReal))) (0 + ∑ j' : ι, Ideal.exp ((s j' : EReal) - (M : EReal)))
      = Ideal.div (Ideal.exp (s j : EReal)) (∑ j' : ι, Ideal.exp (s j' : EReal)) := by
  have hpos : ∀ t : ι → ℝ, (0 : ℝ) < ∑ j' : ι, Real.exp (t j') := fun t =>
    Finset.sum_pos (fun _ _ => Real.exp_pos _) Finset.univ_nonempty
  simp only [← EReal.coe_sub, Ideal.exp_coe, coe_sum, zero_add]
  rw [Ideal.div_coe (hpos fun j' => s j' - M).ne', Ideal.div_coe (hpos s).ne', ← EReal.coe_mul, ← EReal.coe_mul]
  congr 1
  have hM : Real.exp M ≠ 0 := (Real.exp_pos M).ne'
  have h1 : ∑ j' : ι, Real.exp (s j' - M) = (∑ j' : ι, Real.exp (s j')) / Real.exp M := by
    rw [Finset.sum_div]; exact Finset.sum_congr rfl fun j' _ => Real.exp_sub _ _
  rw [h1, Real.exp_sub]
  have := (hpos s).ne'
  field_simp

/-- The maximum of finitely many reals (at least one), started from ⊥, is a real. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hlt : (Finset.univ : Finset (Fin n)).fold max ⊥ f < ⊤ :=
    (Finset.fold_max_lt _).2 ⟨bot_lt_top, fun k _ => by obtain ⟨r, hr⟩ := hf k; rw [hr]; exact EReal.coe_lt_top r⟩
  have hge : f ⟨0, hn⟩ ≤ (Finset.univ : Finset (Fin n)).fold max ⊥ f :=
    (Finset.le_fold_max _).2 (Or.inr ⟨⟨0, hn⟩, Finset.mem_univ _, le_rfl⟩)
  have hne : (Finset.univ : Finset (Fin n)).fold max ⊥ f ≠ ⊥ := by
    obtain ⟨r, hr⟩ := hf ⟨0, hn⟩
    rw [hr] at hge
    exact ne_of_gt (lt_of_lt_of_le (EReal.bot_lt_coe r) hge)
  exact ⟨_, (EReal.coe_toReal hlt.ne hne).symm⟩

end Cert.LibSoftmaxShift

end
-- ==== Proof.LogSoftmaxReal.lean ====
/-
  The log-softmax of an array of real numbers is an array of real numbers.

  Over a row x_0 … x_31 of reals the stage computes M = max(−∞, max_k x_k), a real because the maximum from −∞ of at
  least one real is one; then x_c − M, a real; e^(x_c − M), a positive real; the row sum 0 + Σ_c e^(x_c − M), a sum of
  32 positive reals and so a positive real; its logarithm, the real logarithm (the argument is positive, so it is not
  the −∞ the logarithm answers at 0 or below); and (x_c − M) − log Σ, a difference of reals.
-/
import proofs.«125674_j51513837748796_2_alg».proof.Proof.RefReadP
import proofs.«125674_j51513837748796_2_alg».proof.Proof.LibSoftmaxShift
import Idealize.ShloMosaic.Lib.ValueIdx
import Idealize.ShloMosaic.Lib.Pipeline.Value
import Idealize.ShloMosaic.PureOps.Ideal.Laws

noncomputable section

namespace Cert.ReferenceIdeal.LogSoftmax

open Cert.ReferenceIdeal Cert.ReferenceIdeal.Gen Idealize.ShloMosaic Idealize.ShloMosaic.TcCoe Idealize.SL.Sem Idealize.ShloMosaic.StableHlo

/-- The f32 word 0xFF800000 is −∞. -/
theorem negInf_f32 : Ideal.ofBits .f32 0xFF800000#32 = (⊥ : EReal) := by simp [Ideal.ofBits, Ideal.ieee]

/-- The f32 word 0x00000000 is 0. -/
theorem zero_f32 : Ideal.ofBits .f32 0x00000000#32 = (0 : EReal) := by simp [Ideal.ofBits, Ideal.ieee]

variable (P : FVec Ideal S8x64x32x32 .f32)

/-- The maximum from −∞ over a row of reals is a real. -/
theorem rowMax_real (hP : ∀ i, ∃ r : ℝ, P i = (r : EReal)) (j : S8x64x32.Idx) :
    ∃ r : ℝ, ReadP.val_main_call0_v0 (F := Ideal) P j = (r : EReal) := by
  unfold ReadP.val_main_call0_v0
  rw [Host.reduce_eq_fold_single FloatOps.maximumf P _ reducesTo_S8x64x32x32_S8x64x32_d3 (by decide) h_S_ j]
  have h0 : ReadP.val_main_call0_cst (F := Ideal) (Shape.Idx.first h_S_) = (⊥ : EReal) := negInf_f32
  rw [h0]
  exact Cert.LibSoftmaxShift.fold_max_real (by decide) _ (fun k => hP _)

/-- The shift M = max(−∞, row maximum) is a real. -/
theorem shift_real (hP : ∀ i, ∃ r : ℝ, P i = (r : EReal)) (j : S8x64x32.Idx) :
    ∃ r : ℝ, ReadP.val_main_call0_v2 (F := Ideal) P j = (r : EReal) := by
  obtain ⟨r, hr⟩ := rowMax_real P hP j
  refine ⟨r, ?_⟩
  rw [ReadP.val_main_call0_v2_apply, ReadP.val_main_call0_v1_apply, ReadP.val_main_call0_cst_0_apply, hr]
  show max (Ideal.ofBits .f32 0xFF800000#32) (r : EReal) = r
  rw [negInf_f32]
  exact max_eq_right bot_le

/-- x − M is a real. -/
theorem centred_real (hP : ∀ i, ∃ r : ℝ, P i = (r : EReal)) (i : S8x64x32x32.Idx) :
    ∃ r : ℝ, ReadP.val_main_call0_v5 (F := Ideal) P i = (r : EReal) := by
  obtain ⟨x, hx⟩ := hP i
  obtain ⟨M, hM⟩ := shift_real P hP (ReadP.idx_main_call0_v3 (ReadP.idx_main_call0_v4 i))
  refine ⟨x - M, ?_⟩
  rw [ReadP.val_main_call0_v5_apply, ReadP.val_main_call0_v4_apply, ReadP.val_main_call0_v3_apply, hM, hx]
  exact (EReal.coe_sub x M).symm

/-- e^(x − M) is a positive real. -/
theorem exp_pos_real (hP : ∀ i, ∃ r : ℝ, P i = (r : EReal)) (i : S8x64x32x32.Idx) :
    ∃ r : ℝ, 0 < r ∧ ReadP.val_main_call0_v6 (F := Ideal) P i = (r : EReal) := by
  obtain ⟨y, hy⟩ := centred_real P hP i
  refine ⟨Real.exp y, Real.exp_pos y, ?_⟩
  rw [ReadP.val_main_call0_v6_apply, hy]
  rfl

/-- The row sum 0 + Σ_c e^(x_c − M) is a positive real. -/
theorem rowSum_pos_real (hP : ∀ i, ∃ r : ℝ, P i = (r : EReal)) (j : S8x64x32.Idx) :
    ∃ r : ℝ, 0 < r ∧ ReadP.val_main_call0_v7 (F := Ideal) P j = (r : EReal) := by
  choose f hf0 hf using fun k : Fin 32 => exp_pos_real P hP (ReadP.idx_main_call0_v7 j k)
  refine ⟨∑ k : Fin 32, f k, Finset.sum_pos (fun k _ => hf0 k) Finset.univ_nonempty, ?_⟩
  rw [ReadP.val_main_call0_v7_apply, ReadP.val_main_call0_cst_1_apply, Finset.sum_congr rfl (fun k _ => hf k),
    Cert.LibSoftmaxShift.coe_sum]
  show Ideal.ofBits .f32 0x00000000#32 + _ = _
  rw [zero_f32, zero_add]

/-- The logarithm of the row sum is a real: the sum is positive. -/
theorem logSum_real (hP : ∀ i, ∃ r : ℝ, P i = (r : EReal)) (i : S8x64x32x1.Idx) :
    ∃ r : ℝ, ReadP.val_main_call0_v9 (F := Ideal) P i = (r : EReal) := by
  obtain ⟨s, hs0, hs⟩ := rowSum_pos_real P hP (ReadP.idx_main_call0_v8 i)
  refine ⟨Real.log s, ?_⟩
  rw [ReadP.val_main_call0_v9_apply, ReadP.val_main_call0_v8_apply, hs]
  show Ideal.log (s : EReal) = _
  rw [Ideal.log_coe, if_neg (not_le.2 hs0)]

/-- The log-softmax of an array of reals is an array of reals. -/
theorem val_main_v0_real (hP : ∀ i, ∃ r : ℝ, P i = (r : EReal)) :
    ∀ i, ∃ r : ℝ, ReadP.val_main_v0 (F := Ideal) P i = (r : EReal) := by
  intro i
  obtain ⟨y, hy⟩ := centred_real P hP i
  obtain ⟨l, hl⟩ := logSum_real P hP (ReadP.idx_main_call0_v10 i)
  refine ⟨y - l, ?_⟩
  rw [ReadP.val_main_v0_apply, ReadP.val_main_call0_v10_apply, hy, hl]
  exact (EReal.coe_sub y l).symm

end Cert.ReferenceIdeal.LogSoftmax

end
-- ==== Proof.PreFinite.lean ====
/-
  The precondition read back: every entry of the first argument is a real number.

  The precondition is the conjunction of two tests, one per argument: all entries x satisfy |x| < +∞, the bound being
  the f32 word 0x7F800000. The conjunction being 1 makes each test 1; a test over all axes being 1 makes the
  comparison 1 at every entry; and an extended real with max(x, −x) < +∞ is neither +∞ nor −∞, so it is a real.
-/
import proofs.«125674_j51513837748796_2_alg».proof.Defs
import proofs.«125674_j51513837748796_2_alg».proof.Proof.Gen.Pre_finite_inputs
import Idealize.ShloMosaic.Lib.ReduceAll
import Idealize.ShloMosaic.Lib.ValueIdx

noncomputable section

namespace Cert.PreFinite

open Idealize.ShloMosaic Idealize.SL.Sem

/-- The f32 word 0x7F800000 is +∞. -/
theorem inf_f32 : Ideal.ofBits .f32 0x7F800000#32 = (⊤ : EReal) := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- The rank-0 shape has one index. -/
instance : Subsingleton Cert.Pre_finite_inputs.S_.Idx := ⟨fun a b => funext fun d => d.elim0⟩

/-- Under the precondition every entry of the first argument is a real number. -/
theorem arg0_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := by
  intro i
  have h0 := congrFun (h c) ValueIdx.ix0
  dsimp only [Cert.Pre_finite_inputs.fn] at h0
  obtain ⟨h1, _⟩ := IntOp.andi_eq_one.1 h0
  exact real_of_abs_lt_inf _ (Host.reduce_andi_all _ _ _ _ _ h1 i)

/-- Under the precondition every entry of the second argument is a real number. -/
theorem arg1_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) := by
  intro i
  have h0 := congrFun (h c) ValueIdx.ix0
  dsimp only [Cert.Pre_finite_inputs.fn] at h0
  obtain ⟨_, h1⟩ := IntOp.andi_eq_one.1 h0
  exact real_of_abs_lt_inf _ (Host.reduce_andi_all _ _ _ _ _ h1 i)

end Cert.PreFinite

end
-- ==== Proof.LogSoftmaxSame.lean ====
/-
  The kernel program's log-softmax stretch is the reference's log-softmax stage.

  Before its region the kernel program runs fifteen host operations on the first argument: the row maximum from −∞,
  the maximum of that with −∞, the difference, its exponential, the row sum from 0, its logarithm, and the difference
  again. They are, one by one and in the same order, the operations of the reference's stage, so the array the region
  finds under the stretch's last result is the reference's stage applied to the first argument as launched.
-/
import proofs.«125674_j51513837748796_2_alg».proof.Proof.ProofData
import proofs.«125674_j51513837748796_2_alg».proof.Proof.RefReadP
import Idealize.ShloMosaic.Lib.StableHlo.Run

set_option maxRecDepth 16384

noncomputable section

namespace Cert.KernelIdeal.LogSoftmaxSame

open Cert.KernelIdeal Cert.KernelIdeal.Gen
open Idealize.ShloMosaic Idealize.ShloMosaic.TcCoe Idealize.SL.Sem Idealize.ShloMosaic.StableHlo

variable {F : FTy → Type} [FloatOps F]

/-- The fifteen operations composed, over any array in the first argument's place, are the reference's stage of it:
    the two programs print the same operations over the same literal shapes. -/
theorem stage_eq (P : (⟨S8x64x32x32, .f32⟩ : BufTy).Contents (Elt F)) :
    subf
      (subf P
        (broadcastInDim S8x64x32x32 ![0, 1, 2, 3] bcast_S8x64x32x1_S8x64x32x32_0_1_2_3
          (broadcastInDim S8x64x32x1 ![0, 1, 2] bcast_S8x64x32_S8x64x32x1_0_1_2
            (maximumf (broadcastInDim S8x64x32 ![] bcast_S_S8x64x32 (constant S_ .f32 0xFF800000#32))
              (Host.reduce FloatOps.maximumf P (constant S_ .f32 0xFF800000#32) reducesTo_S8x64x32x32_S8x64x32_d3 h_S_)))))
      (broadcastInDim S8x64x32x32 ![0, 1, 2, 3] bcast_S8x64x32x1_S8x64x32x32_0_1_2_3
        (Host.log
          (broadcastInDim S8x64x32x1 ![0, 1, 2] bcast_S8x64x32_S8x64x32x1_0_1_2
            (Host.reduceAdd
              (Host.exp
                (subf P
        (broadcastInDim S8x64x32x32 ![0, 1, 2, 3] bcast_S8x64x32x1_S8x64x32x32_0_1_2_3
          (broadcastInDim S8x64x32x1 ![0, 1, 2] bcast_S8x64x32_S8x64x32x1_0_1_2
            (maximumf (broadcastInDim S8x64x32 ![] bcast_S_S8x64x32 (constant S_ .f32 0xFF800000#32))
              (Host.reduce FloatOps.maximumf P (constant S_ .f32 0xFF800000#32) reducesTo_S8x64x32x32_S8x64x32_d3 h_S_))))))
              (constant S_ .f32 0x00000000#32) reducesTo_S8x64x32x32_S8x64x32_d3 h_S_))))
      = Cert.ReferenceIdeal.ReadP.val_main_v0 (F := F) P := rfl

/-- What the region finds under the stretch's last result is the reference's stage of the launched first argument. -/
theorem V_main_v0 (m : (ℓ : Loc nD τ sig) → Buf (Elt F) ℓ) (c : Dev nD) :
    Cert.KernelIdeal.Body.V m c main_v0
      = Cert.ReferenceIdeal.ReadP.val_main_v0 (F := F) (m ((c.tc : Thread nD τ).loc main_arg0)) := by
  dsimp only [Body.V, Body.V0]
  simp only [hostOps0, List.flatten_cons, List.flatten_nil, List.append_nil, TRef.nullary, TRef.unary, TRef.binary, TRef.of,
    TRef.toBuf, TRef.ofBuf, cast_eq]
  after_results
  exact stage_eq (m (c, Proc.tc.devRef main_arg0))

end Cert.KernelIdeal.LogSoftmaxSame

end
-- ==== Proof.Bridge.lean ====
/-
  The bridge at the exact values: the kernel program's two results are the reference's two stage functions of the same
  two arguments.

  The lines after the region turn the output array into the two losses of its column sums; each column, summed over the
  batches, is the tiled arrangement's sum; the tiled arrangement equals the whole one because every log-probability the
  region finds is a real number; the arrays the region finds are the reference's log-softmax of the first argument and
  the second argument; and the whole arrangement is what the reference computes.
-/
import proofs.«125674_j51513837748796_2_alg».proof.Proof.LaunchB
import proofs.«125674_j51513837748796_2_alg».proof.Proof.TailValue
import proofs.«125674_j51513837748796_2_alg».proof.Proof.KernelValueBlocks
import proofs.«125674_j51513837748796_2_alg».proof.Proof.Algebra
import proofs.«125674_j51513837748796_2_alg».proof.Proof.RefSide
import proofs.«125674_j51513837748796_2_alg».proof.Proof.KernelValueOut
import proofs.«125674_j51513837748796_2_alg».proof.Proof.LogSoftmaxReal
import proofs.«125674_j51513837748796_2_alg».proof.Proof.PreFinite
import proofs.«125674_j51513837748796_2_alg».proof.Proof.LogSoftmaxSame

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL.Sem
open Cert.ReferenceIdeal (ReadP.val_main_v0 ReadP.val_main_v59 ReadP.val_main_v70 RefValue.refLp RefValue.feat RefValue.res_att RefValue.res_rep)
open scoped BigOperators

variable (m : (ℓ : Loc nD τ sig) → Buf (Elt Ideal) ℓ) (c : Dev nD)

/-! ## The arrays the region finds are the reference's stage functions of the arguments -/

/-- The log-probabilities the region finds are the reference's log-softmax of the first argument, once the log-softmax
    stretch's result is known to be that stage. -/
theorem kerLp_eq
    (hsame : Body.V m c main_v0 = Cert.ReferenceIdeal.ReadP.val_main_v0 (F := Ideal) (m ((c : Thread nD τ).loc main_arg0))) :
    KValue.kerLp m c = Cert.ReferenceIdeal.RefValue.refLp (m ((c : Thread nD τ).loc main_arg0)) := by
  funext b i k cc
  unfold KValue.kerLp Cert.ReferenceIdeal.RefValue.refLp
  rw [hsame]

/-- The features the region finds are the second argument. -/
theorem kerH_eq : KValue.kerH m c = Cert.ReferenceIdeal.RefValue.feat (m ((c : Thread nD τ).loc main_arg1)) := by
  funext b i d
  unfold KValue.kerH Cert.ReferenceIdeal.RefValue.feat
  rw [Body.V_arg1]

/-! ## The kernel's two results: the tiled losses of what the region finds -/

section Tail

variable (lp : Fin 8 → Fin 64 → Fin 32 → Fin 32 → EReal) (h : Fin 8 → Fin 64 → Fin 1024 → EReal)

/-- The host lines after the region, run from contents whose output array holds, per batch, the tiled sums of the
    weighted squared differences and of the attracting weights in its first two columns, end with the first result at
    the tiled attraction loss: the sum over the batches of a column is `SepLoss.sumTiled` of its summand. -/
theorem tail_att_tiled (W : Valuation τ sig (Elt Ideal))
    (h0 : ∀ b : Fin 8, (W (Proc.devRef .tc main_v1) : S8x1x4.Idx → EReal) (ix3 b (0 : Fin 1) (0 : Fin 4))
      = ∑ I : Fin 4, ∑ J : Fin 4, if I.val ≤ J.val then
          SepLoss.tileSum (fun b i j => SepLoss.mse h b i j * SepLoss.attW (SepLoss.jsdTiled lp) b i j) b I J else 0)
    (h1 : ∀ b : Fin 8, (W (Proc.devRef .tc main_v1) : S8x1x4.Idx → EReal) (ix3 b (0 : Fin 1) (1 : Fin 4))
      = ∑ I : Fin 4, ∑ J : Fin 4, if I.val ≤ J.val then SepLoss.tileSum (SepLoss.attW (SepLoss.jsdTiled lp)) b I J else 0) :
    (StableHlo.after (List.flatten [hostOps1 (F := Ideal), hostOps1_1 (F := Ideal), hostOps1_2 (F := Ideal), hostOps1_3 (F := Ideal)]) W
        (Proc.devRef .tc main_v18) : S_.Idx → EReal)
      = fun _ => SepLoss.attLossTiled lp h := by
  rw [TailValue.tail_att W]
  funext _
  unfold SepLoss.attLossTiled SepLoss.sumTiled
  exact congrArg₂ SepLoss.loss (Finset.sum_congr rfl fun b _ => h0 b) (Finset.sum_congr rfl fun b _ => h1 b)

/-- Likewise the second result, from the last two columns, is the tiled repulsion loss. -/
theorem tail_rep_tiled (W : Valuation τ sig (Elt Ideal))
    (h2 : ∀ b : Fin 8, (W (Proc.devRef .tc main_v1) : S8x1x4.Idx → EReal) (ix3 b (0 : Fin 1) (2 : Fin 4))
      = ∑ I : Fin 4, ∑ J : Fin 4, if I.val ≤ J.val then
          SepLoss.tileSum (fun b i j => SepLoss.energyTiled h b i j * SepLoss.repW (SepLoss.jsdTiled lp) b i j) b I J else 0)
    (h3 : ∀ b : Fin 8, (W (Proc.devRef .tc main_v1) : S8x1x4.Idx → EReal) (ix3 b (0 : Fin 1) (3 : Fin 4))
      = ∑ I : Fin 4, ∑ J : Fin 4, if I.val ≤ J.val then SepLoss.tileSum (SepLoss.repW (SepLoss.jsdTiled lp)) b I J else 0) :
    (StableHlo.after (List.flatten [hostOps1 (F := Ideal), hostOps1_1 (F := Ideal), hostOps1_2 (F := Ideal), hostOps1_3 (F := Ideal)]) W
        (Proc.devRef .tc main_v22) : S_.Idx → EReal)
      = fun _ => SepLoss.repLossTiled lp h := by
  rw [TailValue.tail_rep W]
  funext _
  unfold SepLoss.repLossTiled SepLoss.sumTiled
  exact congrArg₂ SepLoss.loss (Finset.sum_congr rfl fun b _ => h2 b) (Finset.sum_congr rfl fun b _ => h3 b)

end Tail

/-- The first result of @main is the tiled attraction loss of the arrays the region finds, given the output array's
    first two columns. -/
theorem wfin_att
    (hout0 : ∀ b : Fin 8, ((Body.dats m 0 c).arrAt 4 cfg0.N : S8x1x4.Idx → EReal) (ix3 b (0 : Fin 1) (0 : Fin 4))
      = ∑ I : Fin 4, ∑ J : Fin 4, if I.val ≤ J.val then
          SepLoss.tileSum (fun b i j => SepLoss.mse (KValue.kerH m c) b i j * SepLoss.attW (SepLoss.jsdTiled (KValue.kerLp m c)) b i j) b I J else 0)
    (hout1 : ∀ b : Fin 8, ((Body.dats m 0 c).arrAt 4 cfg0.N : S8x1x4.Idx → EReal) (ix3 b (0 : Fin 1) (1 : Fin 4))
      = ∑ I : Fin 4, ∑ J : Fin 4, if I.val ≤ J.val then
          SepLoss.tileSum (SepLoss.attW (SepLoss.jsdTiled (KValue.kerLp m c))) b I J else 0) :
    (Body.Wfin m c (Proc.devRef .tc main_v18) : S_.Idx → EReal)
      = fun _ => SepLoss.attLossTiled (KValue.kerLp m c) (KValue.kerH m c) := by
  unfold Body.Wfin
  refine tail_att_tiled (KValue.kerLp m c) (KValue.kerH m c) (Body.Wexit m c) (fun b => ?_) (fun b => ?_)
  · rw [Body.Wexit_out]; exact hout0 b
  · rw [Body.Wexit_out]; exact hout1 b

/-- The second result of @main is the tiled repulsion loss of the arrays the region finds, given the output array's
    last two columns. -/
theorem wfin_rep
    (hout2 : ∀ b : Fin 8, ((Body.dats m 0 c).arrAt 4 cfg0.N : S8x1x4.Idx → EReal) (ix3 b (0 : Fin 1) (2 : Fin 4))
      = ∑ I : Fin 4, ∑ J : Fin 4, if I.val ≤ J.val then
          SepLoss.tileSum (fun b i j => SepLoss.energyTiled (KValue.kerH m c) b i j * SepLoss.repW (SepLoss.jsdTiled (KValue.kerLp m c)) b i j) b I J else 0)
    (hout3 : ∀ b : Fin 8, ((Body.dats m 0 c).arrAt 4 cfg0.N : S8x1x4.Idx → EReal) (ix3 b (0 : Fin 1) (3 : Fin 4))
      = ∑ I : Fin 4, ∑ J : Fin 4, if I.val ≤ J.val then
          SepLoss.tileSum (SepLoss.repW (SepLoss.jsdTiled (KValue.kerLp m c))) b I J else 0) :
    (Body.Wfin m c (Proc.devRef .tc main_v22) : S_.Idx → EReal)
      = fun _ => SepLoss.repLossTiled (KValue.kerLp m c) (KValue.kerH m c) := by
  unfold Body.Wfin
  refine tail_rep_tiled (KValue.kerLp m c) (KValue.kerH m c) (Body.Wexit m c) (fun b => ?_) (fun b => ?_)
  · rw [Body.Wexit_out]; exact hout2 b
  · rw [Body.Wexit_out]; exact hout3 b

/-! ## The result: the kernel's two results are the reference's two stage functions of the same arguments -/

section Result

variable
  (hsame : Body.V m c main_v0 = Cert.ReferenceIdeal.ReadP.val_main_v0 (F := Ideal) (m ((c : Thread nD τ).loc main_arg0)))
  (hreal : ∀ b i k cc, ∃ r : ℝ, KValue.kerLp m c b i k cc = (r : EReal))

include hsame hreal

/-- The first result: tiled loss of what the region finds = whole loss (real log-probabilities) = the reference's stage. -/
theorem result_att_of
    (hout0 : ∀ b : Fin 8, ((Body.dats m 0 c).arrAt 4 cfg0.N : S8x1x4.Idx → EReal) (ix3 b (0 : Fin 1) (0 : Fin 4))
      = ∑ I : Fin 4, ∑ J : Fin 4, if I.val ≤ J.val then
          SepLoss.tileSum (fun b i j => SepLoss.mse (KValue.kerH m c) b i j * SepLoss.attW (SepLoss.jsdTiled (KValue.kerLp m c)) b i j) b I J else 0)
    (hout1 : ∀ b : Fin 8, ((Body.dats m 0 c).arrAt 4 cfg0.N : S8x1x4.Idx → EReal) (ix3 b (0 : Fin 1) (1 : Fin 4))
      = ∑ I : Fin 4, ∑ J : Fin 4, if I.val ≤ J.val then
          SepLoss.tileSum (SepLoss.attW (SepLoss.jsdTiled (KValue.kerLp m c))) b I J else 0) :
    (Body.Wfin m c (Proc.devRef .tc main_v18) : S_.Idx → EReal)
      = Cert.ReferenceIdeal.ReadP.val_main_v59 (F := Ideal) (m ((c : Thread nD τ).loc main_arg0)) (m ((c : Thread nD τ).loc main_arg1)) := by
  rw [wfin_att m c hout0 hout1, (SepLoss.tiled_eq_whole _ _ hreal).1, kerLp_eq m c hsame, kerH_eq m c]
  exact (Cert.ReferenceIdeal.RefValue.res_att _ _).symm

/-- The second result likewise. -/
theorem result_rep_of
    (hout2 : ∀ b : Fin 8, ((Body.dats m 0 c).arrAt 4 cfg0.N : S8x1x4.Idx → EReal) (ix3 b (0 : Fin 1) (2 : Fin 4))
      = ∑ I : Fin 4, ∑ J : Fin 4, if I.val ≤ J.val then
          SepLoss.tileSum (fun b i j => SepLoss.energyTiled (KValue.kerH m c) b i j * SepLoss.repW (SepLoss.jsdTiled (KValue.kerLp m c)) b i j) b I J else 0)
    (hout3 : ∀ b : Fin 8, ((Body.dats m 0 c).arrAt 4 cfg0.N : S8x1x4.Idx → EReal) (ix3 b (0 : Fin 1) (3 : Fin 4))
      = ∑ I : Fin 4, ∑ J : Fin 4, if I.val ≤ J.val then
          SepLoss.tileSum (SepLoss.repW (SepLoss.jsdTiled (KValue.kerLp m c))) b I J else 0) :
    (Body.Wfin m c (Proc.devRef .tc main_v22) : S_.Idx → EReal)
      = Cert.ReferenceIdeal.ReadP.val_main_v70 (F := Ideal) (m ((c : Thread nD τ).loc main_arg0)) (m ((c : Thread nD τ).loc main_arg1)) := by
  rw [wfin_rep m c hout2 hout3, (SepLoss.tiled_eq_whole _ _ hreal).2, kerLp_eq m c hsame, kerH_eq m c]
  exact (Cert.ReferenceIdeal.RefValue.res_rep _ _).symm

end Result

/-! ## Under the precondition -/

/-- Every log-probability the region finds is a real number: the first argument's entries are real under the
    precondition, the log-softmax stretch is the reference's stage, and the log-softmax of reals is real. -/
theorem kerLp_real [hPre_finite_inputs : Cert.Pre_finite_inputs.Facts] (hpre : Cert.Pre_KernelIdeal m) :
    ∀ b i k cc, ∃ r : ℝ, KValue.kerLp m c b i k cc = (r : EReal) := by
  intro b i k cc
  unfold KValue.kerLp
  rw [LogSoftmaxSame.V_main_v0 m c]
  exact Cert.ReferenceIdeal.LogSoftmax.val_main_v0_real _ (Cert.PreFinite.arg0_real m hpre c) _

/-- The kernel program's first result is the tiled attraction loss of the arrays the region finds. -/
theorem kernel_att :
    (Body.Wfin m c (Proc.devRef .tc main_v18) : S_.Idx → EReal)
      = fun _ => SepLoss.attLossTiled (KValue.kerLp m c) (KValue.kerH m c) :=
  wfin_att m c (KValue.out_apply0 m c) (KValue.out_apply1 m c)

/-- The kernel program's second result is the tiled repulsion loss of the arrays the region finds. -/
theorem kernel_rep :
    (Body.Wfin m c (Proc.devRef .tc main_v22) : S_.Idx → EReal)
      = fun _ => SepLoss.repLossTiled (KValue.kerLp m c) (KValue.kerH m c) :=
  wfin_rep m c (KValue.out_apply2 m c) (KValue.out_apply3 m c)

end Cert.KernelIdeal.Bridge

namespace Cert.KernelIdeal.Bridge

open Cert.KernelIdeal Cert.KernelIdeal.Gen
open Idealize.ShloMosaic Idealize.ShloMosaic.TcCoe Idealize.ShloMosaic.ValueIdx
open Idealize.SL.Sem

/-- THE RESULT, first output: under the precondition, what the kernel program leaves in its first result is the
    reference's first stage function of the two arguments as launched. -/
theorem result_att [hPre_finite_inputs : Cert.Pre_finite_inputs.Facts] (m : (ℓ : Loc nD τ sig) → Buf (Elt Ideal) ℓ)
    (hpre : Cert.Pre_KernelIdeal m) (c : Dev nD) :
    (Body.Wfin m c (Proc.devRef .tc main_v18) : S_.Idx → EReal)
      = Cert.ReferenceIdeal.ReadP.val_main_v59 (F := Ideal) (m ((c : Thread nD τ).loc main_arg0)) (m ((c : Thread nD τ).loc main_arg1)) :=
  result_att_of m c (LogSoftmaxSame.V_main_v0 m c) (kerLp_real m c hpre) (KValue.out_apply0 m c) (KValue.out_apply1 m c)

/-- THE RESULT, second output. -/
theorem result_rep [hPre_finite_inputs : Cert.Pre_finite_inputs.Facts] (m : (ℓ : Loc nD τ sig) → Buf (Elt Ideal) ℓ)
    (hpre : Cert.Pre_KernelIdeal m) (c : Dev nD) :
    (Body.Wfin m c (Proc.devRef .tc main_v22) : S_.Idx → EReal)
      = Cert.ReferenceIdeal.ReadP.val_main_v70 (F := Ideal) (m ((c : Thread nD τ).loc main_arg0)) (m ((c : Thread nD τ).loc main_arg1)) :=
  result_rep_of m c (LogSoftmaxSame.V_main_v0 m c) (kerLp_real m c hpre) (KValue.out_apply2 m c) (KValue.out_apply3 m c)

end Cert.KernelIdeal.Bridge

end
-- ==== Proof.lean ====
/-
  The certificate of the tiled separation-loss kernel against its reference.

  The kernel cuts the 64 tokens of each of 8 batches into 4 tiles of 16 and visits the 16 tile pairs of a batch in
  order; at a pair (I, J) with I ≤ J it adds to four running sums the pair's weighted squared feature differences,
  attracting weights, weighted energies and repelling weights, the weight of a token pair decided by its
  Jensen–Shannon divergence (a sum over 1024 flattened lanes scaled by 1/64) and the strict upper triangle; the sums are
  reset at the first pair of a batch and written out at the last; the host adds the batches and forms the two
  quotients.  The reference forms the same two quotients from sums over all 64 × 64 pairs, the divergence written group
  by group.  On the extended reals the two agree whenever the logits are finite: every log-probability is then a real,
  so the divergence's two spellings are one real number; the tile pairs below the diagonal, which the kernel skips,
  carry weight zero throughout; and a sum over all pairs regroups into the kernel's sums over tile pairs.

  The three frames: the kernel's run at any float instance (the launch with two windows on one array, the body in
  its four control cases, the host lines around the region) gives both kernel programs' frames; the reference's is its
  run with the results dropped.  The idealization rewrote nothing, so it is preserved trivially.
-/
import proofs.«125674_j51513837748796_2_alg».proof.Defs
import proofs.«125674_j51513837748796_2_alg».proof.Proof.Gen.Kernel
import proofs.«125674_j51513837748796_2_alg».proof.Proof.Gen.KernelIdeal
import proofs.«125674_j51513837748796_2_alg».proof.Proof.Gen.ReferenceIdeal
import proofs.«125674_j51513837748796_2_alg».proof.Proof.Gen.Pre_finite_inputs
import proofs.«125674_j51513837748796_2_alg».proof.Proof.LaunchC
import proofs.«125674_j51513837748796_2_alg».proof.Proof.KLaunchC
import proofs.«125674_j51513837748796_2_alg».proof.Proof.RefRun
import proofs.«125674_j51513837748796_2_alg».proof.Proof.RefReadP
import proofs.«125674_j51513837748796_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves both arguments as launched. -/
theorem frame_k : Cert.frame_Kernel := fun m ρ _ =>
  (θ_run Cert.Kernel.defs _ _).mono (fun _ h c => ⟨(h c).2.2.1, (h c).2.2.2⟩) (Cert.Kernel.Body.run_main (F := Bits) m ρ)

/-- So does the idealized kernel. -/
theorem frame_ki : Cert.frame_KernelIdeal := fun m ρ _ =>
  (θ_run Cert.KernelIdeal.defs _ _).mono (fun _ h c => ⟨(h c).2.2.1, (h c).2.2.2⟩) (Cert.KernelIdeal.Body.run_main (F := Ideal) m ρ)

/-- The reference's frame is its run with the results dropped. -/
theorem frame_ri : Cert.frame_ReferenceIdeal := fun m ρ _ =>
  (θ_run Cert.ReferenceIdeal.defs _ _).mono (fun _ h c => (h c).2.2) (Cert.ReferenceIdeal.RefRun.run m ρ)

/-- No operation was rewritten. -/
theorem preserves : Cert.preserves_Kernel_KernelIdeal := trivial

/-- From memories agreeing on finite arguments both idealized programs end with the same two losses. -/
theorem algebraic : Cert.algebraic_KernelIdeal_ReferenceIdeal := by
  intro m ρ m' ρ' hpre hagree
  refine ⟨fun c => Cert.KernelIdeal.Body.Wfin m c (Proc.devRef .tc Cert.KernelIdeal.main_v18),
    fun c => Cert.KernelIdeal.Body.Wfin m c (Proc.devRef .tc Cert.KernelIdeal.main_v22), ?_, ?_⟩
  · exact (θ_run Cert.KernelIdeal.defs _ _).mono (fun _ h c => ⟨(h c).1, (h c).2.1, (h c).2.2.1, (h c).2.2.2⟩)
      (Cert.KernelIdeal.Body.run_main (F := Ideal) m ρ)
  · refine (θ_run Cert.ReferenceIdeal.defs _ _).mono (fun _ h c => ⟨(h c).1.trans ?_, (h c).2.1.trans ?_, (h c).2.2.1, (h c).2.2.2⟩)
      (Cert.ReferenceIdeal.RefRun.run m' ρ')
    · rw [(hagree c).1, (hagree c).2]
      exact (Cert.KernelIdeal.Bridge.result_att m hpre c).symm
    · rw [(hagree c).1, (hagree c).2]
      exact (Cert.KernelIdeal.Bridge.result_rep m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
